-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x32 : Shape := ⟨3, ![8, 2048, 32]⟩
abbrev S8x2048x2048 : Shape := ⟨3, ![8, 2048, 2048]⟩
abbrev S64x224 : Shape := ⟨2, ![64, 224]⟩
abbrev S64 : Shape := ⟨1, ![64]⟩
abbrev S_ : Shape := ⟨0, ![]⟩

class Facts : Prop where
  bcast_S_S8x2048x32 : S_.BroadcastsInDim S8x2048x32 (![] : Fin 0 → Fin S8x2048x32.rank)
  reducesTo_S8x2048x32_S_d0_1_2 : S8x2048x32.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S64x224 : S_.BroadcastsInDim S64x224 (![] : Fin 0 → Fin S64x224.rank)
  reducesTo_S64x224_S_d0_1 : S64x224.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64x224 .f32) (main_arg5 : FVec F S64 .f32) (main_arg6 : FVec F S64 .f32) (main_arg7 : FVec F S64 .f32) (main_v13 : IVec S_ 1) (main_v16 : IVec S8x2048x2048 1) : IVec S_ 1 :=
  let main_c_5 : IVec S_ 1 := constantI S_ 1 1#1
  let main_v17 : IVec S_ 1 := (fun x v => Host.reduce IntOp.andi x v reducesTo_S8x2048x2048_S_d0_1_2 h_S_) main_v16 main_c_5
  let main_v18 : IVec S_ 1 := andi main_v13 main_v17
  let main_v19 : FVec F S64x224 .f32 := Host.absf main_arg4
  let main_cst_6 : FVec F S_ .f32 := constant S_ .f32 0x7F800000#32
  let main_v20 : FVec F S64x224 .f32 := broadcastInDim S64x224 ![] bcast_S_S64x224 main_cst_6
  let main_v21 : IVec S64x224 1 := cmpf .olt main_v19 main_v20
  let main_c_7 : IVec S_ 1 := constantI S_ 1 1#1
  let main_v22 : IVec S_ 1 := (fun x v => Host.reduce IntOp.andi x v reducesTo_S64x224_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S8x2048x32 .f32) (main_arg1 : FVec F S8x2048x2048 .f32) (main_arg2 : FVec F S8x2048x2048 .f32) (main_arg3 : FVec F S8x2048x2048 .f32) (main_arg4 : FVec F S64x224 .f32) (main_arg5 : FVec F S64 .f32) (main_arg6 : FVec F S64 .f32) (main_arg7 : FVec F S64 .f32) : IVec S_ 1 :=
  let main_v0 : FVec F S8x2048x32 .f32 := Host.absf main_arg0
  let main_cst : FVec F S_ .f32 := constant S_ .f32 0x7F800000#32
  let main_v1 : FVec F S8x2048x32 .f32 := broadcastInDim S8x2048x32 ![] bcast_S_S8x2048x32 main_cst
  let main_v2 : IVec S8x2048x32 1 := cmpf .olt main_v0 main_v1
  let main_c : IVec S_ 1 := constantI S_ 1 1#1
  let main_v3 : IVec S_ 1 := (fun x v => Host.reduce IntOp.andi x v reducesTo_S8x2048x32_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S8x2048x2048 .f32 := Host.absf main_arg2
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  let main_v14 : FVec F S8x2048x2048 .f32 := Host.absf main_arg3
  let main_cst_4 : FVec F S_ .f32 := constant S_ .f32 0x7F800000#32
  let main_v15 : FVec F S8x2048x2048 .f32 := broadcastInDim S8x2048x2048 ![] bcast_S_S8x2048x2048 main_cst_4
  let main_v16 : IVec S8x2048x2048 1 := cmpf .olt main_v14 main_v15
  fn_part1 (F := F) main_arg4 main_arg5 main_arg6 main_arg7 main_v13 main_v16
-- ==== Kernel.lean ====
abbrev S8x2048x32 : Shape := ⟨3, ![8, 2048, 32]⟩
abbrev S8x2048x2048 : Shape := ⟨3, ![8, 2048, 2048]⟩
abbrev S64x224 : Shape := ⟨2, ![64, 224]⟩
abbrev S64 : Shape := ⟨1, ![64]⟩
abbrev S8x32x2048 : Shape := ⟨3, ![8, 32, 2048]⟩
abbrev S1x2048x2048 : Shape := ⟨3, ![1, 2048, 2048]⟩
abbrev S1x32x2048 : Shape := ⟨3, ![1, 32, 2048]⟩
abbrev S32x2048 : Shape := ⟨2, ![32, 2048]⟩
abbrev S1x2048x256 : Shape := ⟨3, ![1, 2048, 256]⟩
abbrev S2048x256 : Shape := ⟨2, ![2048, 256]⟩
abbrev S32x256 : Shape := ⟨2, ![32, 256]⟩
abbrev S1x32x256 : Shape := ⟨3, ![1, 32, 256]⟩
abbrev S64x1 : Shape := ⟨2, ![64, 1]⟩
abbrev S8x64x2048 : Shape := ⟨3, ![8, 64, 2048]⟩
abbrev S8x64x1 : Shape := ⟨3, ![8, 64, 1]⟩
abbrev S1x64x2048 : Shape := ⟨3, ![1, 64, 2048]⟩
abbrev S1x64x1 : Shape := ⟨3, ![1, 64, 1]⟩
abbrev S64x2048 : Shape := ⟨2, ![64, 2048]⟩
abbrev S64x32 : Shape := ⟨2, ![64, 32]⟩
abbrev S_ : Shape := ⟨0, ![]⟩
abbrev S8x2048x64 : Shape := ⟨3, ![8, 2048, 64]⟩
abbrev S1x2048x64 : Shape := ⟨3, ![1, 2048, 64]⟩
abbrev S2048x64 : Shape := ⟨2, ![2048, 64]⟩

abbrev nBuf : Space → Nat
  | .hbm => 34
  | .vmem => 54
  | .smem => 0
  | _ => 0

abbrev bufTy : (tb : Table) → Fin (tcTables nBuf tb) → BufTy
  | .hbm, ⟨0, _⟩ => ⟨S8x2048x32, .f32⟩
  | .hbm, ⟨1, _⟩ => ⟨S8x2048x2048, .f32⟩
  | .hbm, ⟨2, _⟩ => ⟨S8x2048x2048, .f32⟩
  | .hbm, ⟨3, _⟩ => ⟨S8x2048x2048, .f32⟩
  | .hbm, ⟨4, _⟩ => ⟨S64x224, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S8x32x2048, .f32⟩
  | .hbm, ⟨9, _⟩ => ⟨S8x32x2048, .f32⟩
  | .hbm, ⟨10, _⟩ => ⟨S8x32x2048, .f32⟩
  | .hbm, ⟨11, _⟩ => ⟨S8x32x2048, .f32⟩
  | .hbm, ⟨12, _⟩ => ⟨S8x32x2048, .f32⟩
  | .hbm, ⟨13, _⟩ => ⟨S8x32x2048, .f32⟩
  | .hbm, ⟨14, _⟩ => ⟨S8x32x2048, .f32⟩
  | .hbm, ⟨15, _⟩ => ⟨S64x1, .f32⟩
  | .hbm, ⟨16, _⟩ => ⟨S8x64x2048, .f32⟩
  | .hbm, ⟨17, _⟩ => ⟨S8x64x1, .f32⟩
  | .hbm, ⟨18, _⟩ => ⟨S8x64x1, .f32⟩
  | .hbm, ⟨19, _⟩ => ⟨S_, .f32⟩
  | .hbm, ⟨20, _⟩ => ⟨S64x1, .f32⟩
  | .hbm, ⟨21, _⟩ => ⟨S_, .f32⟩
  | .hbm, ⟨22, _⟩ => ⟨S64x1, .f32⟩
  | .hbm, ⟨23, _⟩ => ⟨S64x1, .f32⟩
  | .hbm, ⟨24, _⟩ => ⟨S_, .f32⟩
  | .hbm, ⟨25, _⟩ => ⟨S64x1, .f32⟩
  | .hbm, ⟨26, _⟩ => ⟨S_, .f32⟩
  | .hbm, ⟨27, _⟩ => ⟨S64x1, .f32⟩
  | .hbm, ⟨28, _⟩ => ⟨S64x1, .f32⟩
  | .hbm, ⟨29, _⟩ => ⟨S64x1, .f32⟩
  | .hbm, ⟨30, _⟩ => ⟨S64x1, .f32⟩
  | .hbm, ⟨31, _⟩ => ⟨S64x1, .f32⟩
  | .hbm, ⟨32, _⟩ => ⟨S64x1, .f32⟩
  | .hbm, ⟨33, _⟩ => ⟨S8x2048x64, .f32⟩
  | .local _ .vmem, ⟨0, _⟩ => ⟨S1x2048x2048, .f32⟩
  | .local _ .vmem, ⟨1, _⟩ => ⟨S1x2048x2048, .f32⟩
  | .local _ .vmem, ⟨2, _⟩ => ⟨S1x32x2048, .f32⟩
  | .local _ .vmem, ⟨3, _⟩ => ⟨S1x32x2048, .f32⟩
  | .local _ .vmem, ⟨4, _⟩ => ⟨S1x32x2048, .f32⟩
  | .local _ .vmem, ⟨5, _⟩ => ⟨S1x32x2048, .f32⟩
  | .local _ .vmem, ⟨6, _⟩ => ⟨S1x32x2048, .f32⟩
  | .local _ .vmem, ⟨7, _⟩ => ⟨S1x32x2048, .f32⟩
  | .local _ .vmem, ⟨8, _⟩ => ⟨S1x2048x2048, .f32⟩
  | .local _ .vmem, ⟨9, _⟩ => ⟨S1x2048x2048, .f32⟩
  | .local _ .vmem, ⟨10, _⟩ => ⟨S1x32x2048, .f32⟩
  | .local _ .vmem, ⟨11, _⟩ => ⟨S1x32x2048, .f32⟩
  | .local _ .vmem, ⟨12, _⟩ => ⟨S1x32x2048, .f32⟩
  | .local _ .vmem, ⟨13, _⟩ => ⟨S1x32x2048, .f32⟩
  | .local _ .vmem, ⟨14, _⟩ => ⟨S1x32x2048, .f32⟩
  | .local _ .vmem, ⟨15, _⟩ => ⟨S1x32x2048, .f32⟩
  | .local _ .vmem, ⟨16, _⟩ => ⟨S1x2048x2048, .f32⟩
  | .local _ .vmem, ⟨17, _⟩ => ⟨S1x2048x2048, .f32⟩
  | .local _ .vmem, ⟨18, _⟩ => ⟨S1x32x2048, .f32⟩
  | .local _ .vmem, ⟨19, _⟩ => ⟨S1x32x2048, .f32⟩
  | .local _ .vmem, ⟨20, _⟩ => ⟨S1x32x2048, .f32⟩
  | .local _ .vmem, ⟨21, _⟩ => ⟨S1x32x2048, .f32⟩
  | .local _ .vmem, ⟨22, _⟩ => ⟨S1x32x2048, .f32⟩
  | .local _ .vmem, ⟨23, _⟩ => ⟨S1x32x2048, .f32⟩
  | .local _ .vmem, ⟨24, _⟩ => ⟨S1x32x2048, .f32⟩
  | .local _ .vmem, ⟨25, _⟩ => ⟨S1x32x2048, .f32⟩
  | .local _ .vmem, ⟨26, _⟩ => ⟨S1x32x2048, .f32⟩
  | .local _ .vmem, ⟨27, _⟩ => ⟨S1x32x2048, .f32⟩
  | .local _ .vmem, ⟨28, _⟩ => ⟨S1x32x2048, .f32⟩
  | .local _ .vmem, ⟨29, _⟩ => ⟨S1x32x2048, .f32⟩
  | .local _ .vmem, ⟨30, _⟩ => ⟨S1x32x2048, .f32⟩
  | .local _ .vmem, ⟨31, _⟩ => ⟨S1x32x2048, .f32⟩
  | .local _ .vmem, ⟨32, _⟩ => ⟨S1x32x2048, .f32⟩
  | .local _ .vmem, ⟨33, _⟩ => ⟨S1x32x2048, .f32⟩
  | .local _ .vmem, ⟨34, _⟩ => ⟨S1x32x2048, .f32⟩
  | .local _ .vmem, ⟨35, _⟩ => ⟨S1x32x2048, .f32⟩
  | .local _ .vmem, ⟨36, _⟩ => ⟨S1x32x2048, .f32⟩
  | .local _ .vmem, ⟨37, _⟩ => ⟨S1x32x2048, .f32⟩
  | .local _ .vmem, ⟨38, _⟩ => ⟨S64x224, .f32⟩
  | .local _ .vmem, ⟨39, _⟩ => ⟨S64x1, .f32⟩
  | .local _ .vmem, ⟨40, _⟩ => ⟨S1x64x2048, .f32⟩
  | .local _ .vmem, ⟨41, _⟩ => ⟨S1x64x2048, .f32⟩
  | .local _ .vmem, ⟨42, _⟩ => ⟨S1x64x1, .f32⟩
  | .local _ .vmem, ⟨43, _⟩ => ⟨S1x64x1, .f32⟩
  | .local _ .vmem, ⟨44, _⟩ => ⟨S1x64x1, .f32⟩
  | .local _ .vmem, ⟨45, _⟩ => ⟨S1x64x1, .f32⟩
  | .local _ .vmem, ⟨46, _⟩ => ⟨S1x64x2048, .f32⟩
  | .local _ .vmem, ⟨47, _⟩ => ⟨S1x64x2048, .f32⟩
  | .local _ .vmem, ⟨48, _⟩ => ⟨S64x1, .f32⟩
  | .local _ .vmem, ⟨49, _⟩ => ⟨S64x1, .f32⟩
  | .local _ .vmem, ⟨50, _⟩ => ⟨S64x1, .f32⟩
  | .local _ .vmem, ⟨51, _⟩ => ⟨S64x1, .f32⟩
  | .local _ .vmem, ⟨52, _⟩ => ⟨S1x2048x64, .f32⟩
  | .local _ .vmem, ⟨53, _⟩ => ⟨S1x2048x64, .f32⟩
  | _, _ => ⟨S8x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v2_0 : Ref sig .tc := ⟨.hbm, 11, rfl⟩
abbrev main_v2_1 : Ref sig .tc := ⟨.hbm, 12, rfl⟩
abbrev main_v3_0 : Ref sig .tc := ⟨.hbm, 13, rfl⟩
abbrev main_v3_1 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_cst : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg5_1 : Ref sig .tc := ⟨.vmem, 35, rfl⟩
abbrev cc3_stg6_0 : Ref sig .tc := ⟨.vmem, 36, rfl⟩
abbrev cc3_stg6_1 : Ref sig .tc := ⟨.vmem, 37, rfl⟩
abbrev cc3_stg7_0 : Ref sig .tc := ⟨.vmem, 38, rfl⟩
abbrev cc3_stg8_0 : Ref sig .tc := ⟨.vmem, 39, rfl⟩
abbrev cc3_stg9_0 : Ref sig .tc := ⟨.vmem, 40, rfl⟩
abbrev cc3_stg9_1 : Ref sig .tc := ⟨.vmem, 41, rfl⟩
abbrev cc3_stg10_0 : Ref sig .tc := ⟨.vmem, 42, rfl⟩
abbrev cc3_stg10_1 : Ref sig .tc := ⟨.vmem, 43, rfl⟩
abbrev cc3_stg11_0 : Ref sig .tc := ⟨.vmem, 44, rfl⟩
abbrev cc3_stg11_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg2_0 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg5_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33
abbrev cc3_sem5_0 : DmaSem sig := 34
abbrev cc3_sem5_1 : DmaSem sig := 35
abbrev cc3_sem6_0 : DmaSem sig := 36
abbrev cc3_sem6_1 : DmaSem sig := 37
abbrev cc3_sem7_0 : DmaSem sig := 38
abbrev cc3_sem8_0 : DmaSem sig := 39
abbrev cc3_sem9_0 : DmaSem sig := 40
abbrev cc3_sem9_1 : DmaSem sig := 41
abbrev cc3_sem10_0 : DmaSem sig := 42
abbrev cc3_sem10_1 : DmaSem sig := 43
abbrev cc3_sem11_0 : DmaSem sig := 44
abbrev cc3_sem11_1 : DmaSem sig := 45
abbrev cc4_sem0_0 : DmaSem sig := 46
abbrev cc4_sem0_1 : DmaSem sig := 47
abbrev cc4_sem1_0 : DmaSem sig := 48
abbrev cc4_sem2_0 : DmaSem sig := 49
abbrev cc4_sem3_0 : DmaSem sig := 50
abbrev cc4_sem4_0 : DmaSem sig := 51
abbrev cc4_sem5_0 : DmaSem sig := 52
abbrev cc4_sem5_1 : DmaSem sig := 53

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x32x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x32x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x32x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2048x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x32x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x32x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x32x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x32x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x32x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x32x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x32x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x32x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x32x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x32x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S64x224 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S1x64x2048 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S1x64x1 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S1x64x1 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨1, ![8], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x64x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1x2048x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  transposes_S8x2048x32_S8x32x2048_0_2_1 : S8x2048x32.Transposes [0, 2, 1] S8x32x2048
  inb_S1x32x2048_S1x32x2048_0_0_0 : ∀ a, (![0, 0, 0] : Fin 3 → Nat) a + S1x32x2048.size a ≤ S1x32x2048.size a
  h_S1x32x2048 : 0 < S1x32x2048.numel
  shapeCasts_S1x32x2048_S32x2048 : S1x32x2048.ShapeCasts S32x2048
  bitsLt_bf16_f32 : FTy.bits .bf16 < FTy.bits .f32
  inb_S1x2048x2048_S1x2048x256_0_0_0 : ∀ a, (![0, 0, 0] : Fin 3 → Nat) a + S1x2048x256.size a ≤ S1x2048x2048.size a
  h_S1x2048x256 : 0 < S1x2048x256.numel
  shapeCasts_S1x2048x256_S2048x256 : S1x2048x256.ShapeCasts S2048x256
  inb_S1x32x2048_S1x32x256_0_0_0 : ∀ a, (![0, 0, 0] : Fin 3 → Nat) a + S1x32x256.size a ≤ S1x32x2048.size a
  h_S1x32x256 : 0 < S1x32x256.numel
  shapeCasts_S1x32x256_S32x256 : S1x32x256.ShapeCasts S32x256
  shapeCasts_S32x256_S1x32x256 : S32x256.ShapeCasts S1x32x256
  inb_S1x2048x2048_S1x2048x256_0_0_256 : ∀ a, (![0, 0, 256] : Fin 3 → Nat) a + S1x2048x256.size a ≤ S1x2048x2048.size a
  inb_S1x32x2048_S1x32x256_0_0_256 : ∀ a, (![0, 0, 256] : Fin 3 → Nat) a + S1x32x256.size a ≤ S1x32x2048.size a
  inb_S1x2048x2048_S1x2048x256_0_0_512 : ∀ a, (![0, 0, 512] : Fin 3 → Nat) a + S1x2048x256.size a ≤ S1x2048x2048.size a
  inb_S1x32x2048_S1x32x256_0_0_512 : ∀ a, (![0, 0, 512] : Fin 3 → Nat) a + S1x32x256.size a ≤ S1x32x2048.size a
  inb_S1x2048x2048_S1x2048x256_0_0_768 : ∀ a, (![0, 0, 768] : Fin 3 → Nat) a + S1x2048x256.size a ≤ S1x2048x2048.size a
  inb_S1x32x2048_S1x32x256_0_0_768 : ∀ a, (![0, 0, 768] : Fin 3 → Nat) a + S1x32x256.size a ≤ S1x32x2048.size a
  inb_S1x2048x2048_S1x2048x256_0_0_1024 : ∀ a, (![0, 0, 1024] : Fin 3 → Nat) a + S1x2048x256.size a ≤ S1x2048x2048.size a
  inb_S1x32x2048_S1x32x256_0_0_1024 : ∀ a, (![0, 0, 1024] : Fin 3 → Nat) a + S1x32x256.size a ≤ S1x32x2048.size a
  inb_S1x2048x2048_S1x2048x256_0_0_1280 : ∀ a, (![0, 0, 1280] : Fin 3 → Nat) a + S1x2048x256.size a ≤ S1x2048x2048.size a
  inb_S1x32x2048_S1x32x256_0_0_1280 : ∀ a, (![0, 0, 1280] : Fin 3 → Nat) a + S1x32x256.size a ≤ S1x32x2048.size a
  inb_S1x2048x2048_S1x2048x256_0_0_1536 : ∀ a, (![0, 0, 1536] : Fin 3 → Nat) a + S1x2048x256.size a ≤ S1x2048x2048.size a
  inb_S1x32x2048_S1x32x256_0_0_1536 : ∀ a, (![0, 0, 1536] : Fin 3 → Nat) a + S1x32x256.size a ≤ S1x32x2048.size a
  inb_S1x2048x2048_S1x2048x256_0_0_1792 : ∀ a, (![0, 0, 1792] : Fin 3 → Nat) a + S1x2048x256.size a ≤ S1x2048x2048.size a
  inb_S1x32x2048_S1x32x256_0_0_1792 : ∀ a, (![0, 0, 1792] : Fin 3 → Nat) a + S1x32x256.size a ≤ S1x32x2048.size a
  bcast_S64_S64x1_0 : S64.BroadcastsInDim S64x1 (![0] : Fin 1 → Fin S64x1.rank)
  inb_S64x224_S64x224_0_0 : ∀ a, (![0, 0] : Fin 2 → Nat) a + S64x224.size a ≤ S64x224.size a
  h_S64x224 : 0 < S64x224.numel
  slices_S64x224_o0_0_S64x32 : S64x224.Slices ![0, 0] S64x32
  slices_S64x224_o0_32_S64x32 : S64x224.Slices ![0, 32] S64x32
  slices_S64x224_o0_64_S64x32 : S64x224.Slices ![0, 64] S64x32
  slices_S64x224_o0_96_S64x32 : S64x224.Slices ![0, 96] S64x32
  slices_S64x224_o0_128_S64x32 : S64x224.Slices ![0, 128] S64x32
  slices_S64x224_o0_160_S64x32 : S64x224.Slices ![0, 160] S64x32
  slices_S64x224_o0_192_S64x32 : S64x224.Slices ![0, 192] S64x32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x2048 : S64x1.Broadcasts S64x2048
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  shapeCasts_S64x2048_S1x64x2048 : S64x2048.ShapeCasts S1x64x2048
  reduces_S64x2048_S64 : S64x2048.Reduces [1] S64
  shapeCasts_S64_S64x1 : S64.ShapeCasts S64x1
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  reducesTo_S8x64x1_S64x1_d0 : S8x64x1.ReducesTo [0] S64x1
  h_S_ : 0 < S_.numel
  bcast_S_S64x1 : S_.BroadcastsInDim S64x1 (![] : Fin 0 → Fin S64x1.rank)
  transposes_S64x2048_p1_0_S2048x64 : S64x2048.Transposes [1, 0] S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  dot_S32x2048_S2048x256_S32x256_1_0_0_1_n_n_wf : DotDims.WF S32x2048 S2048x256 S32x256 [1] [0] [0] [1] [] []
  dot_S64x32_S32x2048_S64x2048_1_0_0_1_n_n_wf : DotDims.WF S64x32 S32x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x2048.size a ≤ S8x2048x2048.size a
  hwx0_0 : ∀ i : grid0.Coords, EltTy.bits .f32 = 32 ∨ (Rect.block (s := S8x2048x2048) S1x2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x2048.size a ≤ S8x32x2048.size a
  hwx0_1 : ∀ i : grid0.Coords, EltTy.bits .f32 = 32 ∨ (Rect.block (s := S8x32x2048) S1x32x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x2048.size a ≤ S8x32x2048.size a
  hwx0_2 : ∀ i : grid0.Coords, EltTy.bits .f32 = 32 ∨ (Rect.block (s := S8x32x2048) S1x32x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x2048.size a ≤ S8x32x2048.size a
  hwx0_3 : ∀ i : grid0.Coords, EltTy.bits .f32 = 32 ∨ (Rect.block (s := S8x32x2048) S1x32x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x2048.size a ≤ S8x2048x2048.size a
  hwx1_0 : ∀ i : grid1.Coords, EltTy.bits .f32 = 32 ∨ (Rect.block (s := S8x2048x2048) S1x2048x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x2048.size a ≤ S8x32x2048.size a
  hwx1_1 : ∀ i : grid1.Coords, EltTy.bits .f32 = 32 ∨ (Rect.block (s := S8x32x2048) S1x32x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32x2048.size a ≤ S8x32x2048.size a
  hwx1_2 : ∀ i : grid1.Coords, EltTy.bits .f32 = 32 ∨ (Rect.block (s := S8x32x2048) S1x32x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x32x2048.size a ≤ S8x32x2048.size a
  hwx1_3 : ∀ i : grid1.Coords, EltTy.bits .f32 = 32 ∨ (Rect.block (s := S8x32x2048) S1x32x2048.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x2048.size a ≤ S8x2048x2048.size a
  hwx2_0 : ∀ i : grid2.Coords, EltTy.bits .f32 = 32 ∨ (Rect.block (s := S8x2048x2048) S1x2048x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x32x2048.size a ≤ S8x32x2048.size a
  hwx2_1 : ∀ i : grid2.Coords, EltTy.bits .f32 = 32 ∨ (Rect.block (s := S8x32x2048) S1x32x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x32x2048.size a ≤ S8x32x2048.size a
  hwx2_2 : ∀ i : grid2.Coords, EltTy.bits .f32 = 32 ∨ (Rect.block (s := S8x32x2048) S1x32x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x32x2048.size a ≤ S8x32x2048.size a
  hwx2_3 : ∀ i : grid2.Coords, EltTy.bits .f32 = 32 ∨ (Rect.block (s := S8x32x2048) S1x32x2048.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x32x2048.size a ≤ S8x32x2048.size a
  hwx3_0 : ∀ i : grid3.Coords, EltTy.bits .f32 = 32 ∨ (Rect.block (s := S8x32x2048) S1x32x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x32x2048.size a ≤ S8x32x2048.size a
  hwx3_1 : ∀ i : grid3.Coords, EltTy.bits .f32 = 32 ∨ (Rect.block (s := S8x32x2048) S1x32x2048.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x32x2048.size a ≤ S8x32x2048.size a
  hwx3_2 : ∀ i : grid3.Coords, EltTy.bits .f32 = 32 ∨ (Rect.block (s := S8x32x2048) S1x32x2048.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x32x2048.size a ≤ S8x32x2048.size a
  hwx3_3 : ∀ i : grid3.Coords, EltTy.bits .f32 = 32 ∨ (Rect.block (s := S8x32x2048) S1x32x2048.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x32x2048.size a ≤ S8x32x2048.size a
  hwx3_4 : ∀ i : grid3.Coords, EltTy.bits .f32 = 32 ∨ (Rect.block (s := S8x32x2048) S1x32x2048.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x32x2048.size a ≤ S8x32x2048.size a
  hwx3_5 : ∀ i : grid3.Coords, EltTy.bits .f32 = 32 ∨ (Rect.block (s := S8x32x2048) S1x32x2048.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x32x2048.size a ≤ S8x32x2048.size a
  hwx3_6 : ∀ i : grid3.Coords, EltTy.bits .f32 = 32 ∨ (Rect.block (s := S8x32x2048) S1x32x2048.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x224.size a ≤ S64x224.size a
  hwx3_7 : ∀ i : grid3.Coords, EltTy.bits .f32 = 32 ∨ (Rect.block (s := S64x224) S64x224.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x1.size a ≤ S64x1.size a
  hwx3_8 : ∀ i : grid3.Coords, EltTy.bits .f32 = 32 ∨ (Rect.block (s := S64x1) S64x1.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1x64x2048.size a ≤ S8x64x2048.size a
  hwx3_9 : ∀ i : grid3.Coords, EltTy.bits .f32 = 32 ∨ (Rect.block (s := S8x64x2048) S1x64x2048.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S1x64x1.size a ≤ S8x64x1.size a
  hwx3_10 : ∀ i : grid3.Coords, EltTy.bits .f32 = 32 ∨ (Rect.block (s := S8x64x1) S1x64x1.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S1x64x1.size a ≤ S8x64x1.size a
  hwx3_11 : ∀ i : grid3.Coords, EltTy.bits .f32 = 32 ∨ (Rect.block (s := S8x64x1) S1x64x1.size (cc3_transform_11 i) (hinb3_11 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x64x2048.size a ≤ S8x64x2048.size a
  hwx4_0 : ∀ i : grid4.Coords, EltTy.bits .f32 = 32 ∨ (Rect.block (s := S8x64x2048) S1x64x2048.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x1.size a ≤ S64x1.size a
  hwx4_2 : ∀ i : grid4.Coords, EltTy.bits .f32 = 32 ∨ (Rect.block (s := S64x1) S64x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x1.size a ≤ S64x1.size a
  hwx4_4 : ∀ i : grid4.Coords, EltTy.bits .f32 = 32 ∨ (Rect.block (s := S64x1) S64x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x2048x64.size a ≤ S8x2048x64.size a
  hwx4_5 : ∀ i : grid4.Coords, EltTy.bits .f32 = 32 ∨ (Rect.block (s := S8x2048x64) S1x2048x64.size (cc4_transform_5 i) (hinb4_5 i)).WholeWords (EltTy.packing .f32)

variable [Facts₀]

def dot_S32x2048_S2048x256_S32x256_1_0_0_1_n_n : DotDims S32x2048 S2048x256 S32x256 where
  lhsContracting := [1]
  rhsContracting := [0]
  lhsNonContracting := [0]
  rhsNonContracting := [1]
  lhsBatch := []
  rhsBatch := []
  wf := dot_S32x2048_S2048x256_S32x256_1_0_0_1_n_n_wf
def dot_S64x32_S32x2048_S64x2048_1_0_0_1_n_n : DotDims S64x32 S32x2048 S64x2048 where
  lhsContracting := [1]
  rhsContracting := [0]
  lhsNonContracting := [0]
  rhsNonContracting := [1]
  lhsBatch := []
  rhsBatch := []
  wf := dot_S64x32_S32x2048_S64x2048_1_0_0_1_n_n_wf

abbrev win0_0 : Pipeline.Window sig grid0 :=
  Pipeline.Window.ofSpec (Memref.whole main_arg1) S1x2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x32x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x32x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S1x2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x32x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S1x32x2048.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S1x32x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg3) S1x2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1x32x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3_0) S1x32x2048.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3_1) S1x32x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v0) S1x32x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1_0) S1x32x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v1_1) S1x32x2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v2_0) S1x32x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v2_1) S1x32x2048.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v3_0) S1x32x2048.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v3_1) S1x32x2048.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_arg4) S64x224.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v4) S64x1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v5_0) S1x64x2048.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v5_1) S1x64x1.size cc3_transform_10 reads3_10 true false 2 stage3_10 sem3_10
    hrank3 hreads3_10 hinb3_10 nbuf3_10 (Memref.isWhole_whole _) hwx3_10 hstage3_10

abbrev win3_11 : Pipeline.Window sig grid3 :=
  Pipeline.Window.ofSpec (Memref.whole main_v5_2) S1x64x1.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev win4_0 : Pipeline.Window sig grid4 :=
  Pipeline.Window.ofSpec (Memref.whole main_v5_0) S1x64x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v8) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v13) S64x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v14) S64x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v15) S64x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v16) S1x2048x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S8x2048x32 : Shape := ⟨3, ![8, 2048, 32]⟩
abbrev S8x2048x2048 : Shape := ⟨3, ![8, 2048, 2048]⟩
abbrev S64x224 : Shape := ⟨2, ![64, 224]⟩
abbrev S64 : Shape := ⟨1, ![64]⟩
abbrev S8x2048x224 : Shape := ⟨3, ![8, 2048, 224]⟩
abbrev S8x2048x64 : Shape := ⟨3, ![8, 2048, 64]⟩
abbrev S1x1x64 : Shape := ⟨3, ![1, 1, 64]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S8x2048x32, .f32⟩
  | .hbm, ⟨1, _⟩ => ⟨S8x2048x2048, .f32⟩
  | .hbm, ⟨2, _⟩ => ⟨S8x2048x2048, .f32⟩
  | .hbm, ⟨3, _⟩ => ⟨S8x2048x2048, .f32⟩
  | .hbm, ⟨4, _⟩ => ⟨S64x224, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S8x2048x32, .f32⟩
  | .hbm, ⟨9, _⟩ => ⟨S8x2048x32, .f32⟩
  | .hbm, ⟨10, _⟩ => ⟨S8x2048x32, .f32⟩
  | .hbm, ⟨11, _⟩ => ⟨S8x2048x32, .f32⟩
  | .hbm, ⟨12, _⟩ => ⟨S8x2048x32, .f32⟩
  | .hbm, ⟨13, _⟩ => ⟨S8x2048x32, .f32⟩
  | .hbm, ⟨14, _⟩ => ⟨S8x2048x224, .f32⟩
  | .hbm, ⟨15, _⟩ => ⟨S8x2048x64, .f32⟩
  | .hbm, ⟨16, _⟩ => ⟨S1x1x64, .f32⟩
  | .hbm, ⟨17, _⟩ => ⟨S8x2048x64, .f32⟩
  | .hbm, ⟨18, _⟩ => ⟨S8x2048x64, .f32⟩
  | .hbm, ⟨19, _⟩ => ⟨S_, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .i32⟩
  | .hbm, ⟨25, _⟩ => ⟨S_, .f32⟩
  | .hbm, ⟨26, _⟩ => ⟨S64, .f32⟩
  | .hbm, ⟨27, _⟩ => ⟨S1x1x64, .f32⟩
  | .hbm, ⟨28, _⟩ => ⟨S_, .f32⟩
  | .hbm, ⟨29, _⟩ => ⟨S1x1x64, .f32⟩
  | .hbm, ⟨30, _⟩ => ⟨S1x1x64, .f32⟩
  | .hbm, ⟨31, _⟩ => ⟨S8x2048x64, .f32⟩
  | .hbm, ⟨32, _⟩ => ⟨S8x2048x64, .f32⟩
  | .hbm, ⟨33, _⟩ => ⟨S8x2048x64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S_, .i1⟩
  | .hbm, ⟨43, _⟩ => ⟨S_, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S1x1x64, .f32⟩
  | .hbm, ⟨48, _⟩ => ⟨S8x2048x64, .f32⟩
  | .hbm, ⟨49, _⟩ => ⟨S8x2048x64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S1x1x64, .f32⟩
  | .hbm, ⟨55, _⟩ => ⟨S8x2048x64, .f32⟩
  | .hbm, ⟨56, _⟩ => ⟨S8x2048x64, .f32⟩
  | .hbm, ⟨57, _⟩ => ⟨S1x1x64, .f32⟩
  | .hbm, ⟨58, _⟩ => ⟨S8x2048x64, .f32⟩
  | .hbm, ⟨59, _⟩ => ⟨S8x2048x64, .f32⟩
  | .hbm, ⟨60, _⟩ => ⟨S1x1x64, .f32⟩
  | .hbm, ⟨61, _⟩ => ⟨S8x2048x64, .f32⟩
  | .hbm, ⟨62, _⟩ => ⟨S8x2048x64, .f32⟩
  | _, _ => ⟨S8x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_cst_1 : Ref sig .tc := ⟨.hbm, 35, rfl⟩
abbrev main_call0_v8 : Ref sig .tc := ⟨.hbm, 36, rfl⟩
abbrev main_call0_cst_2 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_cst_3 : Ref sig .tc := ⟨.hbm, 41, rfl⟩
abbrev main_call0_v12 : Ref sig .tc := ⟨.hbm, 42, rfl⟩
abbrev main_call0_cst_4 : Ref sig .tc := ⟨.hbm, 43, rfl⟩
abbrev main_call0_call0_v0 : Ref sig .tc := ⟨.hbm, 44, rfl⟩
abbrev main_call0_call0_v1 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_1 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩

abbrev nD : Nat := 1
abbrev τ : Topo := Topo.v7x

variable {F : FTy → Type} [FloatOps F]

class Facts₀ : Prop where
  concatenates_S8x2048x32_S8x2048x32_S8x2048x32_S8x2048x32_S8x2048x32_S8x2048x32_S8x2048x32_S8x2048x224_d2 : Shape.Concatenates [S8x2048x32, S8x2048x32, S8x2048x32, S8x2048x32, S8x2048x32, S8x2048x32, S8x2048x32] S8x2048x224 2
  bcast_S64_S1x1x64_2 : S64.BroadcastsInDim S1x1x64 (![2] : Fin 1 → Fin S1x1x64.rank)
  bcast_S1x1x64_S8x2048x64_0_1_2 : S1x1x64.BroadcastsInDim S8x2048x64 (![0, 1, 2] : Fin 3 → Fin S8x2048x64.rank)
  reducesTo_S8x2048x64_S64_d0_1 : S8x2048x64.ReducesTo [0, 1] S64
  h_S_ : 0 < S_.numel
  bcast_S_S64 : S_.BroadcastsInDim S64 (![] : Fin 0 → Fin S64.rank)
  bcast_S_S1x1x64 : S_.BroadcastsInDim S1x1x64 (![] : Fin 0 → Fin S1x1x64.rank)
  dot_S8x2048x2048_S8x2048x32_S8x2048x32_1_1_2_2_0_0_wf : DotDims.WF S8x2048x2048 S8x2048x32 S8x2048x32 [1] [1] [2] [2] [0] [0]
  dot_S8x2048x224_S64x224_S8x2048x64_2_1_01_0_n_n_wf : DotDims.WF S8x2048x224 S64x224 S8x2048x64 [2] [1] [0, 1] [0] [] []

variable [Facts₀]

def dot_S8x2048x2048_S8x2048x32_S8x2048x32_1_1_2_2_0_0 : DotDims S8x2048x2048 S8x2048x32 S8x2048x32 where
  lhsContracting := [1]
  rhsContracting := [1]
  lhsNonContracting := [2]
  rhsNonContracting := [2]
  lhsBatch := [0]
  rhsBatch := [0]
  wf := dot_S8x2048x2048_S8x2048x32_S8x2048x32_1_1_2_2_0_0_wf
def dot_S8x2048x224_S64x224_S8x2048x64_2_1_01_0_n_n : DotDims S8x2048x224 S64x224 S8x2048x64 where
  lhsContracting := [2]
  rhsContracting := [1]
  lhsNonContracting := [0, 1]
  rhsNonContracting := [0]
  lhsBatch := []
  rhsBatch := []
  wf := dot_S8x2048x224_S64x224_S8x2048x64_2_1_01_0_n_n_wf

class Facts : Prop extends Facts₀ where

variable [Facts]
-- ==== Proof.KRun.lean ====
/-
  The idealized kernel's run with its result named. Every weakly fair execution of the program from a launch memory
  terminates without a fault; at the end each argument array holds what it held at launch, and the result array
  holds the contents the last region's write-backs leave, `W8 m ρ c` read at the result's reference: the value the
  other modules compute region by region back to the arguments.
-/
import proofs.«100048_j70317204570386_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run ends with the result array at the last boundary's contents and every argument array as launched. -/
theorem run_named : θ_run defs (onTc (τ := τ) (main (F := F))) ⟨m, fun _ => 0, ρ⟩ (fun r => ∀ c : Dev nD,
      r.2.mem ((c.tc : Thread nD τ).loc main_v16) = W8 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v16 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Named

end
-- ==== Proof.Spec.lean ====
/-
  The functions both programs compute, written once as plain functions on index tuples over the extended reals.

  Features are kept channel-major, [sample, channel, node]. One diffusion step with adjacency `a` sends `h` to
  `hop a h`, whose entry (n, c, w) is the sum over nodes v of h (n, c, v) · a (n, v, w). Seven slabs of 32 channels
  (the input, and one and two steps along each of three adjacencies) are mixed channel-wise by a 64 × 224 matrix and
  a bias column into `mix`; `rowSum` and `rowSumSq` are the sums of a channel's entries and of their squares over the
  nodes of one sample; `normalize` subtracts a per-channel mean, scales by the reciprocal square root of a per-channel
  variance plus a small constant, scales and shifts per channel, and returns the result node-major,
  [sample, node, channel].
-/
import Idealize.ShloMosaic.PureOps.Ideal
import Idealize.ShloMosaic.Lib.ValueIdx

noncomputable section

namespace Cert.Spec

open Idealize.ShloMosaic Idealize.ShloMosaic.ValueIdx

/-- node-major features [8, 2048, 32] -/
abbrev SNodeFeat : Shape := ⟨3, ![8, 2048, 32]⟩
/-- adjacencies [8, 2048, 2048] -/
abbrev SAdj : Shape := ⟨3, ![8, 2048, 2048]⟩
/-- channel-major features [8, 32, 2048] -/
abbrev SFeat : Shape := ⟨3, ![8, 32, 2048]⟩
/-- the mixing matrix [64, 224] -/
abbrev SMat : Shape := ⟨2, ![64, 224]⟩
/-- a per-channel column [64, 1] -/
abbrev SCol : Shape := ⟨2, ![64, 1]⟩
/-- channel-major mixed features [8, 64, 2048] -/
abbrev SMixed : Shape := ⟨3, ![8, 64, 2048]⟩
/-- per-sample, per-channel statistics [8, 64, 1] -/
abbrev SStat : Shape := ⟨3, ![8, 64, 1]⟩
/-- the node-major result [8, 2048, 64] -/
abbrev SOut : Shape := ⟨3, ![8, 2048, 64]⟩

/-- Node-major features read channel-major: entry (n, c, v) is x (n, v, c). -/
def chanMajor (x : SNodeFeat.Idx → EReal) : SFeat.Idx → EReal :=
  fun j => x (ix3 (j 0) (j 2) (j 1))

/-- One diffusion step: entry (n, c, w) is the sum over nodes v of h (n, c, v) · a (n, v, w). -/
def hop (a : SAdj.Idx → EReal) (h : SFeat.Idx → EReal) : SFeat.Idx → EReal :=
  fun j => ∑ v : Fin 2048, h (ix3 (j 0) (j 1) v) * a (ix3 (j 0) v (j 2))

/-- Column 32·i + c of the mixing matrix, as an index into its 224 columns. -/
def slabCol (i : Fin 7) (c : Fin 32) : Fin 224 := ⟨32 * i.val + c.val, by omega⟩

/-- The channel-wise mix of seven slabs: entry (n, o, v) is the sum over slabs i and channels c of
    W (o, 32·i + c) · h i (n, c, v), plus the bias b (o, 0). -/
def mix (h : Fin 7 → SFeat.Idx → EReal) (W : SMat.Idx → EReal) (b : SCol.Idx → EReal) : SMixed.Idx → EReal :=
  fun j => (∑ i : Fin 7, ∑ c : Fin 32, W (ix2 (j 1) (slabCol i c)) * h i (ix3 (j 0) c (j 2))) + b (ix2 (j 1) 0)

/-- The sum of a channel's entries over the nodes of one sample. -/
def rowSum (s : SMixed.Idx → EReal) : SStat.Idx → EReal :=
  fun j => ∑ v : Fin 2048, s (ix3 (j 0) (j 1) v)

/-- The sum of the squares of a channel's entries over the nodes of one sample. -/
def rowSumSq (s : SMixed.Idx → EReal) : SStat.Idx → EReal :=
  fun j => ∑ v : Fin 2048, s (ix3 (j 0) (j 1) v) * s (ix3 (j 0) (j 1) v)

/-- The small constant added to the variance: the single-precision number nearest 10⁻⁵. -/
def eps : EReal := Ideal.ofBits .f32 0x3727C5AC#32

/-- Normalisation with a given per-channel mean and variance, then a per-channel scale and shift, returned
    node-major: entry (n, v, o) is ((s (n, o, v) − mean o) · rsqrt (var o + eps)) · scale o + shift o. -/
def normalize (s : SMixed.Idx → EReal) (mean var scale shift : SCol.Idx → EReal) : SOut.Idx → EReal :=
  fun j => ((s (ix3 (j 0) (j 2) (j 1)) - mean (ix2 (j 2) 0)) * Ideal.rsqrt (var (ix2 (j 2) 0) + eps)) * scale (ix2 (j 2) 0)
    + shift (ix2 (j 2) 0)

end Cert.Spec

end
-- ==== Proof.KGlue.lean ====
/-
  The host operations between the kernel's regions, read at an index.

  Before the first region the node-major features are transposed channel-major. Before the mixing region the bias
  vector is made a column. Between the mixing region and the normalising region the per-sample row sums and row sums
  of squares are added over the eight samples (a sum that starts from the value zero), each total is divided by
  16384, the count of (sample, node) pairs, giving a per-channel mean and mean of squares; the variance is the mean of
  squares minus the square of the mean; and the scale and shift vectors are made columns.
-/
import proofs.«100048_j70317204570386_2_alg».proof.Proof.Gen.KernelIdeal.Launch
import proofs.«100048_j70317204570386_2_alg».proof.Proof.Spec
import Idealize.ShloMosaic.Lib.IdealHost
import Idealize.ShloMosaic.Lib.ValueLayout
import Idealize.ShloMosaic.Lib.Pipeline.Value
import Idealize.ShloMosaic.Lib.StableHlo.Run

noncomputable section

namespace Cert.KernelIdeal.Glue

open Idealize.ShloMosaic Idealize.ShloMosaic.TcCoe Idealize.ShloMosaic.ValueIdx Idealize.ShloMosaic.StableHlo
open Cert.KernelIdeal Cert.KernelIdeal.Gen

/-- A per-channel vector as a column: entry (o, 0) is the vector's entry o. -/
def column (b : S64.Idx → EReal) : Cert.Spec.SCol.Idx → EReal := fun j => b (ix1 (j 0))

/-- The count of (sample, node) pairs, 8 · 2048 = 16384, as the single-precision word the programs divide by. -/
def count : EReal := Ideal.ofBits .f32 0x46800000#32

/-- The per-channel mean of per-sample totals: the totals added over the eight samples from zero, divided by the count. -/
def colMean (t : Cert.Spec.SStat.Idx → EReal) : Cert.Spec.SCol.Idx → EReal :=
  fun j => Ideal.div (0 + ∑ n : Fin 8, t (ix3 n (j 0) (j 1))) count

/-- The per-channel variance as the mean of squares minus the squared mean. -/
def colVar (t1 t2 : Cert.Spec.SStat.Idx → EReal) : Cert.Spec.SCol.Idx → EReal :=
  fun j => colMean t2 j - colMean t1 j * colMean t1 j

variable (W : Valuation τ sig (Elt Ideal))

/-- After the first stretch the transposed buffer holds the features channel-major. -/
theorem transposed :
    (StableHlo.after (hostOps0 (F := Ideal)) W (Proc.devRef .tc main_v0) : S8x32x2048.Idx → EReal)
      = Cert.Spec.chanMajor (W (Proc.devRef .tc main_arg0)) := by
  have e : StableHlo.after (hostOps0 (F := Ideal)) W (Proc.devRef .tc main_v0)
      = transpose S8x32x2048 [0, 2, 1] (W (Proc.devRef .tc main_arg0)) transposes_S8x2048x32_S8x32x2048_0_2_1 := by
    after_results
  rw [e]
  funext j
  obtain ⟨n, c, v, rfl⟩ : ∃ (n : Fin 8) (c : Fin 32) (v : Fin 2048), j = ix3 n c v := ⟨j 0, j 1, j 2, eq_ix3 j⟩
  rw [transpose_ix3_021_apply]
  rfl

/-- A vector made a column by the host reads, at (o, z), the vector's entry o. -/
theorem column_read (b : S64.Idx → EReal) :
    (broadcastInDim S64x1 ![0] bcast_S64_S64x1_0 b : S64x1.Idx → EReal) = column b := by
  funext j
  exact broadcastInDim_apply _ _ b j (ix1 (j 0)) (fun a => match a with | ⟨0, _⟩ => rfl)

/-- After the second stretch the bias column's buffer holds the bias vector as a column. -/
theorem bias_column :
    (StableHlo.after (hostOps3 (F := Ideal)) W (Proc.devRef .tc main_v4) : S64x1.Idx → EReal)
      = column (W (Proc.devRef .tc main_arg5)) := by
  have e : StableHlo.after (hostOps3 (F := Ideal)) W (Proc.devRef .tc main_v4)
      = broadcastInDim S64x1 ![0] bcast_S64_S64x1_0 (W (Proc.devRef .tc main_arg5)) := by
    after_results
  rw [e]
  exact column_read _

/-- The host's sum over the eight samples, from zero, divided by the splat count, is the per-channel mean. -/
theorem mean_read (t : S8x64x1.Idx → EReal) :
    (Host.divf (F := Ideal) (Host.reduceAdd (F := Ideal) t (constant (F := Ideal) S_ .f32 0x00000000#32) reducesTo_S8x64x1_S64x1_d0 h_S_)
      (broadcastInDim S64x1 ![] bcast_S_S64x1 (constant (F := Ideal) S_ .f32 0x46800000#32)) : S64x1.Idx → EReal)
      = colMean t := by
  funext j
  rw [hostDivf_apply, hostReduceAdd_apply, broadcastInDim_scalar_apply, constant_apply, constant_apply,
    Ideal.hostReduceAdd_single reducesTo_S8x64x1_S64x1_d0 (by decide), Ideal.ofBits_zero_f32]
  unfold colMean count
  refine congrArg (fun s => Ideal.div (0 + s) _) ?_
  exact Finset.sum_congr rfl fun n _ => congrArg t (funext fun a => Fin.ext (by
    match a with
    | ⟨0, _⟩ => rfl
    | ⟨1, _⟩ => rfl
    | ⟨2, _⟩ => rfl))

/-- After the third stretch: the mean column. -/
theorem mean_column :
    (StableHlo.after (hostOps4 (F := Ideal)) W (Proc.devRef .tc main_v8) : S64x1.Idx → EReal)
      = colMean (W (Proc.devRef .tc main_v5_1)) := by
  have e : StableHlo.after (hostOps4 (F := Ideal)) W (Proc.devRef .tc main_v8)
      = Host.divf (F := Ideal) (Host.reduceAdd (F := Ideal) (W (Proc.devRef .tc main_v5_1)) (constant (F := Ideal) S_ .f32 0x00000000#32) reducesTo_S8x64x1_S64x1_d0 h_S_)
          (broadcastInDim S64x1 ![] bcast_S_S64x1 (constant (F := Ideal) S_ .f32 0x46800000#32)) := by
    after_results
  rw [e]
  exact mean_read _

/-- After the third stretch: the variance column, the mean of squares minus the squared mean. -/
theorem var_column :
    (StableHlo.after (hostOps4 (F := Ideal)) W (Proc.devRef .tc main_v13) : S64x1.Idx → EReal)
      = colVar (W (Proc.devRef .tc main_v5_1)) (W (Proc.devRef .tc main_v5_2)) := by
  have e : StableHlo.after (hostOps4 (F := Ideal)) W (Proc.devRef .tc main_v13)
      = subf
          (Host.divf (F := Ideal) (Host.reduceAdd (F := Ideal) (W (Proc.devRef .tc main_v5_2)) (constant (F := Ideal) S_ .f32 0x00000000#32) reducesTo_S8x64x1_S64x1_d0 h_S_)
            (broadcastInDim S64x1 ![] bcast_S_S64x1 (constant (F := Ideal) S_ .f32 0x46800000#32)))
          (mulf
            (Host.divf (F := Ideal) (Host.reduceAdd (F := Ideal) (W (Proc.devRef .tc main_v5_1)) (constant (F := Ideal) S_ .f32 0x00000000#32) reducesTo_S8x64x1_S64x1_d0 h_S_)
              (broadcastInDim S64x1 ![] bcast_S_S64x1 (constant (F := Ideal) S_ .f32 0x46800000#32)))
            (Host.divf (F := Ideal) (Host.reduceAdd (F := Ideal) (W (Proc.devRef .tc main_v5_1)) (constant (F := Ideal) S_ .f32 0x00000000#32) reducesTo_S8x64x1_S64x1_d0 h_S_)
              (broadcastInDim S64x1 ![] bcast_S_S64x1 (constant (F := Ideal) S_ .f32 0x46800000#32)))) := by
    after_results
  rw [e, mean_read, mean_read]
  rfl

/-- After the third stretch: the scale column. -/
theorem scale_column :
    (StableHlo.after (hostOps4 (F := Ideal)) W (Proc.devRef .tc main_v14) : S64x1.Idx → EReal)
      = column (W (Proc.devRef .tc main_arg6)) := by
  have e : StableHlo.after (hostOps4 (F := Ideal)) W (Proc.devRef .tc main_v14)
      = broadcastInDim S64x1 ![0] bcast_S64_S64x1_0 (W (Proc.devRef .tc main_arg6)) := by
    after_results
  rw [e]
  exact column_read _

/-- After the third stretch: the shift column. -/
theorem shift_column :
    (StableHlo.after (hostOps4 (F := Ideal)) W (Proc.devRef .tc main_v15) : S64x1.Idx → EReal)
      = column (W (Proc.devRef .tc main_arg7)) := by
  have e : StableHlo.after (hostOps4 (F := Ideal)) W (Proc.devRef .tc main_v15)
      = broadcastInDim S64x1 ![0] bcast_S64_S64x1_0 (W (Proc.devRef .tc main_arg7)) := by
    after_results
  rw [e]
  exact column_read _

end Cert.KernelIdeal.Glue

end
-- ==== Proof.KNorm.lean ====
/-
  The normalising region's stored value at an index.

  The body takes one sample's channel-major mixed features (a [1, 64, 2048] block) and four per-channel columns
  (variance, mean, scale, shift). It adds the small constant to the variance and takes the reciprocal square root;
  subtracts the mean from every entry of a channel's row; multiplies by the reciprocal square root, then by the
  scale; adds the shift; and transposes, so that the stored [1, 2048, 64] block holds at (0, v, o)
      ((x (0, o, v) − mean o) · rsqrt (variance o + ε)) · scale o + shift o.
-/
import proofs.«100048_j70317204570386_2_alg».proof.Proof.Gen.KernelIdeal.Skeleton
import proofs.«100048_j70317204570386_2_alg».proof.Proof.Spec
import Idealize.ShloMosaic.Lib.ValueLayout
import Idealize.ShloMosaic.Lib.Pipeline.Value

noncomputable section

namespace Cert.KernelIdeal.Norm

open Idealize.ShloMosaic Idealize.ShloMosaic.TcCoe Idealize.ShloMosaic.ValueIdx
open Cert.KernelIdeal Cert.KernelIdeal.Gen

/-- A [64, 1] column spread along 2048 lanes reads, at (o, v), the column's entry (o, 0). -/
theorem column_spread (x : FVec Ideal S64x1 .f32) (o : Fin 64) (v : Fin 2048) :
    broadcastTo S64x2048 x broadcasts_S64x1_S64x2048 (ix2 o v) = x (ix2 o (0 : Fin 1)) :=
  broadcastTo_apply x _ (ix2 o v) (ix2 o (0 : Fin 1)) (fun a => match a with | ⟨0, _⟩ => rfl | ⟨1, _⟩ => rfl)

/-- The stored block at (0, v, o). -/
theorem stored_read (x0 : FVec Ideal S1x64x2048 .f32) (va mu ga be : FVec Ideal S64x1 .f32) (v : Fin 2048) (o : Fin 64) :
    k4_pay1 (F := Ideal) x0 va mu ga be (ix3 (0 : Fin 1) v o)
      = ((x0 (ix3 (0 : Fin 1) o v) - mu (ix2 o (0 : Fin 1))) * Ideal.rsqrt (va (ix2 o (0 : Fin 1)) + Cert.Spec.eps)) * ga (ix2 o (0 : Fin 1))
        + be (ix2 o (0 : Fin 1)) := by
  unfold k4_pay1
  rw [shapeCast_ab_1ab_apply, transpose_ix2_apply, addf_apply, mulf_apply, mulf_apply, subf_apply,
    column_spread, column_spread, column_spread, column_spread, shapeCast_1ab_ab_apply,
    shapeCast_self, shapeCast_self, shapeCast_self, shapeCast_self]
  rfl

end Cert.KernelIdeal.Norm

end
-- ==== Proof.KNormArray.lean ====
/-
  The normalising region's whole output array.

  The region runs over the eight samples. At sample n it reads that sample's [1, 64, 2048] slab of the mixed features
  and the four per-channel columns whole, and writes back the [1, 2048, 64] slab n of the result. The eight slabs
  cover the result array, so it ends holding, at (n, v, o),
      ((s (n, o, v) − mean o) · rsqrt (variance o + ε)) · scale o + shift o
  of the arrays the region found.
-/
import proofs.«100048_j70317204570386_2_alg».proof.Proof.Gen.KernelIdeal.Frame
import proofs.«100048_j70317204570386_2_alg».proof.Proof.KNorm
import Idealize.ShloMosaic.Lib.Pipeline.Value

set_option maxRecDepth 16384

noncomputable section

namespace Cert.KernelIdeal.Norm

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem zero3 : (![0, 0, 0] : Fin 3 → Nat) = fun _ => 0 := funext fun a => by fin_cases a <;> rfl
theorem zero2 : (![0, 0] : Fin 2 → Nat) = fun _ => 0 := funext fun a => by fin_cases a <;> rfl

/-- The stored block at any of its indices y = (0, v, o). -/
theorem stored_at (x0 : FVec Ideal S1x64x2048 .f32) (va mu ga be : FVec Ideal S64x1 .f32) (y : S1x2048x64.Idx) :
    k4_pay1 (F := Ideal) x0 va mu ga be y
      = ((x0 (ix3 (0 : Fin 1) (y 2) (y 1)) - mu (ix2 (y 2) (0 : Fin 1))) * Ideal.rsqrt (va (ix2 (y 2) (0 : Fin 1)) + Cert.Spec.eps)) * ga (ix2 (y 2) (0 : Fin 1))
        + be (ix2 (y 2) (0 : Fin 1)) := by
  have hlt : (y 0).val < 1 := (y 0).isLt
  have h0 : y 0 = (0 : Fin 1) := Fin.ext (by show (y 0).val = 0; omega)
  have hy : y = ix3 (0 : Fin 1) (y 1) (y 2) := by
    conv_lhs => rw [eq_ix3 y]
    rw [h0]
    rfl
  rw [hy]
  exact stored_read x0 va mu ga be (y 1) (y 2)

/-- The result array as one function of the five arrays the region reads. -/
def whole (c : Dev nD) : S8x2048x64.Idx → EReal :=
  Cert.Spec.normalize (V c main_v5_0) (V c main_v8) (V c main_v13) (V c main_v14) (V c main_v15)

/-- The index maps over the grid: the features' window and the output's window sit at sample t, the four columns'
    windows at the origin. -/
theorem index_facts : ∀ t : Fin cfg4.N,
    win4_0.index t (0 : Fin 3) = t.val ∧ win4_0.index t (1 : Fin 3) = 0 ∧ win4_0.index t (2 : Fin 3) = 0
    ∧ win4_5.index t (0 : Fin 3) = t.val ∧ win4_5.index t (1 : Fin 3) = 0 ∧ win4_5.index t (2 : Fin 3) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- Every sample is some grid point's. -/
theorem index_onto : ∀ q : Fin 8, ∃ t : Fin cfg4.N, win4_5.index t (0 : Fin 3) = q.val :=
  (by decide +kernel : ∀ q : Fin 8, ∃ t : Fin grid4.N, win4_5.index t (0 : Fin 3) = q.val)

/-- Where the output's block at point t sits in the array: (t, v, o) for the block's (0, v, o). -/
theorem out_emb (t : Fin cfg4.N) (y : S1x2048x64.Idx) (a : Fin 3) :
    ((((cfg4.win 5).blk t).view.emb y) a).val = (if a.val = 0 then t.val else (y a).val) := by
  obtain ⟨-, -, -, e0, e1, e2, -⟩ := index_facts t
  have h0 : (y 0).val = 0 := by have := (y 0).isLt; simp at this; omega
  match a with
  | ⟨0, _⟩ => show win4_5.index t (0 : Fin 3) * 1 + 1 * (y 0).val = _; simp only [if_pos]; omega
  | ⟨1, _⟩ => show win4_5.index t (1 : Fin 3) * 2048 + 1 * (y 1).val = _; simp; omega
  | ⟨2, _⟩ => show win4_5.index t (2 : Fin 3) * 64 + 1 * (y 2).val = _; simp; omega

/-- The features' block at point t reads the array at sample t. -/
theorem feat_read (c : Dev nD) (t : Fin cfg4.N) (o : Fin 64) (v : Fin 2048) (i : S8x64x2048.Idx)
    (hi0 : (i 0).val = t.val) (hi1 : (i 1).val = o.val) (hi2 : (i 2).val = v.val) :
    iblk4 V c 0 t (ix3 (0 : Fin 1) o v) = V c main_v5_0 i := by
  obtain ⟨e0, e1, e2, -⟩ := index_facts t
  show V c main_v5_0 (((cfg4.win 0).blk t).view.emb (ix3 (0 : Fin 1) o v)) = V c main_v5_0 i
  refine congrArg (V c main_v5_0) (funext fun a => Fin.ext ?_)
  match a with
  | ⟨0, _⟩ => show win4_0.index t (0 : Fin 3) * 1 + 1 * 0 = (i 0).val; omega
  | ⟨1, _⟩ => show win4_0.index t (1 : Fin 3) * 64 + 1 * o.val = (i 1).val; omega
  | ⟨2, _⟩ => show win4_0.index t (2 : Fin 3) * 2048 + 1 * v.val = (i 2).val; omega

/-- A column's block at any point is the column. -/
theorem col_read1 (c : Dev nD) (t : Fin cfg4.N) (o : Fin 64) (k : S64x1.Idx) (hk0 : (k 0).val = o.val) :
    iblk4 V c 1 t (ix2 o (0 : Fin 1)) = V c main_v8 k := by
  obtain ⟨-, -, -, -, -, -, e0, e1, -⟩ := index_facts t
  have hk1 : (k 1).val = 0 := by have := (k 1).isLt; simp at this; omega
  show V c main_v8 (((cfg4.win 1).blk t).view.emb (ix2 o (0 : Fin 1))) = V c main_v8 k
  refine congrArg (V c main_v8) (funext fun a => Fin.ext ?_)
  match a with
  | ⟨0, _⟩ => show win4_1.index t (0 : Fin 2) * 64 + 1 * o.val = (k 0).val; omega
  | ⟨1, _⟩ => show win4_1.index t (1 : Fin 2) * 1 + 1 * 0 = (k 1).val; omega
theorem col_read2 (c : Dev nD) (t : Fin cfg4.N) (o : Fin 64) (k : S64x1.Idx) (hk0 : (k 0).val = o.val) :
    iblk4 V c 2 t (ix2 o (0 : Fin 1)) = V c main_v13 k := by
  obtain ⟨-, -, -, -, -, -, -, -, e0, e1, -⟩ := index_facts t
  have hk1 : (k 1).val = 0 := by have := (k 1).isLt; simp at this; omega
  show V c main_v13 (((cfg4.win 2).blk t).view.emb (ix2 o (0 : Fin 1))) = V c main_v13 k
  refine congrArg (V c main_v13) (funext fun a => Fin.ext ?_)
  match a with
  | ⟨0, _⟩ => show win4_2.index t (0 : Fin 2) * 64 + 1 * o.val = (k 0).val; omega
  | ⟨1, _⟩ => show win4_2.index t (1 : Fin 2) * 1 + 1 * 0 = (k 1).val; omega
theorem col_read3 (c : Dev nD) (t : Fin cfg4.N) (o : Fin 64) (k : S64x1.Idx) (hk0 : (k 0).val = o.val) :
    iblk4 V c 3 t (ix2 o (0 : Fin 1)) = V c main_v14 k := by
  obtain ⟨-, -, -, -, -, -, -, -, -, -, e0, e1, -⟩ := index_facts t
  have hk1 : (k 1).val = 0 := by have := (k 1).isLt; simp at this; omega
  show V c main_v14 (((cfg4.win 3).blk t).view.emb (ix2 o (0 : Fin 1))) = V c main_v14 k
  refine congrArg (V c main_v14) (funext fun a => Fin.ext ?_)
  match a with
  | ⟨0, _⟩ => show win4_3.index t (0 : Fin 2) * 64 + 1 * o.val = (k 0).val; omega
  | ⟨1, _⟩ => show win4_3.index t (1 : Fin 2) * 1 + 1 * 0 = (k 1).val; omega
theorem col_read4 (c : Dev nD) (t : Fin cfg4.N) (o : Fin 64) (k : S64x1.Idx) (hk0 : (k 0).val = o.val) :
    iblk4 V c 4 t (ix2 o (0 : Fin 1)) = V c main_v15 k := by
  obtain ⟨-, -, -, -, -, -, -, -, -, -, -, -, e0, e1⟩ := index_facts t
  have hk1 : (k 1).val = 0 := by have := (k 1).isLt; simp at this; omega
  show V c main_v15 (((cfg4.win 4).blk t).view.emb (ix2 o (0 : Fin 1))) = V c main_v15 k
  refine congrArg (V c main_v15) (funext fun a => Fin.ext ?_)
  match a with
  | ⟨0, _⟩ => show win4_4.index t (0 : Fin 2) * 64 + 1 * o.val = (k 0).val; omega
  | ⟨1, _⟩ => show win4_4.index t (1 : Fin 2) * 1 + 1 * 0 = (k 1).val; omega

/-- What point t writes back is slab t of the whole-array function. -/
theorem flushed_eq (c : Dev nD) (t : Fin cfg4.N) :
    (dat4 (F := Ideal) V c).flushed 5 t = ((cfg4.win 5).blk t).view.read (Elt Ideal) (whole V c) := by
  show (cfg4.win 5).cut (grid4.coords t) ((dat4 (F := Ideal) V c).after 5 t) = _
  rw [after4_5]
  unfold out4_5
  rw [View.canon_unit_zero zero3]
  simp only [View.ld_unit_zero (S := S1x64x2048) zero3, View.ld_unit_zero (S := S64x1) zero2]
  funext y
  have e0 := out_emb t y 0
  have e1 := out_emb t y 1
  have e2 := out_emb t y 2
  simp only [Fin.val_zero, Fin.val_one, Fin.val_two, if_pos, if_neg, one_ne_zero, OfNat.ofNat_ne_zero, not_false_eq_true] at e0 e1 e2
  refine (stored_at (iblk4 V c 0 t) (iblk4 V c 2 t) (iblk4 V c 1 t) (iblk4 V c 3 t) (iblk4 V c 4 t) y).trans ?_
  show _ = whole V c (((cfg4.win 5).blk t).view.emb y)
  unfold whole Cert.Spec.normalize
  rw [feat_read V c t (y 2) (y 1) (ix3 ((((cfg4.win 5).blk t).view.emb y) 0) ((((cfg4.win 5).blk t).view.emb y) 2) ((((cfg4.win 5).blk t).view.emb y) 1)) e0 e2 e1,
    col_read1 V c t (y 2) (ix2 ((((cfg4.win 5).blk t).view.emb y) 2) 0) e2,
    col_read2 V c t (y 2) (ix2 ((((cfg4.win 5).blk t).view.emb y) 2) 0) e2,
    col_read3 V c t (y 2) (ix2 ((((cfg4.win 5).blk t).view.emb y) 2) 0) e2,
    col_read4 V c t (y 2) (ix2 ((((cfg4.win 5).blk t).view.emb y) 2) 0) e2]

/-- An index of the result array is in point t's block iff each coordinate is in the block's range on its axis. -/
theorem mem_blk (t : Fin cfg4.N) (i : S8x2048x64.Idx) :
    i ∈ ((cfg4.win 5).blk t).view.set ↔ ∀ a : Fin 3, win4_5.index t a * S1x2048x64.size a ≤ (i a).val ∧ (i a).val < win4_5.index t a * S1x2048x64.size a + S1x2048x64.size a := by
  show i ∈ ((View.whole main_v16).slice (win4_5.rect t)).set ↔ _
  rw [View.set_slice_whole, Rect.mem_set_unit]
  exact Iff.rfl

/-- The eight slabs cover the result array: the point covering sample n is n. -/
theorem covered (i : S8x2048x64.Idx) : ∃ t : Fin cfg4.N, (cfg4.win 5).flush t = true ∧ i ∈ ((cfg4.win 5).blk t).view.set := by
  obtain ⟨t, ht⟩ := index_onto ⟨(i 0).val, (i 0).isLt⟩
  obtain ⟨-, -, -, e0, e1, e2, -⟩ := index_facts t
  have h1 : (i 1).val < 2048 := (i 1).isLt
  have h2 : (i 2).val < 64 := (i 2).isLt
  refine ⟨t, flush4_5 t, ?_⟩
  rw [mem_blk]
  intro a
  match a with
  | ⟨0, _⟩ => show win4_5.index t (0 : Fin 3) * 1 ≤ (i 0).val ∧ (i 0).val < win4_5.index t (0 : Fin 3) * 1 + 1; simp only at ht; omega
  | ⟨1, _⟩ => show win4_5.index t (1 : Fin 3) * 2048 ≤ (i 1).val ∧ (i 1).val < win4_5.index t (1 : Fin 3) * 2048 + 2048; omega
  | ⟨2, _⟩ => show win4_5.index t (2 : Fin 3) * 64 ≤ (i 2).val ∧ (i 2).val < win4_5.index t (2 : Fin 3) * 64 + 64; omega

/-- The result array after the region. -/
theorem arr_normalized (c : Dev nD) : (dat4 (F := Ideal) V c).arrAt 5 cfg4.N = whole V c :=
  (dat4 (F := Ideal) V c).arrAt_eq_of_cover 5 (whole V c) (fun t _ => flushed_eq V c t) (covered)

end Cert.KernelIdeal.Norm

end
-- ==== Proof.KChain.lean ====
/-
  The idealized kernel's result as one function of its arguments.

  The run's last boundary holds the result array at what the normalising region's write-backs leave. Walking back
  from there: that region read the mixed features and four per-channel columns; the columns are the host's mean and
  variance of the mixing region's row sums and row sums of squares, and the scale and shift vectors made columns;
  the mixing region read seven channel-major slabs, the mixing matrix and the bias column; the slabs are the
  transposed input and one and two diffusion steps of it along each of the three adjacencies, each pair left by one
  two-step region. A buffer no later operation or region writes is found unchanged at every later boundary; a buffer a
  region only reads through an input window is left as the region found it.

  The three regions' values are taken here as hypotheses in the exact form the modules that prove them state.
-/
import proofs.«100048_j70317204570386_2_alg».proof.Proof.Gen.KernelIdeal.Frame
import proofs.«100048_j70317204570386_2_alg».proof.Proof.KGlue
import proofs.«100048_j70317204570386_2_alg».proof.Proof.KNormArray

set_option maxRecDepth 16384

noncomputable section

namespace Cert.KernelIdeal.Chain

open Idealize.ShloMosaic Idealize.ShloMosaic.TcCoe Idealize.ShloMosaic.ValueIdx
open Idealize.ShloMosaic.Pipeline (Dat Cfg Window)
open Cert.KernelIdeal Cert.KernelIdeal.Gen Cert.Spec Cert.KernelIdeal.Glue

/-- Seven channel-major slabs in order. -/
def slabs (h0 h1 h2 h3 h4 h5 h6 : SFeat.Idx → EReal) : Fin 7 → SFeat.Idx → EReal := ![h0, h1, h2, h3, h4, h5, h6]

/-- The mixed features of the arguments: the input and one and two diffusion steps along each adjacency, mixed. -/
def mixedOf (x : SNodeFeat.Idx → EReal) (a0 a1 a2 : SAdj.Idx → EReal) (w : SMat.Idx → EReal) (b : S64.Idx → EReal) : SMixed.Idx → EReal :=
  mix (slabs (chanMajor x) (hop a0 (chanMajor x)) (hop a0 (hop a0 (chanMajor x))) (hop a1 (chanMajor x)) (hop a1 (hop a1 (chanMajor x)))
    (hop a2 (chanMajor x)) (hop a2 (hop a2 (chanMajor x)))) w (column b)

/-- The kernel's result as a function of its eight arguments. -/
def kernelValue (x : SNodeFeat.Idx → EReal) (a0 a1 a2 : SAdj.Idx → EReal) (w : SMat.Idx → EReal) (b g be : S64.Idx → EReal) : SOut.Idx → EReal :=
  normalize (mixedOf x a0 a1 a2 w b) (colMean (rowSum (mixedOf x a0 a1 a2 w b)))
    (colVar (rowSum (mixedOf x a0 a1 a2 w b)) (rowSumSq (mixedOf x a0 a1 a2 w b))) (column g) (column be)

/-- A buffer that no operation of a host stretch writes is kept by the stretch. -/
macro "kept_by " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

section

variable (m : (ℓ : Loc nD τ sig) → Buf (Elt Ideal) ℓ) (ρ : Dev nD → PrngReg) (c : Dev nD)

/-- The eight argument arrays of a launch memory on a core. -/
abbrev aX := m ((c : Thread nD τ).loc main_arg0)
abbrev aA0 := m ((c : Thread nD τ).loc main_arg1)
abbrev aA1 := m ((c : Thread nD τ).loc main_arg2)
abbrev aA2 := m ((c : Thread nD τ).loc main_arg3)
abbrev aW := m ((c : Thread nD τ).loc main_arg4)
abbrev aB := m ((c : Thread nD τ).loc main_arg5)
abbrev aG := m ((c : Thread nD τ).loc main_arg6)
abbrev aE := m ((c : Thread nD τ).loc main_arg7)

/-! ## After the transposition -/

theorem W1_arg1 : W1 m ρ c (Proc.devRef .tc main_arg1) = (aA0 m c) := (by kept_by hostOps0 : W1 m ρ c (Proc.devRef .tc main_arg1) = W0 m ρ c (Proc.devRef .tc main_arg1))
theorem W1_arg2 : W1 m ρ c (Proc.devRef .tc main_arg2) = (aA1 m c) := (by kept_by hostOps0 : W1 m ρ c (Proc.devRef .tc main_arg2) = W0 m ρ c (Proc.devRef .tc main_arg2))
theorem W1_arg3 : W1 m ρ c (Proc.devRef .tc main_arg3) = (aA2 m c) := (by kept_by hostOps0 : W1 m ρ c (Proc.devRef .tc main_arg3) = W0 m ρ c (Proc.devRef .tc main_arg3))
theorem W1_arg4 : W1 m ρ c (Proc.devRef .tc main_arg4) = (aW m c) := (by kept_by hostOps0 : W1 m ρ c (Proc.devRef .tc main_arg4) = W0 m ρ c (Proc.devRef .tc main_arg4))
theorem W1_arg5 : W1 m ρ c (Proc.devRef .tc main_arg5) = (aB m c) := (by kept_by hostOps0 : W1 m ρ c (Proc.devRef .tc main_arg5) = W0 m ρ c (Proc.devRef .tc main_arg5))
theorem W1_arg6 : W1 m ρ c (Proc.devRef .tc main_arg6) = (aG m c) := (by kept_by hostOps0 : W1 m ρ c (Proc.devRef .tc main_arg6) = W0 m ρ c (Proc.devRef .tc main_arg6))
theorem W1_arg7 : W1 m ρ c (Proc.devRef .tc main_arg7) = (aE m c) := (by kept_by hostOps0 : W1 m ρ c (Proc.devRef .tc main_arg7) = W0 m ρ c (Proc.devRef .tc main_arg7))
theorem W1_v0 : W1 m ρ c (Proc.devRef .tc main_v0) = chanMajor (aX m c) := transposed (W0 m ρ c)

/-! ## After the first two-step region (adjacency 0) -/

variable (hop0 : ∀ (V : (c : Dev nD) → (b : Ref sig .tc) → Buf (Elt Ideal) ((c : Thread nD τ).loc b)) (c : Dev nD),
    (dat0 (F := Ideal) V c).arrAt 2 cfg0.N = hop (V c main_arg1) (V c main_v0)
    ∧ (dat0 (F := Ideal) V c).arrAt 3 cfg0.N = hop (V c main_arg1) (hop (V c main_arg1) (V c main_v0)))

include hop0 in
theorem W2_v1_0 : W2 m ρ c (Proc.devRef .tc main_v1_0) = hop (aA0 m c) (chanMajor (aX m c)) :=
  (W2_arr m ρ c 2).trans ((hop0 (V1 m ρ) c).1.trans (by
    rw [show V1 m ρ c main_arg1 = (aA0 m c) from W1_arg1 m ρ c, show V1 m ρ c main_v0 = chanMajor (aX m c) from W1_v0 m ρ c]))
include hop0 in
theorem W2_v1_1 : W2 m ρ c (Proc.devRef .tc main_v1_1) = hop (aA0 m c) (hop (aA0 m c) (chanMajor (aX m c))) :=
  (W2_arr m ρ c 3).trans ((hop0 (V1 m ρ) c).2.trans (by
    rw [show V1 m ρ c main_arg1 = (aA0 m c) from W1_arg1 m ρ c, show V1 m ρ c main_v0 = chanMajor (aX m c) from W1_v0 m ρ c]))
theorem W2_v0 : W2 m ρ c (Proc.devRef .tc main_v0) = chanMajor (aX m c) :=
  (W2_arr m ρ c 1).trans (((dat0 (V1 m ρ) c).arrAt_in 1 rfl _).trans ((A_eq0 (V1 m ρ) c 1).trans (W1_v0 m ρ c)))
theorem W2_arg2 : W2 m ρ c (Proc.devRef .tc main_arg2) = (aA1 m c) := (W2_of_ne m ρ c main_arg2 (by decide)).trans (W1_arg2 m ρ c)
theorem W2_arg3 : W2 m ρ c (Proc.devRef .tc main_arg3) = (aA2 m c) := (W2_of_ne m ρ c main_arg3 (by decide)).trans (W1_arg3 m ρ c)
theorem W2_arg4 : W2 m ρ c (Proc.devRef .tc main_arg4) = (aW m c) := (W2_of_ne m ρ c main_arg4 (by decide)).trans (W1_arg4 m ρ c)
theorem W2_arg5 : W2 m ρ c (Proc.devRef .tc main_arg5) = (aB m c) := (W2_of_ne m ρ c main_arg5 (by decide)).trans (W1_arg5 m ρ c)
theorem W2_arg6 : W2 m ρ c (Proc.devRef .tc main_arg6) = (aG m c) := (W2_of_ne m ρ c main_arg6 (by decide)).trans (W1_arg6 m ρ c)
theorem W2_arg7 : W2 m ρ c (Proc.devRef .tc main_arg7) = (aE m c) := (W2_of_ne m ρ c main_arg7 (by decide)).trans (W1_arg7 m ρ c)

/-! ## After the second two-step region (adjacency 1) -/

variable (hop1 : ∀ (V : (c : Dev nD) → (b : Ref sig .tc) → Buf (Elt Ideal) ((c : Thread nD τ).loc b)) (c : Dev nD),
    (dat1 (F := Ideal) V c).arrAt 2 cfg1.N = hop (V c main_arg2) (V c main_v0)
    ∧ (dat1 (F := Ideal) V c).arrAt 3 cfg1.N = hop (V c main_arg2) (hop (V c main_arg2) (V c main_v0)))

include hop1 in
theorem W3_v2_0 : W3 m ρ c (Proc.devRef .tc main_v2_0) = hop (aA1 m c) (chanMajor (aX m c)) :=
  (W3_arr m ρ c 2).trans ((hop1 (V2 m ρ) c).1.trans (by
    rw [show V2 m ρ c main_arg2 = (aA1 m c) from W2_arg2 m ρ c, show V2 m ρ c main_v0 = chanMajor (aX m c) from W2_v0 m ρ c]))
include hop1 in
theorem W3_v2_1 : W3 m ρ c (Proc.devRef .tc main_v2_1) = hop (aA1 m c) (hop (aA1 m c) (chanMajor (aX m c))) :=
  (W3_arr m ρ c 3).trans ((hop1 (V2 m ρ) c).2.trans (by
    rw [show V2 m ρ c main_arg2 = (aA1 m c) from W2_arg2 m ρ c, show V2 m ρ c main_v0 = chanMajor (aX m c) from W2_v0 m ρ c]))
theorem W3_v0 : W3 m ρ c (Proc.devRef .tc main_v0) = chanMajor (aX m c) :=
  (W3_arr m ρ c 1).trans (((dat1 (V2 m ρ) c).arrAt_in 1 rfl _).trans ((A_eq1 (V2 m ρ) c 1).trans (W2_v0 m ρ c)))
include hop0 in
theorem W3_v1_0 : W3 m ρ c (Proc.devRef .tc main_v1_0) = hop (aA0 m c) (chanMajor (aX m c)) := (W3_of_ne m ρ c main_v1_0 (by decide)).trans (W2_v1_0 m ρ c hop0)
include hop0 in
theorem W3_v1_1 : W3 m ρ c (Proc.devRef .tc main_v1_1) = hop (aA0 m c) (hop (aA0 m c) (chanMajor (aX m c))) := (W3_of_ne m ρ c main_v1_1 (by decide)).trans (W2_v1_1 m ρ c hop0)
theorem W3_arg3 : W3 m ρ c (Proc.devRef .tc main_arg3) = (aA2 m c) := (W3_of_ne m ρ c main_arg3 (by decide)).trans (W2_arg3 m ρ c)
theorem W3_arg4 : W3 m ρ c (Proc.devRef .tc main_arg4) = (aW m c) := (W3_of_ne m ρ c main_arg4 (by decide)).trans (W2_arg4 m ρ c)
theorem W3_arg5 : W3 m ρ c (Proc.devRef .tc main_arg5) = (aB m c) := (W3_of_ne m ρ c main_arg5 (by decide)).trans (W2_arg5 m ρ c)
theorem W3_arg6 : W3 m ρ c (Proc.devRef .tc main_arg6) = (aG m c) := (W3_of_ne m ρ c main_arg6 (by decide)).trans (W2_arg6 m ρ c)
theorem W3_arg7 : W3 m ρ c (Proc.devRef .tc main_arg7) = (aE m c) := (W3_of_ne m ρ c main_arg7 (by decide)).trans (W2_arg7 m ρ c)

/-! ## After the third two-step region (adjacency 2) -/

variable (hop2 : ∀ (V : (c : Dev nD) → (b : Ref sig .tc) → Buf (Elt Ideal) ((c : Thread nD τ).loc b)) (c : Dev nD),
    (dat2 (F := Ideal) V c).arrAt 2 cfg2.N = hop (V c main_arg3) (V c main_v0)
    ∧ (dat2 (F := Ideal) V c).arrAt 3 cfg2.N = hop (V c main_arg3) (hop (V c main_arg3) (V c main_v0)))

include hop2 in
theorem W4_v3_0 : W4 m ρ c (Proc.devRef .tc main_v3_0) = hop (aA2 m c) (chanMajor (aX m c)) :=
  (W4_arr m ρ c 2).trans ((hop2 (V3 m ρ) c).1.trans (by
    rw [show V3 m ρ c main_arg3 = (aA2 m c) from W3_arg3 m ρ c, show V3 m ρ c main_v0 = chanMajor (aX m c) from W3_v0 m ρ c]))
include hop2 in
theorem W4_v3_1 : W4 m ρ c (Proc.devRef .tc main_v3_1) = hop (aA2 m c) (hop (aA2 m c) (chanMajor (aX m c))) :=
  (W4_arr m ρ c 3).trans ((hop2 (V3 m ρ) c).2.trans (by
    rw [show V3 m ρ c main_arg3 = (aA2 m c) from W3_arg3 m ρ c, show V3 m ρ c main_v0 = chanMajor (aX m c) from W3_v0 m ρ c]))
theorem W4_v0 : W4 m ρ c (Proc.devRef .tc main_v0) = chanMajor (aX m c) :=
  (W4_arr m ρ c 1).trans (((dat2 (V3 m ρ) c).arrAt_in 1 rfl _).trans ((A_eq2 (V3 m ρ) c 1).trans (W3_v0 m ρ c)))
include hop0 in
theorem W4_v1_0 : W4 m ρ c (Proc.devRef .tc main_v1_0) = hop (aA0 m c) (chanMajor (aX m c)) := (W4_of_ne m ρ c main_v1_0 (by decide)).trans (W3_v1_0 m ρ c hop0)
include hop0 in
theorem W4_v1_1 : W4 m ρ c (Proc.devRef .tc main_v1_1) = hop (aA0 m c) (hop (aA0 m c) (chanMajor (aX m c))) := (W4_of_ne m ρ c main_v1_1 (by decide)).trans (W3_v1_1 m ρ c hop0)
include hop1 in
theorem W4_v2_0 : W4 m ρ c (Proc.devRef .tc main_v2_0) = hop (aA1 m c) (chanMajor (aX m c)) := (W4_of_ne m ρ c main_v2_0 (by decide)).trans (W3_v2_0 m ρ c hop1)
include hop1 in
theorem W4_v2_1 : W4 m ρ c (Proc.devRef .tc main_v2_1) = hop (aA1 m c) (hop (aA1 m c) (chanMajor (aX m c))) := (W4_of_ne m ρ c main_v2_1 (by decide)).trans (W3_v2_1 m ρ c hop1)
theorem W4_arg4 : W4 m ρ c (Proc.devRef .tc main_arg4) = (aW m c) := (W4_of_ne m ρ c main_arg4 (by decide)).trans (W3_arg4 m ρ c)
theorem W4_arg5 : W4 m ρ c (Proc.devRef .tc main_arg5) = (aB m c) := (W4_of_ne m ρ c main_arg5 (by decide)).trans (W3_arg5 m ρ c)
theorem W4_arg6 : W4 m ρ c (Proc.devRef .tc main_arg6) = (aG m c) := (W4_of_ne m ρ c main_arg6 (by decide)).trans (W3_arg6 m ρ c)
theorem W4_arg7 : W4 m ρ c (Proc.devRef .tc main_arg7) = (aE m c) := (W4_of_ne m ρ c main_arg7 (by decide)).trans (W3_arg7 m ρ c)

/-! ## After the bias is made a column -/

theorem W5_v4 : W5 m ρ c (Proc.devRef .tc main_v4) = column (aB m c) :=
  (bias_column (W4 m ρ c)).trans (congrArg column (W4_arg5 m ρ c))
theorem W5_v0 : W5 m ρ c (Proc.devRef .tc main_v0) = chanMajor (aX m c) := (by kept_by hostOps3 : W5 m ρ c (Proc.devRef .tc main_v0) = W4 m ρ c (Proc.devRef .tc main_v0)).trans (W4_v0 m ρ c)
include hop0 in
theorem W5_v1_0 : W5 m ρ c (Proc.devRef .tc main_v1_0) = hop (aA0 m c) (chanMajor (aX m c)) := (by kept_by hostOps3 : W5 m ρ c (Proc.devRef .tc main_v1_0) = W4 m ρ c (Proc.devRef .tc main_v1_0)).trans (W4_v1_0 m ρ c hop0)
include hop0 in
theorem W5_v1_1 : W5 m ρ c (Proc.devRef .tc main_v1_1) = hop (aA0 m c) (hop (aA0 m c) (chanMajor (aX m c))) := (by kept_by hostOps3 : W5 m ρ c (Proc.devRef .tc main_v1_1) = W4 m ρ c (Proc.devRef .tc main_v1_1)).trans (W4_v1_1 m ρ c hop0)
include hop1 in
theorem W5_v2_0 : W5 m ρ c (Proc.devRef .tc main_v2_0) = hop (aA1 m c) (chanMajor (aX m c)) := (by kept_by hostOps3 : W5 m ρ c (Proc.devRef .tc main_v2_0) = W4 m ρ c (Proc.devRef .tc main_v2_0)).trans (W4_v2_0 m ρ c hop1)
include hop1 in
theorem W5_v2_1 : W5 m ρ c (Proc.devRef .tc main_v2_1) = hop (aA1 m c) (hop (aA1 m c) (chanMajor (aX m c))) := (by kept_by hostOps3 : W5 m ρ c (Proc.devRef .tc main_v2_1) = W4 m ρ c (Proc.devRef .tc main_v2_1)).trans (W4_v2_1 m ρ c hop1)
include hop2 in
theorem W5_v3_0 : W5 m ρ c (Proc.devRef .tc main_v3_0) = hop (aA2 m c) (chanMajor (aX m c)) := (by kept_by hostOps3 : W5 m ρ c (Proc.devRef .tc main_v3_0) = W4 m ρ c (Proc.devRef .tc main_v3_0)).trans (W4_v3_0 m ρ c hop2)
include hop2 in
theorem W5_v3_1 : W5 m ρ c (Proc.devRef .tc main_v3_1) = hop (aA2 m c) (hop (aA2 m c) (chanMajor (aX m c))) := (by kept_by hostOps3 : W5 m ρ c (Proc.devRef .tc main_v3_1) = W4 m ρ c (Proc.devRef .tc main_v3_1)).trans (W4_v3_1 m ρ c hop2)
theorem W5_arg4 : W5 m ρ c (Proc.devRef .tc main_arg4) = (aW m c) := (by kept_by hostOps3 : W5 m ρ c (Proc.devRef .tc main_arg4) = W4 m ρ c (Proc.devRef .tc main_arg4)).trans (W4_arg4 m ρ c)
theorem W5_arg6 : W5 m ρ c (Proc.devRef .tc main_arg6) = (aG m c) := (by kept_by hostOps3 : W5 m ρ c (Proc.devRef .tc main_arg6) = W4 m ρ c (Proc.devRef .tc main_arg6)).trans (W4_arg6 m ρ c)
theorem W5_arg7 : W5 m ρ c (Proc.devRef .tc main_arg7) = (aE m c) := (by kept_by hostOps3 : W5 m ρ c (Proc.devRef .tc main_arg7) = W4 m ρ c (Proc.devRef .tc main_arg7)).trans (W4_arg7 m ρ c)

/-! ## After the mixing region -/

variable (mixing : ∀ (V : (c : Dev nD) → (b : Ref sig .tc) → Buf (Elt Ideal) ((c : Thread nD τ).loc b)) (c : Dev nD),
    (dat3 (F := Ideal) V c).arrAt 9 cfg3.N
        = mix (slabs (V c main_v0) (V c main_v1_0) (V c main_v1_1) (V c main_v2_0) (V c main_v2_1) (V c main_v3_0) (V c main_v3_1)) (V c main_arg4) (V c main_v4)
    ∧ (dat3 (F := Ideal) V c).arrAt 10 cfg3.N
        = rowSum (mix (slabs (V c main_v0) (V c main_v1_0) (V c main_v1_1) (V c main_v2_0) (V c main_v2_1) (V c main_v3_0) (V c main_v3_1)) (V c main_arg4) (V c main_v4))
    ∧ (dat3 (F := Ideal) V c).arrAt 11 cfg3.N
        = rowSumSq (mix (slabs (V c main_v0) (V c main_v1_0) (V c main_v1_1) (V c main_v2_0) (V c main_v2_1) (V c main_v3_0) (V c main_v3_1)) (V c main_arg4) (V c main_v4)))

include hop0 hop1 hop2 in
/-- What the mixing region reads is the seven slabs, the matrix and the bias column of the arguments. -/
theorem entry_mixing :
    mix (slabs (V5 m ρ c main_v0) (V5 m ρ c main_v1_0) (V5 m ρ c main_v1_1) (V5 m ρ c main_v2_0) (V5 m ρ c main_v2_1) (V5 m ρ c main_v3_0) (V5 m ρ c main_v3_1))
        (V5 m ρ c main_arg4) (V5 m ρ c main_v4)
      = mixedOf (aX m c) (aA0 m c) (aA1 m c) (aA2 m c) (aW m c) (aB m c) := by
  rw [show V5 m ρ c main_v0 = chanMajor (aX m c) from W5_v0 m ρ c,
    show V5 m ρ c main_v1_0 = hop (aA0 m c) (chanMajor (aX m c)) from W5_v1_0 m ρ c hop0,
    show V5 m ρ c main_v1_1 = hop (aA0 m c) (hop (aA0 m c) (chanMajor (aX m c))) from W5_v1_1 m ρ c hop0,
    show V5 m ρ c main_v2_0 = hop (aA1 m c) (chanMajor (aX m c)) from W5_v2_0 m ρ c hop1,
    show V5 m ρ c main_v2_1 = hop (aA1 m c) (hop (aA1 m c) (chanMajor (aX m c))) from W5_v2_1 m ρ c hop1,
    show V5 m ρ c main_v3_0 = hop (aA2 m c) (chanMajor (aX m c)) from W5_v3_0 m ρ c hop2,
    show V5 m ρ c main_v3_1 = hop (aA2 m c) (hop (aA2 m c) (chanMajor (aX m c))) from W5_v3_1 m ρ c hop2,
    show V5 m ρ c main_arg4 = (aW m c) from W5_arg4 m ρ c,
    show V5 m ρ c main_v4 = column (aB m c) from W5_v4 m ρ c]
  rfl

include hop0 hop1 hop2 mixing in
theorem W6_v5_0 : W6 m ρ c (Proc.devRef .tc main_v5_0) = mixedOf (aX m c) (aA0 m c) (aA1 m c) (aA2 m c) (aW m c) (aB m c) :=
  (W6_arr m ρ c 9).trans ((mixing (V5 m ρ) c).1.trans (entry_mixing m ρ c hop0 hop1 hop2))
include hop0 hop1 hop2 mixing in
theorem W6_v5_1 : W6 m ρ c (Proc.devRef .tc main_v5_1) = rowSum (mixedOf (aX m c) (aA0 m c) (aA1 m c) (aA2 m c) (aW m c) (aB m c)) :=
  (W6_arr m ρ c 10).trans ((mixing (V5 m ρ) c).2.1.trans (congrArg rowSum (entry_mixing m ρ c hop0 hop1 hop2)))
include hop0 hop1 hop2 mixing in
theorem W6_v5_2 : W6 m ρ c (Proc.devRef .tc main_v5_2) = rowSumSq (mixedOf (aX m c) (aA0 m c) (aA1 m c) (aA2 m c) (aW m c) (aB m c)) :=
  (W6_arr m ρ c 11).trans ((mixing (V5 m ρ) c).2.2.trans (congrArg rowSumSq (entry_mixing m ρ c hop0 hop1 hop2)))
theorem W6_arg6 : W6 m ρ c (Proc.devRef .tc main_arg6) = (aG m c) := (W6_of_ne m ρ c main_arg6 (by decide)).trans (W5_arg6 m ρ c)
theorem W6_arg7 : W6 m ρ c (Proc.devRef .tc main_arg7) = (aE m c) := (W6_of_ne m ρ c main_arg7 (by decide)).trans (W5_arg7 m ρ c)

/-! ## After the statistics and the scale and shift columns -/

include hop0 hop1 hop2 mixing in
theorem W7_v5_0 : W7 m ρ c (Proc.devRef .tc main_v5_0) = mixedOf (aX m c) (aA0 m c) (aA1 m c) (aA2 m c) (aW m c) (aB m c) :=
  (by kept_by hostOps4 : W7 m ρ c (Proc.devRef .tc main_v5_0) = W6 m ρ c (Proc.devRef .tc main_v5_0)).trans (W6_v5_0 m ρ c hop0 hop1 hop2 mixing)
include hop0 hop1 hop2 mixing in
theorem W7_v8 : W7 m ρ c (Proc.devRef .tc main_v8) = colMean (rowSum (mixedOf (aX m c) (aA0 m c) (aA1 m c) (aA2 m c) (aW m c) (aB m c))) :=
  (mean_column (W6 m ρ c)).trans (congrArg colMean (W6_v5_1 m ρ c hop0 hop1 hop2 mixing))
include hop0 hop1 hop2 mixing in
theorem W7_v13 : W7 m ρ c (Proc.devRef .tc main_v13) = colVar (rowSum (mixedOf (aX m c) (aA0 m c) (aA1 m c) (aA2 m c) (aW m c) (aB m c))) (rowSumSq (mixedOf (aX m c) (aA0 m c) (aA1 m c) (aA2 m c) (aW m c) (aB m c))) :=
  (var_column (W6 m ρ c)).trans (by
    rw [show W6 m ρ c (Proc.devRef .tc main_v5_1) = _ from W6_v5_1 m ρ c hop0 hop1 hop2 mixing,
      show W6 m ρ c (Proc.devRef .tc main_v5_2) = _ from W6_v5_2 m ρ c hop0 hop1 hop2 mixing])
theorem W7_v14 : W7 m ρ c (Proc.devRef .tc main_v14) = column (aG m c) := (scale_column (W6 m ρ c)).trans (congrArg column (W6_arg6 m ρ c))
theorem W7_v15 : W7 m ρ c (Proc.devRef .tc main_v15) = column (aE m c) := (shift_column (W6 m ρ c)).trans (congrArg column (W6_arg7 m ρ c))

/-! ## After the normalising region: the result -/

include hop0 hop1 hop2 mixing in
/-- The result array at the run's last boundary is the kernel's function of the eight argument arrays. -/
theorem result_eq : W8 m ρ c (Proc.devRef .tc main_v16) = kernelValue (aX m c) (aA0 m c) (aA1 m c) (aA2 m c) (aW m c) (aB m c) (aG m c) (aE m c) :=
  (W8_arr m ρ c 5).trans ((Cert.KernelIdeal.Norm.arr_normalized (V7 m ρ) c).trans (by
    unfold Cert.KernelIdeal.Norm.whole kernelValue
    rw [show V7 m ρ c main_v5_0 = _ from W7_v5_0 m ρ c hop0 hop1 hop2 mixing,
      show V7 m ρ c main_v8 = _ from W7_v8 m ρ c hop0 hop1 hop2 mixing,
      show V7 m ρ c main_v13 = _ from W7_v13 m ρ c hop0 hop1 hop2 mixing,
      show V7 m ρ c main_v14 = _ from W7_v14 m ρ c,
      show V7 m ρ c main_v15 = _ from W7_v15 m ρ c]))

end

end Cert.KernelIdeal.Chain

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.HopTile.lean ====
/-
  One diffusion step on one sample, as the matrix unit computes it: column tile by column tile.

  A sample's features are a block [1, 32, 2048] (channel, node) and its adjacency a block [1, 2048, 2048]
  (node, node). The step sends features `h` to `hopBlock a h`, whose entry (c, w) is the sum over nodes v of
  h (c, v) · a (v, w). It is computed 256 columns at a time: the features viewed as a 32 × 2048 matrix (`rows`)
  times the 2048 × 256 matrix of columns o … o + 255 of the adjacency, into a zero accumulator (`tile`), written
  to columns o … o + 255 of the result. Over the extended reals the change of number format on the way into the
  product is the identity and the product is the exact sum, so every entry of a tile is the entry of `hopBlock` at
  the place the tile is written to (`tile_piece`), and eight tiles that fill the 2048 columns leave `hopBlock`
  (`canon_tiles`).
-/
import Idealize.ShloMosaic.PureOps.Ideal.Laws
import Idealize.ShloMosaic.Lib.ValueIdx
import Idealize.ShloMosaic.Lib.Pipeline.Value
import Idealize.ShloMosaic.Lib.Ring
import proofs.«100048_j70317204570386_2_alg».proof.Proof.LibPlainDot

noncomputable section

namespace Cert.KernelIdeal.Hop

open Idealize.ShloMosaic Idealize.ShloMosaic.ValueIdx

/-- one sample's adjacency [1, 2048, 2048] -/
abbrev BAdj : Shape := ⟨3, ![1, 2048, 2048]⟩
/-- one sample's features [1, 32, 2048] -/
abbrev BFeat : Shape := ⟨3, ![1, 32, 2048]⟩
/-- the features as a matrix [32, 2048] -/
abbrev MFeat : Shape := ⟨2, ![32, 2048]⟩
/-- 256 columns of the adjacency [1, 2048, 256] -/
abbrev BAdjTile : Shape := ⟨3, ![1, 2048, 256]⟩
/-- the same as a matrix [2048, 256] -/
abbrev MAdjTile : Shape := ⟨2, ![2048, 256]⟩
/-- 256 columns of the result as a matrix [32, 256] -/
abbrev MOutTile : Shape := ⟨2, ![32, 256]⟩
/-- the same as a block [1, 32, 256] -/
abbrev BOutTile : Shape := ⟨3, ![1, 32, 256]⟩

section
variable {F : FTy → Type} [FloatOps F]
variable (d : DotDims MFeat MAdjTile MOutTile)
  (hrow : BFeat.ShapeCasts MFeat) (hcol : BAdjTile.ShapeCasts MAdjTile) (hout : MOutTile.ShapeCasts BOutTile)
  (hb : FTy.bits .bf16 < FTy.bits .f32)

/-- A features block viewed as a 32 × 2048 matrix in the matrix unit's input format. -/
def rows (x : Vec F BFeat .f32) : FVec F MFeat .bf16 := truncf .bf16 (shapeCast MFeat x hrow) hb

/-- 256 columns of the step: the features matrix times 256 columns of the adjacency, into zero, as a block. -/
def tile (l : FVec F MFeat .bf16) (a : Vec F BAdjTile .f32) : FVec F BOutTile .f32 :=
  shapeCast BOutTile
    (matmul d none l (truncf .bf16 (shapeCast MAdjTile a hcol) hb) (constant MOutTile .f32 0x00000000#32)) hout

/-- The tile written to columns `o … o + 255`: where it goes, and what it is. -/
def pieceAt (o : ℕ) (inbO : ∀ a, (![0, 0, o] : Fin 3 → ℕ) a + BOutTile.size a ≤ BFeat.size a)
    (inbA : ∀ a, (![0, 0, o] : Fin 3 → ℕ) a + BAdjTile.size a ≤ BAdj.size a)
    (l : FVec F MFeat .bf16) (a : Vec F BAdj .f32) : View.Piece (Elt F) BFeat .f32 :=
  ⟨Rect.unit (s := BFeat) ![0, 0, o] BOutTile.size inbO,
    tile d hcol hout hb l (View.ld (Val := Elt F) (e' := .f32) a (Rect.unit (s := BAdj) ![0, 0, o] BAdjTile.size inbA))⟩

end

/-- One diffusion step on one sample: entry (c, w) is the sum over nodes v of h (c, v) · a (v, w). -/
def hopBlock (a : BAdj.Idx → EReal) (h : BFeat.Idx → EReal) : BFeat.Idx → EReal :=
  fun y => ∑ v : Fin 2048, h (ix3 (n0 := 1) (n1 := 32) (n2 := 2048) 0 (y 1) v)
    * a (ix3 (n0 := 1) (n1 := 2048) (n2 := 2048) 0 v (y 2))

section
variable (d : DotDims MFeat MAdjTile MOutTile)
  (hrow : BFeat.ShapeCasts MFeat) (hcol : BAdjTile.ShapeCasts MAdjTile) (hout : MOutTile.ShapeCasts BOutTile)
  (hb : FTy.bits .bf16 < FTy.bits .f32)

/-- Entry (c, v) of the features matrix is entry (0, c, v) of the block. -/
theorem rows_apply (x : Vec Ideal BFeat .f32) (c : Fin 32) (v : Fin 2048) :
    rows hrow hb x (ix2 (n0 := 32) (n1 := 2048) c v) = x (ix3 (n0 := 1) (n1 := 32) (n2 := 2048) 0 c v) := by
  unfold rows
  show shapeCast MFeat x hrow (ix2 (n0 := 32) (n1 := 2048) c v) = _
  refine (shapeCast_dropUnit_apply ![32, 2048] x hrow (ix2 (n0 := 32) (n1 := 2048) c v)).trans (congrArg x ?_)
  funext a
  match a with
  | ⟨0, _⟩ => rfl
  | ⟨1, _⟩ => rfl
  | ⟨2, _⟩ => rfl

/-- An entry of a tile is the exact sum over the 2048 nodes. -/
theorem tile_apply (hd : d = DotDims.plain 32 2048 256) (l : FVec Ideal MFeat .bf16) (a : Vec Ideal BAdjTile .f32)
    (j : BOutTile.Idx) :
    tile d hcol hout hb l a j
      = ∑ v : Fin 2048, l (ix2 (n0 := 32) (n1 := 2048) (j 1) v) * a (ix3 (n0 := 1) (n1 := 2048) (n2 := 256) 0 v (j 2)) := by
  subst hd
  unfold tile
  refine (shapeCast_addUnit_apply ![32, 256] _ hout j).trans ?_
  refine (Cert.Lib.PlainDot.matmul_zero_apply 32 2048 256 none l _ _).trans ?_
  refine Finset.sum_congr rfl fun v _ => congrArg (l _ * ·) ?_
  show shapeCast MAdjTile a hcol (ix2 (n0 := 2048) (n1 := 256) v (j 2)) = _
  refine (shapeCast_dropUnit_apply ![2048, 256] a hcol _).trans (congrArg a ?_)
  funext b
  match b with
  | ⟨0, _⟩ => rfl
  | ⟨1, _⟩ => rfl
  | ⟨2, _⟩ => rfl

/-- Every entry of the tile for columns `o … o + 255` is the step's entry at the place it is written to. -/
theorem tile_piece (hd : d = DotDims.plain 32 2048 256) (o : ℕ)
    (inbO : ∀ a, (![0, 0, o] : Fin 3 → ℕ) a + BOutTile.size a ≤ BFeat.size a)
    (inbA : ∀ a, (![0, 0, o] : Fin 3 → ℕ) a + BAdjTile.size a ≤ BAdj.size a)
    (a : Vec Ideal BAdj .f32) (h : Vec Ideal BFeat .f32)
    (x : (pieceAt d hcol hout hb o inbO inbA (rows hrow hb h) a).1.shape.Idx) :
    (pieceAt d hcol hout hb o inbO inbA (rows hrow hb h) a).2 x
      = hopBlock a h ((pieceAt d hcol hout hb o inbO inbA (rows hrow hb h) a).1.emb x) := by
  show tile d hcol hout hb (rows hrow hb h)
      (View.ld (Val := Elt Ideal) (e' := .f32) a (Rect.unit (s := BAdj) ![0, 0, o] BAdjTile.size inbA)) x
    = hopBlock a h ((Rect.unit (s := BFeat) ![0, 0, o] BOutTile.size inbO).emb x)
  refine (tile_apply d hcol hout hb hd _ _ x).trans ?_
  unfold hopBlock
  refine Finset.sum_congr rfl fun v _ => ?_
  have e1 : rows hrow hb h (ix2 (n0 := 32) (n1 := 2048) (x 1) v)
      = h (ix3 (n0 := 1) (n1 := 32) (n2 := 2048) 0
          (((Rect.unit (s := BFeat) ![0, 0, o] BOutTile.size inbO).emb x) 1) v) :=
    (rows_apply hrow hb h (x 1) v).trans (congrArg h (funext fun b => Fin.ext (by
      match b with
      | ⟨0, _⟩ => rfl
      | ⟨1, _⟩ => show (x 1).val = 0 + 1 * (x 1).val; omega
      | ⟨2, _⟩ => rfl)))
  have e2 : View.ld (Val := Elt Ideal) (e' := .f32) a (Rect.unit (s := BAdj) ![0, 0, o] BAdjTile.size inbA)
        (ix3 (n0 := 1) (n1 := 2048) (n2 := 256) 0 v (x 2))
      = a (ix3 (n0 := 1) (n1 := 2048) (n2 := 2048) 0 v
          (((Rect.unit (s := BFeat) ![0, 0, o] BOutTile.size inbO).emb x) 2)) :=
    congrArg a (funext fun b => Fin.ext (by
      match b with
      | ⟨0, _⟩ => show 0 + 1 * 0 = 0; omega
      | ⟨1, _⟩ => show 0 + 1 * v.val = v.val; omega
      | ⟨2, _⟩ => rfl))
  rw [e1, e2]

/-- Tiles of one features block against one adjacency block, wherever they are written, leave the step's value at
    every entry some tile covers. -/
theorem canon_tiles (hd : d = DotDims.plain 32 2048 256) (a : Vec Ideal BAdj .f32) (h : Vec Ideal BFeat .f32)
    (L : List (View.Piece (Elt Ideal) BFeat .f32))
    (hL : ∀ p ∈ L, ∃ o inbO inbA, p = pieceAt d hcol hout hb o inbO inbA (rows hrow hb h) a)
    (hcov : ∀ y, ∃ p ∈ L, y ∈ p.1.set) : View.canon L = hopBlock a h :=
  funext fun y => View.canon_apply_of_pieces (hopBlock a h) L (fun p hp x => by
    obtain ⟨o, inbO, inbA, rfl⟩ := hL p hp
    exact tile_piece d hrow hcol hout hb hd o inbO inbA a h x) y (hcov y)

end

end Cert.KernelIdeal.Hop

end
-- ==== Proof.HopList.lean ====
/-
  The eight column tiles of one diffusion step, as one list of writes.

  The step on one sample is computed 256 columns at a time, for the column offsets 0, 256, …, 1792, each tile written
  to its columns of the result block. The eight writes fill the block, so what they leave is the step's value
  `hopBlock a h` (`canon_tiles_eq`); and the block read back whole after the eight writes is that value again
  (`readback_eq`), so a second round of eight tiles, of the block read back against the same adjacency, leaves the
  step applied twice (`canon_tiles_twice`).
-/
import proofs.«100048_j70317204570386_2_alg».proof.Proof.Gen.KernelIdeal
import proofs.«100048_j70317204570386_2_alg».proof.Proof.HopTile
import Idealize.ShloMosaic.Lib.Pipeline.Value
import Idealize.ShloMosaic.Lib.Ring
import Idealize.ShloMosaic.Lib.Tactic

noncomputable section

namespace Cert.KernelIdeal.Hop

open Idealize.ShloMosaic Idealize.ShloMosaic.Tactic Idealize.ShloMosaic.ValueIdx
open Cert.KernelIdeal Cert.KernelIdeal.Facts₀

theorem zeros3 : (![0, 0, 0] : Fin 3 → Nat) = fun _ => 0 := funext fun a => by fin_cases a <;> rfl

/-- The product's dimension numbers are those of a plain 32 × 2048 by 2048 × 256 product. -/
theorem dot_plain : dot_S32x2048_S2048x256_S32x256_1_0_0_1_n_n = DotDims.plain 32 2048 256 := rfl

section
variable {F : FTy → Type} [FloatOps F]

/-- A features block as the matrix unit's left operand. -/
abbrev lhsOf (x : Vec F S1x32x2048 .f32) : FVec F S32x2048 .bf16 :=
  rows shapeCasts_S1x32x2048_S32x2048 bitsLt_bf16_f32 x

/-- The tile for columns `o … o + 255` with its place. -/
abbrev tileAt (o : ℕ) (inbO : ∀ a, (![0, 0, o] : Fin 3 → ℕ) a + S1x32x256.size a ≤ S1x32x2048.size a)
    (inbA : ∀ a, (![0, 0, o] : Fin 3 → ℕ) a + S1x2048x256.size a ≤ S1x2048x2048.size a)
    (l : FVec F S32x2048 .bf16) (a : Vec F S1x2048x2048 .f32) : View.Piece (Elt F) S1x32x2048 .f32 :=
  pieceAt dot_S32x2048_S2048x256_S32x256_1_0_0_1_n_n shapeCasts_S1x2048x256_S2048x256 shapeCasts_S32x256_S1x32x256
    bitsLt_bf16_f32 o inbO inbA l a

/-- The eight tiles of left operand `l` against adjacency `a`, the last written first. -/
def tiles (l : FVec F S32x2048 .bf16) (a : Vec F S1x2048x2048 .f32) : List (View.Piece (Elt F) S1x32x2048 .f32) :=
  [tileAt 1792 inb_S1x32x2048_S1x32x256_0_0_1792 inb_S1x2048x2048_S1x2048x256_0_0_1792 l a,
   tileAt 1536 inb_S1x32x2048_S1x32x256_0_0_1536 inb_S1x2048x2048_S1x2048x256_0_0_1536 l a,
   tileAt 1280 inb_S1x32x2048_S1x32x256_0_0_1280 inb_S1x2048x2048_S1x2048x256_0_0_1280 l a,
   tileAt 1024 inb_S1x32x2048_S1x32x256_0_0_1024 inb_S1x2048x2048_S1x2048x256_0_0_1024 l a,
   tileAt 768 inb_S1x32x2048_S1x32x256_0_0_768 inb_S1x2048x2048_S1x2048x256_0_0_768 l a,
   tileAt 512 inb_S1x32x2048_S1x32x256_0_0_512 inb_S1x2048x2048_S1x2048x256_0_0_512 l a,
   tileAt 256 inb_S1x32x2048_S1x32x256_0_0_256 inb_S1x2048x2048_S1x2048x256_0_0_256 l a,
   tileAt 0 inb_S1x32x2048_S1x32x256_0_0_0 inb_S1x2048x2048_S1x2048x256_0_0_0 l a]

/-- The eight tiles fill the 2048 columns. -/
theorem tiles_cover (l : FVec F S32x2048 .bf16) (a : Vec F S1x2048x2048 .f32) (y : S1x32x2048.Idx) :
    ∃ p ∈ tiles l a, y ∈ p.1.set :=
  View.cover_of_tiledL (tiles l a) S1x32x256.size (by sl_kernel_rfl) y

/-- Each of them is a tile of `l` against `a`. -/
theorem tiles_mem (l : FVec F S32x2048 .bf16) (a : Vec F S1x2048x2048 .f32) :
    ∀ p ∈ tiles l a, ∃ o inbO inbA, p = tileAt o inbO inbA l a := by
  intro p hp
  simp only [tiles, List.mem_cons, List.not_mem_nil, or_false] at hp
  rcases hp with rfl | rfl | rfl | rfl | rfl | rfl | rfl | rfl <;> exact ⟨_, _, _, rfl⟩

end

/-- The eight tiles of a features block leave one diffusion step of it. -/
theorem canon_tiles_eq (a : Vec Ideal S1x2048x2048 .f32) (h : Vec Ideal S1x32x2048 .f32) :
    View.canon (tiles (lhsOf h) a) = hopBlock a h :=
  canon_tiles dot_S32x2048_S2048x256_S32x256_1_0_0_1_n_n shapeCasts_S1x32x2048_S32x2048 shapeCasts_S1x2048x256_S2048x256
    shapeCasts_S32x256_S1x32x256 bitsLt_bf16_f32 dot_plain a h (tiles (lhsOf h) a) (tiles_mem (lhsOf h) a)
    (tiles_cover (lhsOf h) a)

/-- The block read back whole after the eight writes is the step's value. -/
theorem readback_eq {sig : RefSig} {κ : Kind} {sp : Space} (v : View sig κ sp S1x32x2048 .f32)
    (a : Vec Ideal S1x2048x2048 .f32) (h : Vec Ideal S1x32x2048 .f32) :
    v.readCov (tiles (lhsOf h) a) (Rect.unit (s := S1x32x2048) ![0, 0, 0] S1x32x2048.size inb_S1x32x2048_S1x32x2048_0_0_0).toLoadRect
      = hopBlock a h := by
  rw [View.readCov_eq_canon_ld _ _ _ (tiles_cover (lhsOf h) a), View.ld_unit_zero zeros3, canon_tiles_eq]

/-- A second round of eight tiles, of the block read back, leaves the step applied twice. -/
theorem canon_tiles_twice {sig : RefSig} {κ : Kind} {sp : Space} (v : View sig κ sp S1x32x2048 .f32)
    (a : Vec Ideal S1x2048x2048 .f32) (h : Vec Ideal S1x32x2048 .f32) :
    View.canon (tiles (lhsOf (v.readCov (tiles (lhsOf h) a)
        (Rect.unit (s := S1x32x2048) ![0, 0, 0] S1x32x2048.size inb_S1x32x2048_S1x32x2048_0_0_0).toLoadRect)) a)
      = hopBlock a (hopBlock a h) := by
  rw [readback_eq, canon_tiles_eq]

end Cert.KernelIdeal.Hop

end
-- ==== Proof.HopBody0.lean ====
/-
  What the two-hop body of region 0 leaves in its two result blocks.

  The body forms the features' left operand once, writes the eight column tiles of one diffusion step into the first
  result block, reads that block back whole, and writes the eight column tiles of a second step, of the block read
  back against the same adjacency, into the second result block. So the first block ends holding one step of the
  features block and the second block two steps.
-/
import proofs.«100048_j70317204570386_2_alg».proof.Proof.Gen.KernelIdeal.Frame
import proofs.«100048_j70317204570386_2_alg».proof.Proof.HopList
import Idealize.ShloMosaic.Lib.Pipeline.Value
import Idealize.ShloMosaic.Lib.Tactic

noncomputable section

namespace Cert.KernelIdeal.Hop

open Idealize.ShloMosaic Idealize.ShloMosaic.TcCoe Idealize.ShloMosaic.Tactic Idealize.SL.Sem
open Cert.KernelIdeal Cert.KernelIdeal.Gen

section
variable {F : FTy → Type} [FloatOps F]

/-- The writes into the first result block are the eight tiles of the features block. -/
theorem run0_first (c : Dev nD) (i : grid0.Coords) (arg1 : Memref sig .tc .vmem S1x2048x2048 .f32) (harg1 : arg1.IsWhole)
    (arg2 : Memref sig .tc .vmem S1x32x2048 .f32) (harg2 : arg2.IsWhole) (arg3 : Memref sig .tc .vmem S1x32x2048 .f32)
    (harg3 : arg3.IsWhole) (arg4 : Memref sig .tc .vmem S1x32x2048 .f32) (harg4 : arg4.IsWhole)
    (x0 : Vec F S1x2048x2048 .f32) (x1 : Vec F S1x32x2048 .f32) :
    (kernelRun0_A c i arg1 harg1 arg2 harg2 arg3 harg3 arg4 harg4 x0 x1).1 = tiles (lhsOf x1) x0 := by
  unfold kernelRun0_A
  dsimp only
  sl_unfold_words
  simp only [View.readAt_eq_ld, harg1.read_unread, harg2.read_unread, View.ld_unit_zero (S := S1x32x2048) zeros3]
  rfl

/-- The writes into the second result block are the eight tiles of the first block read back whole. -/
theorem run0_second (c : Dev nD) (i : grid0.Coords) (arg1 : Memref sig .tc .vmem S1x2048x2048 .f32) (harg1 : arg1.IsWhole)
    (arg2 : Memref sig .tc .vmem S1x32x2048 .f32) (harg2 : arg2.IsWhole) (arg3 : Memref sig .tc .vmem S1x32x2048 .f32)
    (harg3 : arg3.IsWhole) (arg4 : Memref sig .tc .vmem S1x32x2048 .f32) (harg4 : arg4.IsWhole)
    (x0 : Vec F S1x2048x2048 .f32) (x1 : Vec F S1x32x2048 .f32) :
    (kernelRun0_A c i arg1 harg1 arg2 harg2 arg3 harg3 arg4 harg4 x0 x1).2.1
      = tiles (lhsOf (arg3.view.readCov (tiles (lhsOf x1) x0)
          (Rect.unit (s := S1x32x2048) ![0, 0, 0] S1x32x2048.size Facts₀.inb_S1x32x2048_S1x32x2048_0_0_0).toLoadRect)) x0 := by
  unfold kernelRun0_A
  dsimp only
  sl_unfold_words
  simp only [View.readAt_eq_ld, harg1.read_unread, harg2.read_unread, View.ld_unit_zero (S := S1x32x2048) zeros3]
  rfl

end

/-- The first result block ends holding one diffusion step of the features block. -/
theorem out0_first (c : Dev nD) (i : grid0.Coords) (arg1 : Memref sig .tc .vmem S1x2048x2048 .f32) (harg1 : arg1.IsWhole)
    (arg2 : Memref sig .tc .vmem S1x32x2048 .f32) (harg2 : arg2.IsWhole) (arg3 : Memref sig .tc .vmem S1x32x2048 .f32)
    (harg3 : arg3.IsWhole) (arg4 : Memref sig .tc .vmem S1x32x2048 .f32) (harg4 : arg4.IsWhole)
    (x0 : Vec Ideal S1x2048x2048 .f32) (x1 : Vec Ideal S1x32x2048 .f32) :
    out0_A_2 c i arg1 harg1 arg2 harg2 arg3 harg3 arg4 harg4 x0 x1 = hopBlock x0 x1 := by
  unfold out0_A_2
  rw [View.read_writes_eq_canon _ _ _ (cover0_A_2 c i arg1 harg1 arg2 harg2 arg3 harg3 arg4 harg4 x0 x1),
    run0_first]
  exact canon_tiles_eq x0 x1

/-- The second result block ends holding two diffusion steps of the features block. -/
theorem out0_second (c : Dev nD) (i : grid0.Coords) (arg1 : Memref sig .tc .vmem S1x2048x2048 .f32) (harg1 : arg1.IsWhole)
    (arg2 : Memref sig .tc .vmem S1x32x2048 .f32) (harg2 : arg2.IsWhole) (arg3 : Memref sig .tc .vmem S1x32x2048 .f32)
    (harg3 : arg3.IsWhole) (arg4 : Memref sig .tc .vmem S1x32x2048 .f32) (harg4 : arg4.IsWhole)
    (x0 : Vec Ideal S1x2048x2048 .f32) (x1 : Vec Ideal S1x32x2048 .f32) :
    out0_A_3 c i arg1 harg1 arg2 harg2 arg3 harg3 arg4 harg4 x0 x1 = hopBlock x0 (hopBlock x0 x1) := by
  unfold out0_A_3
  rw [View.read_writes_eq_canon _ _ _ (cover0_A_3 c i arg1 harg1 arg2 harg2 arg3 harg3 arg4 harg4 x0 x1),
    run0_second]
  exact canon_tiles_twice arg3.view x0 x1

end Cert.KernelIdeal.Hop

end
-- ==== Proof.HopSlab.lean ====
/-
  One sample's diffusion step is that sample's slab of the whole arrays' step.

  If a block `a` is slab n of the adjacencies `A` and a block `h` is slab n of the channel-major features `H`, then
  the step on the blocks, at entry (c, w), is the whole arrays' step `hop A H` at entry (n, c, w): both are the sum
  over nodes v of H (n, c, v) · A (n, v, w).
-/
import proofs.«100048_j70317204570386_2_alg».proof.Proof.Spec
import proofs.«100048_j70317204570386_2_alg».proof.Proof.HopTile

noncomputable section

namespace Cert.KernelIdeal.Hop

open Idealize.ShloMosaic Idealize.ShloMosaic.ValueIdx

theorem hopBlock_slab (A : Cert.Spec.SAdj.Idx → EReal) (H : Cert.Spec.SFeat.Idx → EReal)
    (a : BAdj.Idx → EReal) (h : BFeat.Idx → EReal) (n : Fin 8)
    (ha : ∀ v w : Fin 2048, a (ix3 (n0 := 1) (n1 := 2048) (n2 := 2048) 0 v w)
      = A (ix3 (n0 := 8) (n1 := 2048) (n2 := 2048) n v w))
    (hh : ∀ (c : Fin 32) (v : Fin 2048), h (ix3 (n0 := 1) (n1 := 32) (n2 := 2048) 0 c v)
      = H (ix3 (n0 := 8) (n1 := 32) (n2 := 2048) n c v))
    (y : BFeat.Idx) :
    hopBlock a h y = Cert.Spec.hop A H (ix3 (n0 := 8) (n1 := 32) (n2 := 2048) n (y 1) (y 2)) := by
  unfold hopBlock Cert.Spec.hop
  refine Finset.sum_congr rfl fun v _ => ?_
  exact congrArg₂ (· * ·) (hh (y 1) v) (ha v (y 2))

end Cert.KernelIdeal.Hop

end
-- ==== Proof.HopArray0.lean ====
/-
  Region 0's two result arrays: one and two diffusion steps of the channel-major features along one adjacency.

  The region's grid has one point per sample, and at point t every window's block is slab t of its array: the
  adjacency block is sample t's adjacency, the features block sample t's features, and the two result blocks are
  written back to slab t of the two result arrays. The body leaves one step of the features block in the first
  result block and two steps in the second; a step on sample t's blocks is slab t of the step on the whole arrays;
  and the eight slabs fill each result array. So the first result array ends holding `hop A H` and the second
  `hop A (hop A H)`, for `A` and `H` the adjacency and features arrays as the region finds them.
-/
import proofs.«100048_j70317204570386_2_alg».proof.Proof.Gen.KernelIdeal.Frame
import proofs.«100048_j70317204570386_2_alg».proof.Proof.HopBody0
import proofs.«100048_j70317204570386_2_alg».proof.Proof.HopSlab
import proofs.«100048_j70317204570386_2_alg».proof.Proof.Spec
import Idealize.ShloMosaic.Lib.Pipeline.Value
import Idealize.ShloMosaic.Lib.Tactic

noncomputable section

namespace Cert.KernelIdeal.Hop

open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- At point t every window's block is slab t of its array. -/
theorem slabIndex0 : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The sample a grid point works on. -/
def sample0 (t : Fin cfg0.N) : Fin 8 := ⟨t.val, by have hN : cfg0.N = 8 := N_0; have := t.isLt; omega⟩

/-- The adjacency block at point t is sample t's adjacency. -/
theorem adjBlock0 (c : Dev nD) (t : Fin cfg0.N) (v w : Fin 2048) :
    (iblk0 V c 0 t : Vec Ideal S1x2048x2048 .f32) (ix3 (n0 := 1) (n1 := 2048) (n2 := 2048) 0 v w)
      = (V c (Pipeline.arrRef spec0 0) : S8x2048x2048.Idx → EReal)
          (ix3 (n0 := 8) (n1 := 2048) (n2 := 2048) (sample0 t) v w) := by
  obtain ⟨⟨e0, e1, e2⟩, -⟩ := slabIndex0 t
  unfold iblk0
  rw [View.read_apply]
  show V c (Pipeline.arrRef spec0 0) _ = V c (Pipeline.arrRef spec0 0) _
  refine congrArg _ (funext fun a => Fin.ext ?_)
  match a with
  | ⟨0, _⟩ => show win0_0.index t (0 : Fin 3) * 1 + 1 * 0 = t.val; omega
  | ⟨1, _⟩ => show win0_0.index t (1 : Fin 3) * 2048 + 1 * v.val = v.val; omega
  | ⟨2, _⟩ => show win0_0.index t (2 : Fin 3) * 2048 + 1 * w.val = w.val; omega

/-- The features block at point t is sample t's features. -/
theorem featBlock0 (c : Dev nD) (t : Fin cfg0.N) (ch : Fin 32) (v : Fin 2048) :
    (iblk0 V c 1 t : Vec Ideal S1x32x2048 .f32) (ix3 (n0 := 1) (n1 := 32) (n2 := 2048) 0 ch v)
      = (V c (Pipeline.arrRef spec0 1) : S8x32x2048.Idx → EReal)
          (ix3 (n0 := 8) (n1 := 32) (n2 := 2048) (sample0 t) ch v) := by
  obtain ⟨-, ⟨e0, e1, e2⟩, -⟩ := slabIndex0 t
  unfold iblk0
  rw [View.read_apply]
  show V c (Pipeline.arrRef spec0 1) _ = V c (Pipeline.arrRef spec0 1) _
  refine congrArg _ (funext fun a => Fin.ext ?_)
  match a with
  | ⟨0, _⟩ => show win0_1.index t (0 : Fin 3) * 1 + 1 * 0 = t.val; omega
  | ⟨1, _⟩ => show win0_1.index t (1 : Fin 3) * 32 + 1 * ch.val = ch.val; omega
  | ⟨2, _⟩ => show win0_1.index t (2 : Fin 3) * 2048 + 1 * v.val = v.val; omega

/-- The step on point t's blocks is slab t of the step on the arrays. -/
theorem stepBlock0 (c : Dev nD) (t : Fin cfg0.N) (y : S1x32x2048.Idx) :
    hopBlock (iblk0 V c 0 t) (iblk0 V c 1 t) y
      = Cert.Spec.hop (V c (Pipeline.arrRef spec0 0)) (V c (Pipeline.arrRef spec0 1))
          (ix3 (n0 := 8) (n1 := 32) (n2 := 2048) (sample0 t) (y 1) (y 2)) :=
  hopBlock_slab _ _ _ _ (sample0 t) (adjBlock0 V c t) (featBlock0 V c t) y

/-- Two steps on point t's blocks are slab t of two steps on the arrays. -/
theorem stepBlockTwice0 (c : Dev nD) (t : Fin cfg0.N) (y : S1x32x2048.Idx) :
    hopBlock (iblk0 V c 0 t) (hopBlock (iblk0 V c 0 t) (iblk0 V c 1 t)) y
      = Cert.Spec.hop (V c (Pipeline.arrRef spec0 0))
          (Cert.Spec.hop (V c (Pipeline.arrRef spec0 0)) (V c (Pipeline.arrRef spec0 1)))
          (ix3 (n0 := 8) (n1 := 32) (n2 := 2048) (sample0 t) (y 1) (y 2)) :=
  hopBlock_slab _ _ _ _ (sample0 t) (adjBlock0 V c t)
    (fun ch v => stepBlock0 V c t (ix3 (n0 := 1) (n1 := 32) (n2 := 2048) 0 ch v)) y

/-- Where element y of the first result block of point t sits in its array. -/
theorem firstPlace0 (t : Fin cfg0.N) (y : S1x32x2048.Idx) :
    ((cfg0.win 2).blk t).view.emb y = ix3 (n0 := 8) (n1 := 32) (n2 := 2048) (sample0 t) (y 1) (y 2) := by
  obtain ⟨-, -, ⟨e0, e1, e2⟩, -⟩ := slabIndex0 t
  have hy : (y 0).val < 1 := (y 0).isLt
  refine funext fun a => Fin.ext ?_
  match a with
  | ⟨0, _⟩ => show win0_2.index t (0 : Fin 3) * 1 + 1 * (y 0).val = t.val; omega
  | ⟨1, _⟩ => show win0_2.index t (1 : Fin 3) * 32 + 1 * (y 1).val = (y 1).val; omega
  | ⟨2, _⟩ => show win0_2.index t (2 : Fin 3) * 2048 + 1 * (y 2).val = (y 2).val; omega

/-- Where element y of the second result block of point t sits in its array. -/
theorem secondPlace0 (t : Fin cfg0.N) (y : S1x32x2048.Idx) :
    ((cfg0.win 3).blk t).view.emb y = ix3 (n0 := 8) (n1 := 32) (n2 := 2048) (sample0 t) (y 1) (y 2) := by
  obtain ⟨-, -, -, ⟨e0, e1, e2⟩⟩ := slabIndex0 t
  have hy : (y 0).val < 1 := (y 0).isLt
  refine funext fun a => Fin.ext ?_
  match a with
  | ⟨0, _⟩ => show win0_3.index t (0 : Fin 3) * 1 + 1 * (y 0).val = t.val; omega
  | ⟨1, _⟩ => show win0_3.index t (1 : Fin 3) * 32 + 1 * (y 1).val = (y 1).val; omega
  | ⟨2, _⟩ => show win0_3.index t (2 : Fin 3) * 2048 + 1 * (y 2).val = (y 2).val; omega

/-- What point t writes back to the first result array is slab t of one step on the arrays. -/
theorem flushed0_first (c : Dev nD) (t : Fin cfg0.N) :
    (dat0 V c).flushed 2 t = ((cfg0.win 2).blk t).view.read (Elt Ideal)
      (Cert.Spec.hop (V c (Pipeline.arrRef spec0 0)) (V c (Pipeline.arrRef spec0 1))) := by
  show (cfg0.win 2).cut (grid0.coords t) ((dat0 V c).after 2 t) = _
  rw [after0_2]
  unfold outsAt0
  dsimp only
  rw [out0_first]
  funext y
  rw [View.read_apply, firstPlace0]
  exact stepBlock0 V c t y

/-- What point t writes back to the second result array is slab t of two steps on the arrays. -/
theorem flushed0_second (c : Dev nD) (t : Fin cfg0.N) :
    (dat0 V c).flushed 3 t = ((cfg0.win 3).blk t).view.read (Elt Ideal)
      (Cert.Spec.hop (V c (Pipeline.arrRef spec0 0))
        (Cert.Spec.hop (V c (Pipeline.arrRef spec0 0)) (V c (Pipeline.arrRef spec0 1)))) := by
  show (cfg0.win 3).cut (grid0.coords t) ((dat0 V c).after 3 t) = _
  rw [after0_3]
  unfold outsAt0
  dsimp only
  rw [out0_second]
  funext y
  rw [View.read_apply, secondPlace0]
  exact stepBlockTwice0 V c t y

/-- An index of the first result array lies in point t's block iff its sample is t. -/
theorem mem_first0 (t : Fin cfg0.N) (i : S8x32x2048.Idx) :
    i ∈ ((cfg0.win 2).blk t).view.set ↔ ∀ a : Fin 3, win0_2.index t a * S1x32x2048.size a ≤ (i a).val
      ∧ (i a).val < win0_2.index t a * S1x32x2048.size a + S1x32x2048.size a := by
  show i ∈ ((View.whole main_v1_0).slice (win0_2.rect t)).set ↔ _
  rw [View.set_slice_whole, Rect.mem_set_unit]
  exact Iff.rfl

/-- An index of the second result array lies in point t's block iff its sample is t. -/
theorem mem_second0 (t : Fin cfg0.N) (i : S8x32x2048.Idx) :
    i ∈ ((cfg0.win 3).blk t).view.set ↔ ∀ a : Fin 3, win0_3.index t a * S1x32x2048.size a ≤ (i a).val
      ∧ (i a).val < win0_3.index t a * S1x32x2048.size a + S1x32x2048.size a := by
  show i ∈ ((View.whole main_v1_1).slice (win0_3.rect t)).set ↔ _
  rw [View.set_slice_whole, Rect.mem_set_unit]
  exact Iff.rfl

/-- The first result array ends holding one diffusion step of the features along the adjacency. -/
theorem arr0_first (c : Dev nD) :
    (dat0 V c).arrAt 2 cfg0.N
      = Cert.Spec.hop (V c (Pipeline.arrRef spec0 0)) (V c (Pipeline.arrRef spec0 1)) :=
  (dat0 V c).arrAt_eq_of_cover 2 _ (fun t _ => flushed0_first V c t) fun i => by
    have hN : cfg0.N = 8 := N_0
    have h0 : (i 0).val < 8 := (i 0).isLt
    have h1 : (i 1).val < 32 := (i 1).isLt
    have h2 : (i 2).val < 2048 := (i 2).isLt
    refine ⟨⟨(i 0).val, by omega⟩, flush0_2 _, ?_⟩
    rw [mem_first0]
    obtain ⟨-, -, ⟨e0, e1, e2⟩, -⟩ := slabIndex0 ⟨(i 0).val, by omega⟩
    dsimp only at e0
    intro a
    match a with
    | ⟨0, _⟩ => show win0_2.index _ (0 : Fin 3) * 1 ≤ (i 0).val ∧ (i 0).val < win0_2.index _ (0 : Fin 3) * 1 + 1; omega
    | ⟨1, _⟩ => show win0_2.index _ (1 : Fin 3) * 32 ≤ (i 1).val ∧ (i 1).val < win0_2.index _ (1 : Fin 3) * 32 + 32; omega
    | ⟨2, _⟩ => show win0_2.index _ (2 : Fin 3) * 2048 ≤ (i 2).val ∧ (i 2).val < win0_2.index _ (2 : Fin 3) * 2048 + 2048; omega

/-- The second result array ends holding two diffusion steps of the features along the adjacency. -/
theorem arr0_second (c : Dev nD) :
    (dat0 V c).arrAt 3 cfg0.N
      = Cert.Spec.hop (V c (Pipeline.arrRef spec0 0))
          (Cert.Spec.hop (V c (Pipeline.arrRef spec0 0)) (V c (Pipeline.arrRef spec0 1))) :=
  (dat0 V c).arrAt_eq_of_cover 3 _ (fun t _ => flushed0_second V c t) fun i => by
    have hN : cfg0.N = 8 := N_0
    have h0 : (i 0).val < 8 := (i 0).isLt
    have h1 : (i 1).val < 32 := (i 1).isLt
    have h2 : (i 2).val < 2048 := (i 2).isLt
    refine ⟨⟨(i 0).val, by omega⟩, flush0_3 _, ?_⟩
    rw [mem_second0]
    obtain ⟨-, -, -, ⟨e0, e1, e2⟩⟩ := slabIndex0 ⟨(i 0).val, by omega⟩
    dsimp only at e0
    intro a
    match a with
    | ⟨0, _⟩ => show win0_3.index _ (0 : Fin 3) * 1 ≤ (i 0).val ∧ (i 0).val < win0_3.index _ (0 : Fin 3) * 1 + 1; omega
    | ⟨1, _⟩ => show win0_3.index _ (1 : Fin 3) * 32 ≤ (i 1).val ∧ (i 1).val < win0_3.index _ (1 : Fin 3) * 32 + 32; omega
    | ⟨2, _⟩ => show win0_3.index _ (2 : Fin 3) * 2048 ≤ (i 2).val ∧ (i 2).val < win0_3.index _ (2 : Fin 3) * 2048 + 2048; omega

end Cert.KernelIdeal.Hop

end
-- ==== Proof.HopBody1.lean ====
/-
  What the two-hop body of region 1 leaves in its two result blocks.

  The body forms the features' left operand once, writes the eight column tiles of one diffusion step into the first
  result block, reads that block back whole, and writes the eight column tiles of a second step, of the block read
  back against the same adjacency, into the second result block. So the first block ends holding one step of the
  features block and the second block two steps.
-/
import proofs.«100048_j70317204570386_2_alg».proof.Proof.Gen.KernelIdeal.Frame
import proofs.«100048_j70317204570386_2_alg».proof.Proof.HopList
import Idealize.ShloMosaic.Lib.Pipeline.Value
import Idealize.ShloMosaic.Lib.Tactic

noncomputable section

namespace Cert.KernelIdeal.Hop

open Idealize.ShloMosaic Idealize.ShloMosaic.TcCoe Idealize.ShloMosaic.Tactic Idealize.SL.Sem
open Cert.KernelIdeal Cert.KernelIdeal.Gen

section
variable {F : FTy → Type} [FloatOps F]

/-- The writes into the first result block are the eight tiles of the features block. -/
theorem run1_first (c : Dev nD) (i : grid1.Coords) (arg1 : Memref sig .tc .vmem S1x2048x2048 .f32) (harg1 : arg1.IsWhole)
    (arg2 : Memref sig .tc .vmem S1x32x2048 .f32) (harg2 : arg2.IsWhole) (arg3 : Memref sig .tc .vmem S1x32x2048 .f32)
    (harg3 : arg3.IsWhole) (arg4 : Memref sig .tc .vmem S1x32x2048 .f32) (harg4 : arg4.IsWhole)
    (x0 : Vec F S1x2048x2048 .f32) (x1 : Vec F S1x32x2048 .f32) :
    (kernelRun1_A c i arg1 harg1 arg2 harg2 arg3 harg3 arg4 harg4 x0 x1).1 = tiles (lhsOf x1) x0 := by
  unfold kernelRun1_A
  dsimp only
  sl_unfold_words
  simp only [View.readAt_eq_ld, harg1.read_unread, harg2.read_unread, View.ld_unit_zero (S := S1x32x2048) zeros3]
  rfl

/-- The writes into the second result block are the eight tiles of the first block read back whole. -/
theorem run1_second (c : Dev nD) (i : grid1.Coords) (arg1 : Memref sig .tc .vmem S1x2048x2048 .f32) (harg1 : arg1.IsWhole)
    (arg2 : Memref sig .tc .vmem S1x32x2048 .f32) (harg2 : arg2.IsWhole) (arg3 : Memref sig .tc .vmem S1x32x2048 .f32)
    (harg3 : arg3.IsWhole) (arg4 : Memref sig .tc .vmem S1x32x2048 .f32) (harg4 : arg4.IsWhole)
    (x0 : Vec F S1x2048x2048 .f32) (x1 : Vec F S1x32x2048 .f32) :
    (kernelRun1_A c i arg1 harg1 arg2 harg2 arg3 harg3 arg4 harg4 x0 x1).2.1
      = tiles (lhsOf (arg3.view.readCov (tiles (lhsOf x1) x0)
          (Rect.unit (s := S1x32x2048) ![0, 0, 0] S1x32x2048.size Facts₀.inb_S1x32x2048_S1x32x2048_0_0_0).toLoadRect)) x0 := by
  unfold kernelRun1_A
  dsimp only
  sl_unfold_words
  simp only [View.readAt_eq_ld, harg1.read_unread, harg2.read_unread, View.ld_unit_zero (S := S1x32x2048) zeros3]
  rfl

end

/-- The first result block ends holding one diffusion step of the features block. -/
theorem out1_first (c : Dev nD) (i : grid1.Coords) (arg1 : Memref sig .tc .vmem S1x2048x2048 .f32) (harg1 : arg1.IsWhole)
    (arg2 : Memref sig .tc .vmem S1x32x2048 .f32) (harg2 : arg2.IsWhole) (arg3 : Memref sig .tc .vmem S1x32x2048 .f32)
    (harg3 : arg3.IsWhole) (arg4 : Memref sig .tc .vmem S1x32x2048 .f32) (harg4 : arg4.IsWhole)
    (x0 : Vec Ideal S1x2048x2048 .f32) (x1 : Vec Ideal S1x32x2048 .f32) :
    out1_A_2 c i arg1 harg1 arg2 harg2 arg3 harg3 arg4 harg4 x0 x1 = hopBlock x0 x1 := by
  unfold out1_A_2
  rw [View.read_writes_eq_canon _ _ _ (cover1_A_2 c i arg1 harg1 arg2 harg2 arg3 harg3 arg4 harg4 x0 x1),
    run1_first]
  exact canon_tiles_eq x0 x1

/-- The second result block ends holding two diffusion steps of the features block. -/
theorem out1_second (c : Dev nD) (i : grid1.Coords) (arg1 : Memref sig .tc .vmem S1x2048x2048 .f32) (harg1 : arg1.IsWhole)
    (arg2 : Memref sig .tc .vmem S1x32x2048 .f32) (harg2 : arg2.IsWhole) (arg3 : Memref sig .tc .vmem S1x32x2048 .f32)
    (harg3 : arg3.IsWhole) (arg4 : Memref sig .tc .vmem S1x32x2048 .f32) (harg4 : arg4.IsWhole)
    (x0 : Vec Ideal S1x2048x2048 .f32) (x1 : Vec Ideal S1x32x2048 .f32) :
    out1_A_3 c i arg1 harg1 arg2 harg2 arg3 harg3 arg4 harg4 x0 x1 = hopBlock x0 (hopBlock x0 x1) := by
  unfold out1_A_3
  rw [View.read_writes_eq_canon _ _ _ (cover1_A_3 c i arg1 harg1 arg2 harg2 arg3 harg3 arg4 harg4 x0 x1),
    run1_second]
  exact canon_tiles_twice arg3.view x0 x1

end Cert.KernelIdeal.Hop

end
-- ==== Proof.HopArray1.lean ====
/-
  Region 1's two result arrays: one and two diffusion steps of the channel-major features along one adjacency.

  The region's grid has one point per sample, and at point t every window's block is slab t of its array: the
  adjacency block is sample t's adjacency, the features block sample t's features, and the two result blocks are
  written back to slab t of the two result arrays. The body leaves one step of the features block in the first
  result block and two steps in the second; a step on sample t's blocks is slab t of the step on the whole arrays;
  and the eight slabs fill each result array. So the first result array ends holding `hop A H` and the second
  `hop A (hop A H)`, for `A` and `H` the adjacency and features arrays as the region finds them.
-/
import proofs.«100048_j70317204570386_2_alg».proof.Proof.Gen.KernelIdeal.Frame
import proofs.«100048_j70317204570386_2_alg».proof.Proof.HopBody1
import proofs.«100048_j70317204570386_2_alg».proof.Proof.HopSlab
import proofs.«100048_j70317204570386_2_alg».proof.Proof.Spec
import Idealize.ShloMosaic.Lib.Pipeline.Value
import Idealize.ShloMosaic.Lib.Tactic

noncomputable section

namespace Cert.KernelIdeal.Hop

open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- At point t every window's block is slab t of its array. -/
theorem slabIndex1 : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0) :=
  (by decide +kernel : ∀ t : Fin grid1.N, _)

/-- The sample a grid point works on. -/
def sample1 (t : Fin cfg1.N) : Fin 8 := ⟨t.val, by have hN : cfg1.N = 8 := N_1; have := t.isLt; omega⟩

/-- The adjacency block at point t is sample t's adjacency. -/
theorem adjBlock1 (c : Dev nD) (t : Fin cfg1.N) (v w : Fin 2048) :
    (iblk1 V c 0 t : Vec Ideal S1x2048x2048 .f32) (ix3 (n0 := 1) (n1 := 2048) (n2 := 2048) 0 v w)
      = (V c (Pipeline.arrRef spec1 0) : S8x2048x2048.Idx → EReal)
          (ix3 (n0 := 8) (n1 := 2048) (n2 := 2048) (sample1 t) v w) := by
  obtain ⟨⟨e0, e1, e2⟩, -⟩ := slabIndex1 t
  unfold iblk1
  rw [View.read_apply]
  show V c (Pipeline.arrRef spec1 0) _ = V c (Pipeline.arrRef spec1 0) _
  refine congrArg _ (funext fun a => Fin.ext ?_)
  match a with
  | ⟨0, _⟩ => show win1_0.index t (0 : Fin 3) * 1 + 1 * 0 = t.val; omega
  | ⟨1, _⟩ => show win1_0.index t (1 : Fin 3) * 2048 + 1 * v.val = v.val; omega
  | ⟨2, _⟩ => show win1_0.index t (2 : Fin 3) * 2048 + 1 * w.val = w.val; omega

/-- The features block at point t is sample t's features. -/
theorem featBlock1 (c : Dev nD) (t : Fin cfg1.N) (ch : Fin 32) (v : Fin 2048) :
    (iblk1 V c 1 t : Vec Ideal S1x32x2048 .f32) (ix3 (n0 := 1) (n1 := 32) (n2 := 2048) 0 ch v)
      = (V c (Pipeline.arrRef spec1 1) : S8x32x2048.Idx → EReal)
          (ix3 (n0 := 8) (n1 := 32) (n2 := 2048) (sample1 t) ch v) := by
  obtain ⟨-, ⟨e0, e1, e2⟩, -⟩ := slabIndex1 t
  unfold iblk1
  rw [View.read_apply]
  show V c (Pipeline.arrRef spec1 1) _ = V c (Pipeline.arrRef spec1 1) _
  refine congrArg _ (funext fun a => Fin.ext ?_)
  match a with
  | ⟨0, _⟩ => show win1_1.index t (0 : Fin 3) * 1 + 1 * 0 = t.val; omega
  | ⟨1, _⟩ => show win1_1.index t (1 : Fin 3) * 32 + 1 * ch.val = ch.val; omega
  | ⟨2, _⟩ => show win1_1.index t (2 : Fin 3) * 2048 + 1 * v.val = v.val; omega

/-- The step on point t's blocks is slab t of the step on the arrays. -/
theorem stepBlock1 (c : Dev nD) (t : Fin cfg1.N) (y : S1x32x2048.Idx) :
    hopBlock (iblk1 V c 0 t) (iblk1 V c 1 t) y
      = Cert.Spec.hop (V c (Pipeline.arrRef spec1 0)) (V c (Pipeline.arrRef spec1 1))
          (ix3 (n0 := 8) (n1 := 32) (n2 := 2048) (sample1 t) (y 1) (y 2)) :=
  hopBlock_slab _ _ _ _ (sample1 t) (adjBlock1 V c t) (featBlock1 V c t) y

/-- Two steps on point t's blocks are slab t of two steps on the arrays. -/
theorem stepBlockTwice1 (c : Dev nD) (t : Fin cfg1.N) (y : S1x32x2048.Idx) :
    hopBlock (iblk1 V c 0 t) (hopBlock (iblk1 V c 0 t) (iblk1 V c 1 t)) y
      = Cert.Spec.hop (V c (Pipeline.arrRef spec1 0))
          (Cert.Spec.hop (V c (Pipeline.arrRef spec1 0)) (V c (Pipeline.arrRef spec1 1)))
          (ix3 (n0 := 8) (n1 := 32) (n2 := 2048) (sample1 t) (y 1) (y 2)) :=
  hopBlock_slab _ _ _ _ (sample1 t) (adjBlock1 V c t)
    (fun ch v => stepBlock1 V c t (ix3 (n0 := 1) (n1 := 32) (n2 := 2048) 0 ch v)) y

/-- Where element y of the first result block of point t sits in its array. -/
theorem firstPlace1 (t : Fin cfg1.N) (y : S1x32x2048.Idx) :
    ((cfg1.win 2).blk t).view.emb y = ix3 (n0 := 8) (n1 := 32) (n2 := 2048) (sample1 t) (y 1) (y 2) := by
  obtain ⟨-, -, ⟨e0, e1, e2⟩, -⟩ := slabIndex1 t
  have hy : (y 0).val < 1 := (y 0).isLt
  refine funext fun a => Fin.ext ?_
  match a with
  | ⟨0, _⟩ => show win1_2.index t (0 : Fin 3) * 1 + 1 * (y 0).val = t.val; omega
  | ⟨1, _⟩ => show win1_2.index t (1 : Fin 3) * 32 + 1 * (y 1).val = (y 1).val; omega
  | ⟨2, _⟩ => show win1_2.index t (2 : Fin 3) * 2048 + 1 * (y 2).val = (y 2).val; omega

/-- Where element y of the second result block of point t sits in its array. -/
theorem secondPlace1 (t : Fin cfg1.N) (y : S1x32x2048.Idx) :
    ((cfg1.win 3).blk t).view.emb y = ix3 (n0 := 8) (n1 := 32) (n2 := 2048) (sample1 t) (y 1) (y 2) := by
  obtain ⟨-, -, -, ⟨e0, e1, e2⟩⟩ := slabIndex1 t
  have hy : (y 0).val < 1 := (y 0).isLt
  refine funext fun a => Fin.ext ?_
  match a with
  | ⟨0, _⟩ => show win1_3.index t (0 : Fin 3) * 1 + 1 * (y 0).val = t.val; omega
  | ⟨1, _⟩ => show win1_3.index t (1 : Fin 3) * 32 + 1 * (y 1).val = (y 1).val; omega
  | ⟨2, _⟩ => show win1_3.index t (2 : Fin 3) * 2048 + 1 * (y 2).val = (y 2).val; omega

/-- What point t writes back to the first result array is slab t of one step on the arrays. -/
theorem flushed1_first (c : Dev nD) (t : Fin cfg1.N) :
    (dat1 V c).flushed 2 t = ((cfg1.win 2).blk t).view.read (Elt Ideal)
      (Cert.Spec.hop (V c (Pipeline.arrRef spec1 0)) (V c (Pipeline.arrRef spec1 1))) := by
  show (cfg1.win 2).cut (grid1.coords t) ((dat1 V c).after 2 t) = _
  rw [after1_2]
  unfold outsAt1
  dsimp only
  rw [out1_first]
  funext y
  rw [View.read_apply, firstPlace1]
  exact stepBlock1 V c t y

/-- What point t writes back to the second result array is slab t of two steps on the arrays. -/
theorem flushed1_second (c : Dev nD) (t : Fin cfg1.N) :
    (dat1 V c).flushed 3 t = ((cfg1.win 3).blk t).view.read (Elt Ideal)
      (Cert.Spec.hop (V c (Pipeline.arrRef spec1 0))
        (Cert.Spec.hop (V c (Pipeline.arrRef spec1 0)) (V c (Pipeline.arrRef spec1 1)))) := by
  show (cfg1.win 3).cut (grid1.coords t) ((dat1 V c).after 3 t) = _
  rw [after1_3]
  unfold outsAt1
  dsimp only
  rw [out1_second]
  funext y
  rw [View.read_apply, secondPlace1]
  exact stepBlockTwice1 V c t y

/-- An index of the first result array lies in point t's block iff its sample is t. -/
theorem mem_first1 (t : Fin cfg1.N) (i : S8x32x2048.Idx) :
    i ∈ ((cfg1.win 2).blk t).view.set ↔ ∀ a : Fin 3, win1_2.index t a * S1x32x2048.size a ≤ (i a).val
      ∧ (i a).val < win1_2.index t a * S1x32x2048.size a + S1x32x2048.size a := by
  show i ∈ ((View.whole main_v2_0).slice (win1_2.rect t)).set ↔ _
  rw [View.set_slice_whole, Rect.mem_set_unit]
  exact Iff.rfl

/-- An index of the second result array lies in point t's block iff its sample is t. -/
theorem mem_second1 (t : Fin cfg1.N) (i : S8x32x2048.Idx) :
    i ∈ ((cfg1.win 3).blk t).view.set ↔ ∀ a : Fin 3, win1_3.index t a * S1x32x2048.size a ≤ (i a).val
      ∧ (i a).val < win1_3.index t a * S1x32x2048.size a + S1x32x2048.size a := by
  show i ∈ ((View.whole main_v2_1).slice (win1_3.rect t)).set ↔ _
  rw [View.set_slice_whole, Rect.mem_set_unit]
  exact Iff.rfl

/-- The first result array ends holding one diffusion step of the features along the adjacency. -/
theorem arr1_first (c : Dev nD) :
    (dat1 V c).arrAt 2 cfg1.N
      = Cert.Spec.hop (V c (Pipeline.arrRef spec1 0)) (V c (Pipeline.arrRef spec1 1)) :=
  (dat1 V c).arrAt_eq_of_cover 2 _ (fun t _ => flushed1_first V c t) fun i => by
    have hN : cfg1.N = 8 := N_1
    have h0 : (i 0).val < 8 := (i 0).isLt
    have h1 : (i 1).val < 32 := (i 1).isLt
    have h2 : (i 2).val < 2048 := (i 2).isLt
    refine ⟨⟨(i 0).val, by omega⟩, flush1_2 _, ?_⟩
    rw [mem_first1]
    obtain ⟨-, -, ⟨e0, e1, e2⟩, -⟩ := slabIndex1 ⟨(i 0).val, by omega⟩
    dsimp only at e0
    intro a
    match a with
    | ⟨0, _⟩ => show win1_2.index _ (0 : Fin 3) * 1 ≤ (i 0).val ∧ (i 0).val < win1_2.index _ (0 : Fin 3) * 1 + 1; omega
    | ⟨1, _⟩ => show win1_2.index _ (1 : Fin 3) * 32 ≤ (i 1).val ∧ (i 1).val < win1_2.index _ (1 : Fin 3) * 32 + 32; omega
    | ⟨2, _⟩ => show win1_2.index _ (2 : Fin 3) * 2048 ≤ (i 2).val ∧ (i 2).val < win1_2.index _ (2 : Fin 3) * 2048 + 2048; omega

/-- The second result array ends holding two diffusion steps of the features along the adjacency. -/
theorem arr1_second (c : Dev nD) :
    (dat1 V c).arrAt 3 cfg1.N
      = Cert.Spec.hop (V c (Pipeline.arrRef spec1 0))
          (Cert.Spec.hop (V c (Pipeline.arrRef spec1 0)) (V c (Pipeline.arrRef spec1 1))) :=
  (dat1 V c).arrAt_eq_of_cover 3 _ (fun t _ => flushed1_second V c t) fun i => by
    have hN : cfg1.N = 8 := N_1
    have h0 : (i 0).val < 8 := (i 0).isLt
    have h1 : (i 1).val < 32 := (i 1).isLt
    have h2 : (i 2).val < 2048 := (i 2).isLt
    refine ⟨⟨(i 0).val, by omega⟩, flush1_3 _, ?_⟩
    rw [mem_second1]
    obtain ⟨-, -, -, ⟨e0, e1, e2⟩⟩ := slabIndex1 ⟨(i 0).val, by omega⟩
    dsimp only at e0
    intro a
    match a with
    | ⟨0, _⟩ => show win1_3.index _ (0 : Fin 3) * 1 ≤ (i 0).val ∧ (i 0).val < win1_3.index _ (0 : Fin 3) * 1 + 1; omega
    | ⟨1, _⟩ => show win1_3.index _ (1 : Fin 3) * 32 ≤ (i 1).val ∧ (i 1).val < win1_3.index _ (1 : Fin 3) * 32 + 32; omega
    | ⟨2, _⟩ => show win1_3.index _ (2 : Fin 3) * 2048 ≤ (i 2).val ∧ (i 2).val < win1_3.index _ (2 : Fin 3) * 2048 + 2048; omega

end Cert.KernelIdeal.Hop

end
-- ==== Proof.HopBody2.lean ====
/-
  What the two-hop body of region 2 leaves in its two result blocks.

  The body forms the features' left operand once, writes the eight column tiles of one diffusion step into the first
  result block, reads that block back whole, and writes the eight column tiles of a second step, of the block read
  back against the same adjacency, into the second result block. So the first block ends holding one step of the
  features block and the second block two steps.
-/
import proofs.«100048_j70317204570386_2_alg».proof.Proof.Gen.KernelIdeal.Frame
import proofs.«100048_j70317204570386_2_alg».proof.Proof.HopList
import Idealize.ShloMosaic.Lib.Pipeline.Value
import Idealize.ShloMosaic.Lib.Tactic

noncomputable section

namespace Cert.KernelIdeal.Hop

open Idealize.ShloMosaic Idealize.ShloMosaic.TcCoe Idealize.ShloMosaic.Tactic Idealize.SL.Sem
open Cert.KernelIdeal Cert.KernelIdeal.Gen

section
variable {F : FTy → Type} [FloatOps F]

/-- The writes into the first result block are the eight tiles of the features block. -/
theorem run2_first (c : Dev nD) (i : grid2.Coords) (arg1 : Memref sig .tc .vmem S1x2048x2048 .f32) (harg1 : arg1.IsWhole)
    (arg2 : Memref sig .tc .vmem S1x32x2048 .f32) (harg2 : arg2.IsWhole) (arg3 : Memref sig .tc .vmem S1x32x2048 .f32)
    (harg3 : arg3.IsWhole) (arg4 : Memref sig .tc .vmem S1x32x2048 .f32) (harg4 : arg4.IsWhole)
    (x0 : Vec F S1x2048x2048 .f32) (x1 : Vec F S1x32x2048 .f32) :
    (kernelRun2_A c i arg1 harg1 arg2 harg2 arg3 harg3 arg4 harg4 x0 x1).1 = tiles (lhsOf x1) x0 := by
  unfold kernelRun2_A
  dsimp only
  sl_unfold_words
  simp only [View.readAt_eq_ld, harg1.read_unread, harg2.read_unread, View.ld_unit_zero (S := S1x32x2048) zeros3]
  rfl

/-- The writes into the second result block are the eight tiles of the first block read back whole. -/
theorem run2_second (c : Dev nD) (i : grid2.Coords) (arg1 : Memref sig .tc .vmem S1x2048x2048 .f32) (harg1 : arg1.IsWhole)
    (arg2 : Memref sig .tc .vmem S1x32x2048 .f32) (harg2 : arg2.IsWhole) (arg3 : Memref sig .tc .vmem S1x32x2048 .f32)
    (harg3 : arg3.IsWhole) (arg4 : Memref sig .tc .vmem S1x32x2048 .f32) (harg4 : arg4.IsWhole)
    (x0 : Vec F S1x2048x2048 .f32) (x1 : Vec F S1x32x2048 .f32) :
    (kernelRun2_A c i arg1 harg1 arg2 harg2 arg3 harg3 arg4 harg4 x0 x1).2.1
      = tiles (lhsOf (arg3.view.readCov (tiles (lhsOf x1) x0)
          (Rect.unit (s := S1x32x2048) ![0, 0, 0] S1x32x2048.size Facts₀.inb_S1x32x2048_S1x32x2048_0_0_0).toLoadRect)) x0 := by
  unfold kernelRun2_A
  dsimp only
  sl_unfold_words
  simp only [View.readAt_eq_ld, harg1.read_unread, harg2.read_unread, View.ld_unit_zero (S := S1x32x2048) zeros3]
  rfl

end

/-- The first result block ends holding one diffusion step of the features block. -/
theorem out2_first (c : Dev nD) (i : grid2.Coords) (arg1 : Memref sig .tc .vmem S1x2048x2048 .f32) (harg1 : arg1.IsWhole)
    (arg2 : Memref sig .tc .vmem S1x32x2048 .f32) (harg2 : arg2.IsWhole) (arg3 : Memref sig .tc .vmem S1x32x2048 .f32)
    (harg3 : arg3.IsWhole) (arg4 : Memref sig .tc .vmem S1x32x2048 .f32) (harg4 : arg4.IsWhole)
    (x0 : Vec Ideal S1x2048x2048 .f32) (x1 : Vec Ideal S1x32x2048 .f32) :
    out2_A_2 c i arg1 harg1 arg2 harg2 arg3 harg3 arg4 harg4 x0 x1 = hopBlock x0 x1 := by
  unfold out2_A_2
  rw [View.read_writes_eq_canon _ _ _ (cover2_A_2 c i arg1 harg1 arg2 harg2 arg3 harg3 arg4 harg4 x0 x1),
    run2_first]
  exact canon_tiles_eq x0 x1

/-- The second result block ends holding two diffusion steps of the features block. -/
theorem out2_second (c : Dev nD) (i : grid2.Coords) (arg1 : Memref sig .tc .vmem S1x2048x2048 .f32) (harg1 : arg1.IsWhole)
    (arg2 : Memref sig .tc .vmem S1x32x2048 .f32) (harg2 : arg2.IsWhole) (arg3 : Memref sig .tc .vmem S1x32x2048 .f32)
    (harg3 : arg3.IsWhole) (arg4 : Memref sig .tc .vmem S1x32x2048 .f32) (harg4 : arg4.IsWhole)
    (x0 : Vec Ideal S1x2048x2048 .f32) (x1 : Vec Ideal S1x32x2048 .f32) :
    out2_A_3 c i arg1 harg1 arg2 harg2 arg3 harg3 arg4 harg4 x0 x1 = hopBlock x0 (hopBlock x0 x1) := by
  unfold out2_A_3
  rw [View.read_writes_eq_canon _ _ _ (cover2_A_3 c i arg1 harg1 arg2 harg2 arg3 harg3 arg4 harg4 x0 x1),
    run2_second]
  exact canon_tiles_twice arg3.view x0 x1

end Cert.KernelIdeal.Hop

end
-- ==== Proof.HopArray2.lean ====
/-
  Region 2's two result arrays: one and two diffusion steps of the channel-major features along one adjacency.

  The region's grid has one point per sample, and at point t every window's block is slab t of its array: the
  adjacency block is sample t's adjacency, the features block sample t's features, and the two result blocks are
  written back to slab t of the two result arrays. The body leaves one step of the features block in the first
  result block and two steps in the second; a step on sample t's blocks is slab t of the step on the whole arrays;
  and the eight slabs fill each result array. So the first result array ends holding `hop A H` and the second
  `hop A (hop A H)`, for `A` and `H` the adjacency and features arrays as the region finds them.
-/
import proofs.«100048_j70317204570386_2_alg».proof.Proof.Gen.KernelIdeal.Frame
import proofs.«100048_j70317204570386_2_alg».proof.Proof.HopBody2
import proofs.«100048_j70317204570386_2_alg».proof.Proof.HopSlab
import proofs.«100048_j70317204570386_2_alg».proof.Proof.Spec
import Idealize.ShloMosaic.Lib.Pipeline.Value
import Idealize.ShloMosaic.Lib.Tactic

noncomputable section

namespace Cert.KernelIdeal.Hop

open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- At point t every window's block is slab t of its array. -/
theorem slabIndex2 : ∀ t : Fin cfg2.N,
    (win2_0.index t (0 : Fin 3) = t.val ∧ win2_0.index t (1 : Fin 3) = 0 ∧ win2_0.index t (2 : Fin 3) = 0)
    ∧ (win2_1.index t (0 : Fin 3) = t.val ∧ win2_1.index t (1 : Fin 3) = 0 ∧ win2_1.index t (2 : Fin 3) = 0)
    ∧ (win2_2.index t (0 : Fin 3) = t.val ∧ win2_2.index t (1 : Fin 3) = 0 ∧ win2_2.index t (2 : Fin 3) = 0)
    ∧ (win2_3.index t (0 : Fin 3) = t.val ∧ win2_3.index t (1 : Fin 3) = 0 ∧ win2_3.index t (2 : Fin 3) = 0) :=
  (by decide +kernel : ∀ t : Fin grid2.N, _)

/-- The sample a grid point works on. -/
def sample2 (t : Fin cfg2.N) : Fin 8 := ⟨t.val, by have hN : cfg2.N = 8 := N_2; have := t.isLt; omega⟩

/-- The adjacency block at point t is sample t's adjacency. -/
theorem adjBlock2 (c : Dev nD) (t : Fin cfg2.N) (v w : Fin 2048) :
    (iblk2 V c 0 t : Vec Ideal S1x2048x2048 .f32) (ix3 (n0 := 1) (n1 := 2048) (n2 := 2048) 0 v w)
      = (V c (Pipeline.arrRef spec2 0) : S8x2048x2048.Idx → EReal)
          (ix3 (n0 := 8) (n1 := 2048) (n2 := 2048) (sample2 t) v w) := by
  obtain ⟨⟨e0, e1, e2⟩, -⟩ := slabIndex2 t
  unfold iblk2
  rw [View.read_apply]
  show V c (Pipeline.arrRef spec2 0) _ = V c (Pipeline.arrRef spec2 0) _
  refine congrArg _ (funext fun a => Fin.ext ?_)
  match a with
  | ⟨0, _⟩ => show win2_0.index t (0 : Fin 3) * 1 + 1 * 0 = t.val; omega
  | ⟨1, _⟩ => show win2_0.index t (1 : Fin 3) * 2048 + 1 * v.val = v.val; omega
  | ⟨2, _⟩ => show win2_0.index t (2 : Fin 3) * 2048 + 1 * w.val = w.val; omega

/-- The features block at point t is sample t's features. -/
theorem featBlock2 (c : Dev nD) (t : Fin cfg2.N) (ch : Fin 32) (v : Fin 2048) :
    (iblk2 V c 1 t : Vec Ideal S1x32x2048 .f32) (ix3 (n0 := 1) (n1 := 32) (n2 := 2048) 0 ch v)
      = (V c (Pipeline.arrRef spec2 1) : S8x32x2048.Idx → EReal)
          (ix3 (n0 := 8) (n1 := 32) (n2 := 2048) (sample2 t) ch v) := by
  obtain ⟨-, ⟨e0, e1, e2⟩, -⟩ := slabIndex2 t
  unfold iblk2
  rw [View.read_apply]
  show V c (Pipeline.arrRef spec2 1) _ = V c (Pipeline.arrRef spec2 1) _
  refine congrArg _ (funext fun a => Fin.ext ?_)
  match a with
  | ⟨0, _⟩ => show win2_1.index t (0 : Fin 3) * 1 + 1 * 0 = t.val; omega
  | ⟨1, _⟩ => show win2_1.index t (1 : Fin 3) * 32 + 1 * ch.val = ch.val; omega
  | ⟨2, _⟩ => show win2_1.index t (2 : Fin 3) * 2048 + 1 * v.val = v.val; omega

/-- The step on point t's blocks is slab t of the step on the arrays. -/
theorem stepBlock2 (c : Dev nD) (t : Fin cfg2.N) (y : S1x32x2048.Idx) :
    hopBlock (iblk2 V c 0 t) (iblk2 V c 1 t) y
      = Cert.Spec.hop (V c (Pipeline.arrRef spec2 0)) (V c (Pipeline.arrRef spec2 1))
          (ix3 (n0 := 8) (n1 := 32) (n2 := 2048) (sample2 t) (y 1) (y 2)) :=
  hopBlock_slab _ _ _ _ (sample2 t) (adjBlock2 V c t) (featBlock2 V c t) y

/-- Two steps on point t's blocks are slab t of two steps on the arrays. -/
theorem stepBlockTwice2 (c : Dev nD) (t : Fin cfg2.N) (y : S1x32x2048.Idx) :
    hopBlock (iblk2 V c 0 t) (hopBlock (iblk2 V c 0 t) (iblk2 V c 1 t)) y
      = Cert.Spec.hop (V c (Pipeline.arrRef spec2 0))
          (Cert.Spec.hop (V c (Pipeline.arrRef spec2 0)) (V c (Pipeline.arrRef spec2 1)))
          (ix3 (n0 := 8) (n1 := 32) (n2 := 2048) (sample2 t) (y 1) (y 2)) :=
  hopBlock_slab _ _ _ _ (sample2 t) (adjBlock2 V c t)
    (fun ch v => stepBlock2 V c t (ix3 (n0 := 1) (n1 := 32) (n2 := 2048) 0 ch v)) y

/-- Where element y of the first result block of point t sits in its array. -/
theorem firstPlace2 (t : Fin cfg2.N) (y : S1x32x2048.Idx) :
    ((cfg2.win 2).blk t).view.emb y = ix3 (n0 := 8) (n1 := 32) (n2 := 2048) (sample2 t) (y 1) (y 2) := by
  obtain ⟨-, -, ⟨e0, e1, e2⟩, -⟩ := slabIndex2 t
  have hy : (y 0).val < 1 := (y 0).isLt
  refine funext fun a => Fin.ext ?_
  match a with
  | ⟨0, _⟩ => show win2_2.index t (0 : Fin 3) * 1 + 1 * (y 0).val = t.val; omega
  | ⟨1, _⟩ => show win2_2.index t (1 : Fin 3) * 32 + 1 * (y 1).val = (y 1).val; omega
  | ⟨2, _⟩ => show win2_2.index t (2 : Fin 3) * 2048 + 1 * (y 2).val = (y 2).val; omega

/-- Where element y of the second result block of point t sits in its array. -/
theorem secondPlace2 (t : Fin cfg2.N) (y : S1x32x2048.Idx) :
    ((cfg2.win 3).blk t).view.emb y = ix3 (n0 := 8) (n1 := 32) (n2 := 2048) (sample2 t) (y 1) (y 2) := by
  obtain ⟨-, -, -, ⟨e0, e1, e2⟩⟩ := slabIndex2 t
  have hy : (y 0).val < 1 := (y 0).isLt
  refine funext fun a => Fin.ext ?_
  match a with
  | ⟨0, _⟩ => show win2_3.index t (0 : Fin 3) * 1 + 1 * (y 0).val = t.val; omega
  | ⟨1, _⟩ => show win2_3.index t (1 : Fin 3) * 32 + 1 * (y 1).val = (y 1).val; omega
  | ⟨2, _⟩ => show win2_3.index t (2 : Fin 3) * 2048 + 1 * (y 2).val = (y 2).val; omega

/-- What point t writes back to the first result array is slab t of one step on the arrays. -/
theorem flushed2_first (c : Dev nD) (t : Fin cfg2.N) :
    (dat2 V c).flushed 2 t = ((cfg2.win 2).blk t).view.read (Elt Ideal)
      (Cert.Spec.hop (V c (Pipeline.arrRef spec2 0)) (V c (Pipeline.arrRef spec2 1))) := by
  show (cfg2.win 2).cut (grid2.coords t) ((dat2 V c).after 2 t) = _
  rw [after2_2]
  unfold outsAt2
  dsimp only
  rw [out2_first]
  funext y
  rw [View.read_apply, firstPlace2]
  exact stepBlock2 V c t y

/-- What point t writes back to the second result array is slab t of two steps on the arrays. -/
theorem flushed2_second (c : Dev nD) (t : Fin cfg2.N) :
    (dat2 V c).flushed 3 t = ((cfg2.win 3).blk t).view.read (Elt Ideal)
      (Cert.Spec.hop (V c (Pipeline.arrRef spec2 0))
        (Cert.Spec.hop (V c (Pipeline.arrRef spec2 0)) (V c (Pipeline.arrRef spec2 1)))) := by
  show (cfg2.win 3).cut (grid2.coords t) ((dat2 V c).after 3 t) = _
  rw [after2_3]
  unfold outsAt2
  dsimp only
  rw [out2_second]
  funext y
  rw [View.read_apply, secondPlace2]
  exact stepBlockTwice2 V c t y

/-- An index of the first result array lies in point t's block iff its sample is t. -/
theorem mem_first2 (t : Fin cfg2.N) (i : S8x32x2048.Idx) :
    i ∈ ((cfg2.win 2).blk t).view.set ↔ ∀ a : Fin 3, win2_2.index t a * S1x32x2048.size a ≤ (i a).val
      ∧ (i a).val < win2_2.index t a * S1x32x2048.size a + S1x32x2048.size a := by
  show i ∈ ((View.whole main_v3_0).slice (win2_2.rect t)).set ↔ _
  rw [View.set_slice_whole, Rect.mem_set_unit]
  exact Iff.rfl

/-- An index of the second result array lies in point t's block iff its sample is t. -/
theorem mem_second2 (t : Fin cfg2.N) (i : S8x32x2048.Idx) :
    i ∈ ((cfg2.win 3).blk t).view.set ↔ ∀ a : Fin 3, win2_3.index t a * S1x32x2048.size a ≤ (i a).val
      ∧ (i a).val < win2_3.index t a * S1x32x2048.size a + S1x32x2048.size a := by
  show i ∈ ((View.whole main_v3_1).slice (win2_3.rect t)).set ↔ _
  rw [View.set_slice_whole, Rect.mem_set_unit]
  exact Iff.rfl

/-- The first result array ends holding one diffusion step of the features along the adjacency. -/
theorem arr2_first (c : Dev nD) :
    (dat2 V c).arrAt 2 cfg2.N
      = Cert.Spec.hop (V c (Pipeline.arrRef spec2 0)) (V c (Pipeline.arrRef spec2 1)) :=
  (dat2 V c).arrAt_eq_of_cover 2 _ (fun t _ => flushed2_first V c t) fun i => by
    have hN : cfg2.N = 8 := N_2
    have h0 : (i 0).val < 8 := (i 0).isLt
    have h1 : (i 1).val < 32 := (i 1).isLt
    have h2 : (i 2).val < 2048 := (i 2).isLt
    refine ⟨⟨(i 0).val, by omega⟩, flush2_2 _, ?_⟩
    rw [mem_first2]
    obtain ⟨-, -, ⟨e0, e1, e2⟩, -⟩ := slabIndex2 ⟨(i 0).val, by omega⟩
    dsimp only at e0
    intro a
    match a with
    | ⟨0, _⟩ => show win2_2.index _ (0 : Fin 3) * 1 ≤ (i 0).val ∧ (i 0).val < win2_2.index _ (0 : Fin 3) * 1 + 1; omega
    | ⟨1, _⟩ => show win2_2.index _ (1 : Fin 3) * 32 ≤ (i 1).val ∧ (i 1).val < win2_2.index _ (1 : Fin 3) * 32 + 32; omega
    | ⟨2, _⟩ => show win2_2.index _ (2 : Fin 3) * 2048 ≤ (i 2).val ∧ (i 2).val < win2_2.index _ (2 : Fin 3) * 2048 + 2048; omega

/-- The second result array ends holding two diffusion steps of the features along the adjacency. -/
theorem arr2_second (c : Dev nD) :
    (dat2 V c).arrAt 3 cfg2.N
      = Cert.Spec.hop (V c (Pipeline.arrRef spec2 0))
          (Cert.Spec.hop (V c (Pipeline.arrRef spec2 0)) (V c (Pipeline.arrRef spec2 1))) :=
  (dat2 V c).arrAt_eq_of_cover 3 _ (fun t _ => flushed2_second V c t) fun i => by
    have hN : cfg2.N = 8 := N_2
    have h0 : (i 0).val < 8 := (i 0).isLt
    have h1 : (i 1).val < 32 := (i 1).isLt
    have h2 : (i 2).val < 2048 := (i 2).isLt
    refine ⟨⟨(i 0).val, by omega⟩, flush2_3 _, ?_⟩
    rw [mem_second2]
    obtain ⟨-, -, -, ⟨e0, e1, e2⟩⟩ := slabIndex2 ⟨(i 0).val, by omega⟩
    dsimp only at e0
    intro a
    match a with
    | ⟨0, _⟩ => show win2_3.index _ (0 : Fin 3) * 1 ≤ (i 0).val ∧ (i 0).val < win2_3.index _ (0 : Fin 3) * 1 + 1; omega
    | ⟨1, _⟩ => show win2_3.index _ (1 : Fin 3) * 32 ≤ (i 1).val ∧ (i 1).val < win2_3.index _ (1 : Fin 3) * 32 + 32; omega
    | ⟨2, _⟩ => show win2_3.index _ (2 : Fin 3) * 2048 ≤ (i 2).val ∧ (i 2).val < win2_3.index _ (2 : Fin 3) * 2048 + 2048; omega

end Cert.KernelIdeal.Hop

end
-- ==== Proof.LibRowReads.lean ====
/-
  Reductions along the LAST axis of a matrix, read at an index given by coordinates, over arbitrary extents and at the
  ideal values; and one layout read:
  • a `[1, 1, a]` array cast to `[a]`;
  • a `vector.multi_reduction` over axis 1 of an `[a, b]` matrix, at row `p`: for `add` the sum along the row, for
    `maximumf` the fold of `max` along the row from the accumulator's value.
  The column forms (axis 0) are in LibColumnReads; these are the row forms.
-/
import Idealize.ShloMosaic.Lib.ValueIdx
import Idealize.ShloMosaic.Lib.ValueLayout
import Idealize.ShloMosaic.Lib.Pipeline.Value
import Idealize.ShloMosaic.PureOps.Ideal.Laws

namespace Cert.LibRowReads

open Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- Row `p` of an `[a, b]` matrix with column `k` put back is `(p, k)`. -/
theorem lift_row {a b : ℕ} (h : (⟨2, ![a, b]⟩ : Shape).Reduces [1] (⟨1, ![a]⟩ : Shape)) (p : Fin a) (k : Fin b) :
    h.lift (ix1 p) k = ix2 p k := by
  funext c; apply Fin.ext
  fin_cases c <;> rfl

/-- A float sum along the rows' entries of an `[a, b]` matrix, at row `p`, is the sum of that row. -/
theorem rowSum_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction (F := Ideal) .add [1] ⟨1, ![a]⟩ v acc h hφ hacc (ix1 p) = ∑ k : Fin b, v (ix2 p k) := by
  rw [Ideal.multiReduction_add_single]
  exact Finset.sum_congr rfl fun k _ => congrArg v (lift_row h p k)

/-- A float maximum along a row of an `[a, b]` matrix, at row `p`, is the fold of `max` along that row from the
    accumulator's value. -/
theorem rowMax_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction (F := Ideal) .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (fun f => Finset.fold max (Ideal.ofBits φ acc) f (Finset.univ : Finset (Fin b)))
    (funext fun k => congrArg v (lift_row h p k))

end Cert.LibRowReads
-- ==== Proof.LibColBroadcast.lean ====
/-
  A column broadcast over the columns, read at an index: a `[a, 1]` array broadcast to `[a, b]` reads, at `(p, c)`, the
  operand's row `p` (the `keepdims` form of a per-row scalar). General over the extents.
-/
import Idealize.ShloMosaic.Lib.Pipeline.Value
import Idealize.ShloMosaic.Lib.ValueIdx

noncomputable section

namespace Cert.Lib.ColBroadcast

open Idealize.ShloMosaic Idealize.ShloMosaic.ValueIdx

/-- A `[a, 1]` array broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same through `broadcast_in_dim` with the identity axis map. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColBroadcast

end
-- ==== Proof.ConvPayload.lean ====
/-
  The three values the mixing region's body stores, read at an index.

  The body rounds the 64 × 224 mixing matrix (the identity on extended reals), starts from a zero accumulator, and for
  each of the seven slabs adds the product of 32 consecutive columns of the matrix with the slab, each product taken
  into a zero accumulator of its own; then it adds the bias column spread over the nodes. So the entry (o, v) of what
  it stores is  ((((((0 + t₀) + t₁) + t₂) + t₃) + t₄) + t₅) + t₆) + b o  with  tᵢ = Σ_{k<32} w (o, 32 i + k) · xᵢ (0, k, v).
  The other two stored values are, per output channel, the sum of that row over the nodes and the sum of its squares.
-/
import proofs.«100048_j70317204570386_2_alg».proof.Proof.Gen.KernelIdeal.Skeleton
import proofs.«100048_j70317204570386_2_alg».proof.Proof.LibPlainDot
import proofs.«100048_j70317204570386_2_alg».proof.Proof.LibRowReads
import proofs.«100048_j70317204570386_2_alg».proof.Proof.LibColBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Conv

open Cert.KernelIdeal Cert.KernelIdeal.Gen Idealize.ShloMosaic Idealize.ShloMosaic.ValueIdx

/-- Column `off + k` among the mixing matrix's 224 columns. -/
def col (off : ℕ) (hoff : off + 32 ≤ 224) (k : Fin 32) : Fin 224 := ⟨off + k.val, by have := k.isLt; omega⟩

/-- One slab's share of the entry (p, q): the 32 columns of the matrix from column `off`, row `p`, against the slab's
    column `q`. -/
def share (off : ℕ) (hoff : off + 32 ≤ 224) (w : S64x224.Idx → EReal) (x : S1x32x2048.Idx → EReal)
    (p : Fin 64) (q : Fin 2048) : EReal :=
  ∑ k : Fin 32, w (ix2 p (col off hoff k)) * x (ix3 (0 : Fin 1) k q)

/-- The product of 32 columns of the (rounded) matrix with a (rounded) slab, into a zero accumulator, at (p, q). -/
theorem slab_product_apply (off : ℕ) (hoff : off + 32 ≤ 224) (hs : S64x224.Slices ![0, off] S64x32)
    (w : FVec Ideal S64x224 .bf16) (x : Vec Ideal S1x32x2048 .f32) (p : Fin 64) (q : Fin 2048) :
    matmul dot_S64x32_S32x2048_S64x2048_1_0_0_1_n_n none (extractStridedSlice S64x32 ![0, off] w hs)
        (truncf .bf16 (shapeCast S32x2048 x shapeCasts_S1x32x2048_S32x2048) bitsLt_bf16_f32)
        (constant (F := Ideal) S64x2048 .f32 0x00000000#32) (ix2 p q)
      = share off hoff w x p q := by
  refine (Cert.Lib.PlainDot.matmul_zero_apply 64 32 2048 none _ _ (ix2 p q)).trans ?_
  unfold share
  refine Finset.sum_congr rfl fun k _ => ?_
  show extractStridedSlice S64x32 ![0, off] w hs (ix2 p k)
      * shapeCast S32x2048 x shapeCasts_S1x32x2048_S32x2048 (ix2 k q) = _
  rw [slice2_axis1_apply off w hs p k (col off hoff k) rfl, shapeCast_1ab_ab_apply]

/-- Rounding to a narrower format changes nothing on extended reals. -/
theorem truncf_eq {s : Shape} {φ ψ : FTy} (a : FVec Ideal s φ) (h : ψ.bits < φ.bits) :
    (truncf ψ a h : FVec Ideal s ψ) = a := rfl

/-- The accumulator after the first five slabs, at (p, q). -/
theorem pay6_apply (v0 : Vec Ideal S64x224 .f32) (v3 v9 v15 v21 v27 : Vec Ideal S1x32x2048 .f32)
    (p : Fin 64) (q : Fin 2048) :
    k3_pay6 (F := Ideal) v0 v3 v9 v15 v21 v27 (ix2 p q)
      = ((((0 + share 0 (by omega) v0 v3 p q) + share 32 (by omega) v0 v9 p q) + share 64 (by omega) v0 v15 p q)
          + share 96 (by omega) v0 v21 p q) + share 128 (by omega) v0 v27 p q := by
  unfold k3_pay6 k3_pay5
  simp only [addf_apply, broadcast_apply]
  rw [slab_product_apply 0 (by omega), slab_product_apply 32 (by omega), slab_product_apply 64 (by omega),
    slab_product_apply 96 (by omega), slab_product_apply 128 (by omega), truncf_eq]
  show Ideal.ofBits .f32 0x00000000#32 + _ + _ + _ + _ + _ = _
  rw [Ideal.ofBits_zero_f32]

/-- The mixed entry (p, q) from the accumulator after five slabs, the last two slabs and the bias column. -/
theorem pay1_apply (v1 : FVec Ideal S64x224 .bf16) (v32 : FVec Ideal S64x2048 .f32) (v33 v39 : Vec Ideal S1x32x2048 .f32)
    (v45 : Vec Ideal S64x1 .f32) (p : Fin 64) (q : Fin 2048) :
    k3_pay1 (F := Ideal) v1 v32 v33 v39 v45 (ix2 p q)
      = ((v32 (ix2 p q) + share 160 (by omega) v1 v33 p q) + share 192 (by omega) v1 v39 p q)
          + v45 (ix2 p (0 : Fin 1)) := by
  unfold k3_pay1
  simp only [addf_apply]
  rw [slab_product_apply 160 (by omega), slab_product_apply 192 (by omega),
    Cert.Lib.ColBroadcast.broadcastTo_a1_ab_apply, shapeCast_self]

/-- The mixed entry (p, q) of one sample: the seven shares added in slab order onto zero, then the bias. -/
def mixedAt (x0 x1 x2 x3 x4 x5 x6 : S1x32x2048.Idx → EReal) (w : S64x224.Idx → EReal) (b : S64x1.Idx → EReal)
    (p : Fin 64) (q : Fin 2048) : EReal :=
  (((((((0 + share 0 (by omega) w x0 p q) + share 32 (by omega) w x1 p q) + share 64 (by omega) w x2 p q)
    + share 96 (by omega) w x3 p q) + share 128 (by omega) w x4 p q) + share 160 (by omega) w x5 p q)
    + share 192 (by omega) w x6 p q) + b (ix2 p (0 : Fin 1))

/-- The body's mixed value, from its nine loaded blocks, at (p, q). -/
theorem mixed_apply (x0 x1 x2 x3 x4 x5 x6 : Vec Ideal S1x32x2048 .f32) (x7 : Vec Ideal S64x224 .f32)
    (x8 : Vec Ideal S64x1 .f32) (p : Fin 64) (q : Fin 2048) :
    k3_pay1 (F := Ideal) (k3_pay5 x7) (k3_pay6 x7 x0 x1 x2 x3 x4) x5 x6 x8 (ix2 p q)
      = mixedAt x0 x1 x2 x3 x4 x5 x6 x7 x8 p q := by
  rw [pay1_apply, pay6_apply]
  unfold k3_pay5
  rw [truncf_eq]
  rfl

/-- A vector of `a` entries laid out as a column `[a, 1]` reads, at `(p, r)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (r : Fin 1) :
    shapeCast ⟨2, ![a, 1]⟩ x h (ix2 p r) = x (ix1 p) :=
  shapeCast_apply x h _ _ (by
    have hr : r.val = 0 := by omega
    rw [Shape.rowMajor_val_one, Shape.rowMajor_val_two]
    show p.val = p.val * 1 + r.val
    rw [hr, Nat.mul_one, Nat.add_zero])

/-- The stored mixed block, at (u, p, q), is the mixed value at (p, q). -/
theorem pay2_apply (v1 : FVec Ideal S64x224 .bf16) (v32 : FVec Ideal S64x2048 .f32) (v33 v39 : Vec Ideal S1x32x2048 .f32)
    (v45 : Vec Ideal S64x1 .f32) (u : Fin 1) (p : Fin 64) (q : Fin 2048) :
    k3_pay2 (F := Ideal) v1 v32 v33 v39 v45 (ix3 u p q) = k3_pay1 (F := Ideal) v1 v32 v33 v39 v45 (ix2 p q) := by
  unfold k3_pay2
  exact shapeCast_ab_1ab_apply _ _ u p q

/-- The stored row sums, at (u, p, r): the sum of row `p` of the mixed value over the 2048 nodes. -/
theorem pay3_apply (v1 : FVec Ideal S64x224 .bf16) (v32 : FVec Ideal S64x2048 .f32) (v33 v39 : Vec Ideal S1x32x2048 .f32)
    (v45 : Vec Ideal S64x1 .f32) (u : Fin 1) (p : Fin 64) (r : Fin 1) :
    k3_pay3 (F := Ideal) v1 v32 v33 v39 v45 (ix3 u p r)
      = ∑ v : Fin 2048, k3_pay1 (F := Ideal) v1 v32 v33 v39 v45 (ix2 p v) := by
  unfold k3_pay3
  refine (shapeCast_ab_1ab_apply _ _ u p r).trans ?_
  refine (shapeCast_a_a1_apply _ _ p r).trans ?_
  exact Cert.LibRowReads.rowSum_apply _ _ _ _ _ p

/-- The stored row sums of squares, at (u, p, r). -/
theorem pay4_apply (v1 : FVec Ideal S64x224 .bf16) (v32 : FVec Ideal S64x2048 .f32) (v33 v39 : Vec Ideal S1x32x2048 .f32)
    (v45 : Vec Ideal S64x1 .f32) (u : Fin 1) (p : Fin 64) (r : Fin 1) :
    k3_pay4 (F := Ideal) v1 v32 v33 v39 v45 (ix3 u p r)
      = ∑ v : Fin 2048, k3_pay1 (F := Ideal) v1 v32 v33 v39 v45 (ix2 p v)
          * k3_pay1 (F := Ideal) v1 v32 v33 v39 v45 (ix2 p v) := by
  unfold k3_pay4
  refine (shapeCast_ab_1ab_apply _ _ u p r).trans ?_
  refine (shapeCast_a_a1_apply _ _ p r).trans ?_
  exact Cert.LibRowReads.rowSum_apply _ _ _ _ _ p

end Cert.KernelIdeal.Conv

end
-- ==== Proof.ConvBlocks.lean ====
/-
  What the mixing region's body leaves in its three output buffers, as functions of the nine input blocks.

  The body loads every input buffer whole and stores each output buffer whole, once. So the mixed block's entry
  (u, p, q) is the mixed value at (p, q); the two statistics blocks' entries (u, p, r) are the sum over the 2048 nodes
  of row p of the mixed value, and the sum of its squares.
-/
import proofs.«100048_j70317204570386_2_alg».proof.Proof.Gen.KernelIdeal.Frame
import proofs.«100048_j70317204570386_2_alg».proof.Proof.ConvPayload

noncomputable section

namespace Cert.KernelIdeal.Conv

open Cert.KernelIdeal Cert.KernelIdeal.Gen Idealize.ShloMosaic Idealize.ShloMosaic.ValueIdx

/-- Zero offsets on three axes, spelt as the constant function. -/
theorem zeros3 : (![0, 0, 0] : Fin 3 → Nat) = fun _ => 0 := funext fun a => by fin_cases a <;> rfl
/-- Zero offsets on two axes, spelt as the constant function. -/
theorem zeros2 : (![0, 0] : Fin 2 → Nat) = fun _ => 0 := funext fun a => by fin_cases a <;> rfl

/-- The mixed block after the body, at (u, p, q). -/
theorem out9_apply (x0 x1 x2 x3 x4 x5 x6 : Vec Ideal S1x32x2048 .f32) (x7 : Vec Ideal S64x224 .f32)
    (x8 : Vec Ideal S64x1 .f32) (u : Fin 1) (p : Fin 64) (q : Fin 2048) :
    out3_9 (F := Ideal) x0 x1 x2 x3 x4 x5 x6 x7 x8 (ix3 u p q) = mixedAt x0 x1 x2 x3 x4 x5 x6 x7 x8 p q := by
  unfold out3_9
  rw [View.canon_unit_zero zeros3]
  simp only [View.ld_unit_zero (S := S1x32x2048) zeros3, View.ld_unit_zero (S := S64x224) zeros2,
    View.ld_unit_zero (S := S64x1) zeros2]
  rw [pay2_apply, mixed_apply]

/-- The row-sums block after the body, at (u, p, r). -/
theorem out10_apply (x0 x1 x2 x3 x4 x5 x6 : Vec Ideal S1x32x2048 .f32) (x7 : Vec Ideal S64x224 .f32)
    (x8 : Vec Ideal S64x1 .f32) (u : Fin 1) (p : Fin 64) (r : Fin 1) :
    out3_10 (F := Ideal) x0 x1 x2 x3 x4 x5 x6 x7 x8 (ix3 u p r)
      = ∑ v : Fin 2048, mixedAt x0 x1 x2 x3 x4 x5 x6 x7 x8 p v := by
  unfold out3_10
  rw [View.canon_unit_zero zeros3]
  simp only [View.ld_unit_zero (S := S1x32x2048) zeros3, View.ld_unit_zero (S := S64x224) zeros2,
    View.ld_unit_zero (S := S64x1) zeros2]
  rw [pay3_apply]
  exact Finset.sum_congr rfl fun v _ => mixed_apply x0 x1 x2 x3 x4 x5 x6 x7 x8 p v

/-- The row-sums-of-squares block after the body, at (u, p, r). -/
theorem out11_apply (x0 x1 x2 x3 x4 x5 x6 : Vec Ideal S1x32x2048 .f32) (x7 : Vec Ideal S64x224 .f32)
    (x8 : Vec Ideal S64x1 .f32) (u : Fin 1) (p : Fin 64) (r : Fin 1) :
    out3_11 (F := Ideal) x0 x1 x2 x3 x4 x5 x6 x7 x8 (ix3 u p r)
      = ∑ v : Fin 2048, mixedAt x0 x1 x2 x3 x4 x5 x6 x7 x8 p v * mixedAt x0 x1 x2 x3 x4 x5 x6 x7 x8 p v := by
  unfold out3_11
  rw [View.canon_unit_zero zeros3]
  simp only [View.ld_unit_zero (S := S1x32x2048) zeros3, View.ld_unit_zero (S := S64x224) zeros2,
    View.ld_unit_zero (S := S64x1) zeros2]
  rw [pay4_apply]
  exact Finset.sum_congr rfl fun v _ => by rw [mixed_apply]

/-- The mixed block at any of its indices. -/
theorem out9_at (x0 x1 x2 x3 x4 x5 x6 : Vec Ideal S1x32x2048 .f32) (x7 : Vec Ideal S64x224 .f32)
    (x8 : Vec Ideal S64x1 .f32) (j : S1x64x2048.Idx) :
    out3_9 (F := Ideal) x0 x1 x2 x3 x4 x5 x6 x7 x8 j = mixedAt x0 x1 x2 x3 x4 x5 x6 x7 x8 (j 1) (j 2) := by
  obtain ⟨u, p, q, rfl⟩ : ∃ (u : Fin 1) (p : Fin 64) (q : Fin 2048), j = ix3 u p q := ⟨j 0, j 1, j 2, eq_ix3 j⟩
  exact out9_apply x0 x1 x2 x3 x4 x5 x6 x7 x8 u p q

/-- The row-sums block at any of its indices. -/
theorem out10_at (x0 x1 x2 x3 x4 x5 x6 : Vec Ideal S1x32x2048 .f32) (x7 : Vec Ideal S64x224 .f32)
    (x8 : Vec Ideal S64x1 .f32) (j : S1x64x1.Idx) :
    out3_10 (F := Ideal) x0 x1 x2 x3 x4 x5 x6 x7 x8 j
      = ∑ v : Fin 2048, mixedAt x0 x1 x2 x3 x4 x5 x6 x7 x8 (j 1) v := by
  obtain ⟨u, p, r, rfl⟩ : ∃ (u : Fin 1) (p : Fin 64) (r : Fin 1), j = ix3 u p r := ⟨j 0, j 1, j 2, eq_ix3 j⟩
  exact out10_apply x0 x1 x2 x3 x4 x5 x6 x7 x8 u p r

/-- The row-sums-of-squares block at any of its indices. -/
theorem out11_at (x0 x1 x2 x3 x4 x5 x6 : Vec Ideal S1x32x2048 .f32) (x7 : Vec Ideal S64x224 .f32)
    (x8 : Vec Ideal S64x1 .f32) (j : S1x64x1.Idx) :
    out3_11 (F := Ideal) x0 x1 x2 x3 x4 x5 x6 x7 x8 j
      = ∑ v : Fin 2048, mixedAt x0 x1 x2 x3 x4 x5 x6 x7 x8 (j 1) v * mixedAt x0 x1 x2 x3 x4 x5 x6 x7 x8 (j 1) v := by
  obtain ⟨u, p, r, rfl⟩ : ∃ (u : Fin 1) (p : Fin 64) (r : Fin 1), j = ix3 u p r := ⟨j 0, j 1, j 2, eq_ix3 j⟩
  exact out11_apply x0 x1 x2 x3 x4 x5 x6 x7 x8 u p r

end Cert.KernelIdeal.Conv

end
-- ==== Proof.ConvBridge.lean ====
/-
  The body's mixed value is the specification's mix.

  The body adds the seven slabs' shares one after another onto zero and then the bias; the specification sums over the
  seven slabs and the 32 channels of each and then adds the bias. Column `off + k` with `off = 32 i` is the
  specification's column of slab `i`, channel `k`; the left-nested sum of seven terms onto zero is the sum over the
  seven slabs (addition of extended reals is associative and has zero as unit; nothing here needs finiteness).
-/
import proofs.«100048_j70317204570386_2_alg».proof.Proof.Spec
import proofs.«100048_j70317204570386_2_alg».proof.Proof.ConvPayload

noncomputable section

namespace Cert.KernelIdeal.Conv

open Cert.KernelIdeal Idealize.ShloMosaic Idealize.ShloMosaic.ValueIdx
open Cert.Spec (SFeat SMat SCol SMixed SStat slabCol)

/-- One slab's share, with the slab's block read as sample `n` of the slab: the specification's inner sum. -/
theorem share_eq (i : Fin 7) (off : ℕ) (hoff : off + 32 ≤ 224) (ho : off = 32 * i.val)
    (W : SMat.Idx → EReal) (x : S1x32x2048.Idx → EReal) (h : SFeat.Idx → EReal) (n : Fin 8) (p : Fin 64) (q : Fin 2048)
    (hx : ∀ k : Fin 32, x (ix3 (0 : Fin 1) k q) = h (ix3 n k q)) :
    share off hoff W x p q = ∑ k : Fin 32, W (ix2 p (slabCol i k)) * h (ix3 n k q) := by
  unfold share
  refine Finset.sum_congr rfl fun k _ => ?_
  rw [hx k]
  refine congrArg (fun j => W (ix2 p j) * h (ix3 n k q)) (Fin.ext ?_)
  show off + k.val = 32 * i.val + k.val
  rw [ho]

/-- The body's mixed value at (p, q), its blocks read as sample `n` of the seven slabs and as the whole matrix and
    bias column, is the specification's mix at (n, p, q). -/
theorem mixedAt_eq_mix (H : Fin 7 → SFeat.Idx → EReal) (W : SMat.Idx → EReal) (b : SCol.Idx → EReal)
    (x0 x1 x2 x3 x4 x5 x6 : S1x32x2048.Idx → EReal) (x7 : S64x224.Idx → EReal) (x8 : S64x1.Idx → EReal) (n : Fin 8)
    (h0 : ∀ (k : Fin 32) (q : Fin 2048), x0 (ix3 (0 : Fin 1) k q) = H 0 (ix3 n k q))
    (h1 : ∀ (k : Fin 32) (q : Fin 2048), x1 (ix3 (0 : Fin 1) k q) = H 1 (ix3 n k q))
    (h2 : ∀ (k : Fin 32) (q : Fin 2048), x2 (ix3 (0 : Fin 1) k q) = H 2 (ix3 n k q))
    (h3 : ∀ (k : Fin 32) (q : Fin 2048), x3 (ix3 (0 : Fin 1) k q) = H 3 (ix3 n k q))
    (h4 : ∀ (k : Fin 32) (q : Fin 2048), x4 (ix3 (0 : Fin 1) k q) = H 4 (ix3 n k q))
    (h5 : ∀ (k : Fin 32) (q : Fin 2048), x5 (ix3 (0 : Fin 1) k q) = H 5 (ix3 n k q))
    (h6 : ∀ (k : Fin 32) (q : Fin 2048), x6 (ix3 (0 : Fin 1) k q) = H 6 (ix3 n k q))
    (h7 : x7 = W) (h8 : x8 = b) (p : Fin 64) (q : Fin 2048) :
    mixedAt x0 x1 x2 x3 x4 x5 x6 x7 x8 p q = Cert.Spec.mix H W b (ix3 n p q) := by
  subst h7 h8
  unfold mixedAt Cert.Spec.mix
  show _ = (∑ i : Fin 7, ∑ k : Fin 32, x7 (ix2 p (slabCol i k)) * H i (ix3 n k q)) + x8 (ix2 p (0 : Fin 1))
  rw [Fin.sum_univ_seven,
    share_eq 0 0 _ rfl x7 x0 (H 0) n p q (fun k => h0 k q),
    share_eq 1 32 _ rfl x7 x1 (H 1) n p q (fun k => h1 k q),
    share_eq 2 64 _ rfl x7 x2 (H 2) n p q (fun k => h2 k q),
    share_eq 3 96 _ rfl x7 x3 (H 3) n p q (fun k => h3 k q),
    share_eq 4 128 _ rfl x7 x4 (H 4) n p q (fun k => h4 k q),
    share_eq 5 160 _ rfl x7 x5 (H 5) n p q (fun k => h5 k q),
    share_eq 6 192 _ rfl x7 x6 (H 6) n p q (fun k => h6 k q), zero_add]

end Cert.KernelIdeal.Conv

end
-- ==== Proof.ConvReads.lean ====
/-
  The mixing region's input blocks, read off the arrays as the region finds them.

  The grid has eight points, one per sample. At point t each of the seven slab windows holds sample t of its slab,
  a block [1, 32, 2048] at block index (t, 0, 0); the matrix window and the bias window hold their whole arrays at
  every point. The block index maps are decided once over the eight points.
-/
import proofs.«100048_j70317204570386_2_alg».proof.Proof.Gen.KernelIdeal.Frame
import proofs.«100048_j70317204570386_2_alg».proof.Proof.Spec
import Idealize.ShloMosaic.Lib.ValueIdx

noncomputable section

namespace Cert.KernelIdeal.Conv

open Cert.KernelIdeal Cert.KernelIdeal.Gen Idealize.ShloMosaic Idealize.ShloMosaic.TcCoe Idealize.ShloMosaic.ValueIdx Idealize.SL.Sem
open Cert.Spec (SFeat SMat SCol SMixed SStat)

variable (V : (c : Dev nD) → (b : Ref sig .tc) → Buf (Elt Ideal) ((c : Thread nD τ).loc b)) (c : Dev nD)

/-- The grid has eight points. -/
theorem points : cfg3.N = 8 := N_3

/-- The sample a grid point works on. -/
def sample (t : Fin cfg3.N) : Fin 8 := ⟨t.val, Nat.lt_of_lt_of_eq t.isLt points⟩

/-- The seven slabs as the region finds them, in window order: the input, then one and two steps along each of
    the three adjacencies. -/
def slabs : Fin 7 → SFeat.Idx → EReal := fun i => match i with
  | 0 => V c main_v0 | 1 => V c main_v1_0 | 2 => V c main_v1_1 | 3 => V c main_v2_0
  | 4 => V c main_v2_1 | 5 => V c main_v3_0 | 6 => V c main_v3_1
  | ⟨_ + 7, h⟩ => absurd h (Nat.not_lt.2 (Nat.le_add_left _ _))

/-- Slab window 0's block index at point t is (t, 0, 0). -/
theorem index_slab0 : ∀ t : Fin cfg3.N, win3_0.index t (0 : Fin 3) = t.val ∧ win3_0.index t (1 : Fin 3) = 0
    ∧ win3_0.index t (2 : Fin 3) = 0 :=
  (by decide +kernel : ∀ t : Fin grid3.N, _)

/-- Slab window 0's block at point t is sample t of slab 0. -/
theorem read_slab0 (t : Fin cfg3.N) (k : Fin 32) (q : Fin 2048) :
    (iblk3 (F := Ideal) V c 0 t : S1x32x2048.Idx → EReal) (ix3 (0 : Fin 1) k q)
      = slabs V c 0 (ix3 (sample t) k q) := by
  unfold iblk3
  show (V c main_v0 : S8x32x2048.Idx → EReal) _ = (V c main_v0 : S8x32x2048.Idx → EReal) _
  refine congrArg _ (funext fun a => Fin.ext ?_)
  obtain ⟨e0, e1, e2⟩ := index_slab0 t
  match a with
  | ⟨0, _⟩ => show win3_0.index t (0 : Fin 3) * 1 + 1 * 0 = t.val; omega
  | ⟨1, _⟩ => show win3_0.index t (1 : Fin 3) * 32 + 1 * k.val = k.val; omega
  | ⟨2, _⟩ => show win3_0.index t (2 : Fin 3) * 2048 + 1 * q.val = q.val; omega

/-- Slab window 1's block index at point t is (t, 0, 0). -/
theorem index_slab1 : ∀ t : Fin cfg3.N, win3_1.index t (0 : Fin 3) = t.val ∧ win3_1.index t (1 : Fin 3) = 0
    ∧ win3_1.index t (2 : Fin 3) = 0 :=
  (by decide +kernel : ∀ t : Fin grid3.N, _)

/-- Slab window 1's block at point t is sample t of slab 1. -/
theorem read_slab1 (t : Fin cfg3.N) (k : Fin 32) (q : Fin 2048) :
    (iblk3 (F := Ideal) V c 1 t : S1x32x2048.Idx → EReal) (ix3 (0 : Fin 1) k q)
      = slabs V c 1 (ix3 (sample t) k q) := by
  unfold iblk3
  show (V c main_v1_0 : S8x32x2048.Idx → EReal) _ = (V c main_v1_0 : S8x32x2048.Idx → EReal) _
  refine congrArg _ (funext fun a => Fin.ext ?_)
  obtain ⟨e0, e1, e2⟩ := index_slab1 t
  match a with
  | ⟨0, _⟩ => show win3_1.index t (0 : Fin 3) * 1 + 1 * 0 = t.val; omega
  | ⟨1, _⟩ => show win3_1.index t (1 : Fin 3) * 32 + 1 * k.val = k.val; omega
  | ⟨2, _⟩ => show win3_1.index t (2 : Fin 3) * 2048 + 1 * q.val = q.val; omega

/-- Slab window 2's block index at point t is (t, 0, 0). -/
theorem index_slab2 : ∀ t : Fin cfg3.N, win3_2.index t (0 : Fin 3) = t.val ∧ win3_2.index t (1 : Fin 3) = 0
    ∧ win3_2.index t (2 : Fin 3) = 0 :=
  (by decide +kernel : ∀ t : Fin grid3.N, _)

/-- Slab window 2's block at point t is sample t of slab 2. -/
theorem read_slab2 (t : Fin cfg3.N) (k : Fin 32) (q : Fin 2048) :
    (iblk3 (F := Ideal) V c 2 t : S1x32x2048.Idx → EReal) (ix3 (0 : Fin 1) k q)
      = slabs V c 2 (ix3 (sample t) k q) := by
  unfold iblk3
  show (V c main_v1_1 : S8x32x2048.Idx → EReal) _ = (V c main_v1_1 : S8x32x2048.Idx → EReal) _
  refine congrArg _ (funext fun a => Fin.ext ?_)
  obtain ⟨e0, e1, e2⟩ := index_slab2 t
  match a with
  | ⟨0, _⟩ => show win3_2.index t (0 : Fin 3) * 1 + 1 * 0 = t.val; omega
  | ⟨1, _⟩ => show win3_2.index t (1 : Fin 3) * 32 + 1 * k.val = k.val; omega
  | ⟨2, _⟩ => show win3_2.index t (2 : Fin 3) * 2048 + 1 * q.val = q.val; omega

/-- Slab window 3's block index at point t is (t, 0, 0). -/
theorem index_slab3 : ∀ t : Fin cfg3.N, win3_3.index t (0 : Fin 3) = t.val ∧ win3_3.index t (1 : Fin 3) = 0
    ∧ win3_3.index t (2 : Fin 3) = 0 :=
  (by decide +kernel : ∀ t : Fin grid3.N, _)

/-- Slab window 3's block at point t is sample t of slab 3. -/
theorem read_slab3 (t : Fin cfg3.N) (k : Fin 32) (q : Fin 2048) :
    (iblk3 (F := Ideal) V c 3 t : S1x32x2048.Idx → EReal) (ix3 (0 : Fin 1) k q)
      = slabs V c 3 (ix3 (sample t) k q) := by
  unfold iblk3
  show (V c main_v2_0 : S8x32x2048.Idx → EReal) _ = (V c main_v2_0 : S8x32x2048.Idx → EReal) _
  refine congrArg _ (funext fun a => Fin.ext ?_)
  obtain ⟨e0, e1, e2⟩ := index_slab3 t
  match a with
  | ⟨0, _⟩ => show win3_3.index t (0 : Fin 3) * 1 + 1 * 0 = t.val; omega
  | ⟨1, _⟩ => show win3_3.index t (1 : Fin 3) * 32 + 1 * k.val = k.val; omega
  | ⟨2, _⟩ => show win3_3.index t (2 : Fin 3) * 2048 + 1 * q.val = q.val; omega

/-- Slab window 4's block index at point t is (t, 0, 0). -/
theorem index_slab4 : ∀ t : Fin cfg3.N, win3_4.index t (0 : Fin 3) = t.val ∧ win3_4.index t (1 : Fin 3) = 0
    ∧ win3_4.index t (2 : Fin 3) = 0 :=
  (by decide +kernel : ∀ t : Fin grid3.N, _)

/-- Slab window 4's block at point t is sample t of slab 4. -/
theorem read_slab4 (t : Fin cfg3.N) (k : Fin 32) (q : Fin 2048) :
    (iblk3 (F := Ideal) V c 4 t : S1x32x2048.Idx → EReal) (ix3 (0 : Fin 1) k q)
      = slabs V c 4 (ix3 (sample t) k q) := by
  unfold iblk3
  show (V c main_v2_1 : S8x32x2048.Idx → EReal) _ = (V c main_v2_1 : S8x32x2048.Idx → EReal) _
  refine congrArg _ (funext fun a => Fin.ext ?_)
  obtain ⟨e0, e1, e2⟩ := index_slab4 t
  match a with
  | ⟨0, _⟩ => show win3_4.index t (0 : Fin 3) * 1 + 1 * 0 = t.val; omega
  | ⟨1, _⟩ => show win3_4.index t (1 : Fin 3) * 32 + 1 * k.val = k.val; omega
  | ⟨2, _⟩ => show win3_4.index t (2 : Fin 3) * 2048 + 1 * q.val = q.val; omega

/-- Slab window 5's block index at point t is (t, 0, 0). -/
theorem index_slab5 : ∀ t : Fin cfg3.N, win3_5.index t (0 : Fin 3) = t.val ∧ win3_5.index t (1 : Fin 3) = 0
    ∧ win3_5.index t (2 : Fin 3) = 0 :=
  (by decide +kernel : ∀ t : Fin grid3.N, _)

/-- Slab window 5's block at point t is sample t of slab 5. -/
theorem read_slab5 (t : Fin cfg3.N) (k : Fin 32) (q : Fin 2048) :
    (iblk3 (F := Ideal) V c 5 t : S1x32x2048.Idx → EReal) (ix3 (0 : Fin 1) k q)
      = slabs V c 5 (ix3 (sample t) k q) := by
  unfold iblk3
  show (V c main_v3_0 : S8x32x2048.Idx → EReal) _ = (V c main_v3_0 : S8x32x2048.Idx → EReal) _
  refine congrArg _ (funext fun a => Fin.ext ?_)
  obtain ⟨e0, e1, e2⟩ := index_slab5 t
  match a with
  | ⟨0, _⟩ => show win3_5.index t (0 : Fin 3) * 1 + 1 * 0 = t.val; omega
  | ⟨1, _⟩ => show win3_5.index t (1 : Fin 3) * 32 + 1 * k.val = k.val; omega
  | ⟨2, _⟩ => show win3_5.index t (2 : Fin 3) * 2048 + 1 * q.val = q.val; omega

/-- Slab window 6's block index at point t is (t, 0, 0). -/
theorem index_slab6 : ∀ t : Fin cfg3.N, win3_6.index t (0 : Fin 3) = t.val ∧ win3_6.index t (1 : Fin 3) = 0
    ∧ win3_6.index t (2 : Fin 3) = 0 :=
  (by decide +kernel : ∀ t : Fin grid3.N, _)

/-- Slab window 6's block at point t is sample t of slab 6. -/
theorem read_slab6 (t : Fin cfg3.N) (k : Fin 32) (q : Fin 2048) :
    (iblk3 (F := Ideal) V c 6 t : S1x32x2048.Idx → EReal) (ix3 (0 : Fin 1) k q)
      = slabs V c 6 (ix3 (sample t) k q) := by
  unfold iblk3
  show (V c main_v3_1 : S8x32x2048.Idx → EReal) _ = (V c main_v3_1 : S8x32x2048.Idx → EReal) _
  refine congrArg _ (funext fun a => Fin.ext ?_)
  obtain ⟨e0, e1, e2⟩ := index_slab6 t
  match a with
  | ⟨0, _⟩ => show win3_6.index t (0 : Fin 3) * 1 + 1 * 0 = t.val; omega
  | ⟨1, _⟩ => show win3_6.index t (1 : Fin 3) * 32 + 1 * k.val = k.val; omega
  | ⟨2, _⟩ => show win3_6.index t (2 : Fin 3) * 2048 + 1 * q.val = q.val; omega

/-- The matrix window's block index is (0, 0) at every point. -/
theorem index_matrix : ∀ t : Fin cfg3.N, win3_7.index t (0 : Fin 2) = 0 ∧ win3_7.index t (1 : Fin 2) = 0 :=
  (by decide +kernel : ∀ t : Fin grid3.N, _)

/-- The matrix window's block is the whole mixing matrix at every point. -/
theorem read_matrix (t : Fin cfg3.N) :
    (iblk3 (F := Ideal) V c 7 t : S64x224.Idx → EReal) = (V c main_arg4 : S64x224.Idx → EReal) := by
  funext j
  unfold iblk3
  show (V c main_arg4 : S64x224.Idx → EReal) _ = _
  refine congrArg _ (funext fun a => Fin.ext ?_)
  obtain ⟨e0, e1⟩ := index_matrix t
  match a with
  | ⟨0, _⟩ => show win3_7.index t (0 : Fin 2) * 64 + 1 * (j 0).val = (j 0).val; omega
  | ⟨1, _⟩ => show win3_7.index t (1 : Fin 2) * 224 + 1 * (j 1).val = (j 1).val; omega

/-- The bias window's block index is (0, 0) at every point. -/
theorem index_bias : ∀ t : Fin cfg3.N, win3_8.index t (0 : Fin 2) = 0 ∧ win3_8.index t (1 : Fin 2) = 0 :=
  (by decide +kernel : ∀ t : Fin grid3.N, _)

/-- The bias window's block is the whole bias column at every point. -/
theorem read_bias (t : Fin cfg3.N) :
    (iblk3 (F := Ideal) V c 8 t : S64x1.Idx → EReal) = (V c main_v4 : S64x1.Idx → EReal) := by
  funext j
  unfold iblk3
  show (V c main_v4 : S64x1.Idx → EReal) _ = _
  refine congrArg _ (funext fun a => Fin.ext ?_)
  obtain ⟨e0, e1⟩ := index_bias t
  match a with
  | ⟨0, _⟩ => show win3_8.index t (0 : Fin 2) * 64 + 1 * (j 0).val = (j 0).val; omega
  | ⟨1, _⟩ => show win3_8.index t (1 : Fin 2) * 1 + 1 * (j 1).val = (j 1).val; omega

/-- The three output windows' block index at point t is (t, 0, 0). -/
theorem index_mixed : ∀ t : Fin cfg3.N, win3_9.index t (0 : Fin 3) = t.val ∧ win3_9.index t (1 : Fin 3) = 0
    ∧ win3_9.index t (2 : Fin 3) = 0 :=
  (by decide +kernel : ∀ t : Fin grid3.N, _)
theorem index_rowSum : ∀ t : Fin cfg3.N, win3_10.index t (0 : Fin 3) = t.val ∧ win3_10.index t (1 : Fin 3) = 0
    ∧ win3_10.index t (2 : Fin 3) = 0 :=
  (by decide +kernel : ∀ t : Fin grid3.N, _)
theorem index_rowSumSq : ∀ t : Fin cfg3.N, win3_11.index t (0 : Fin 3) = t.val ∧ win3_11.index t (1 : Fin 3) = 0
    ∧ win3_11.index t (2 : Fin 3) = 0 :=
  (by decide +kernel : ∀ t : Fin grid3.N, _)

end Cert.KernelIdeal.Conv

end
-- ==== Proof.ConvArray.lean ====
/-
  The mixing region's three output arrays after its write-backs.

  Point t of the grid writes back block (t, 0, 0) of each output window: sample t of the array. What it writes is the
  body's result on the nine input blocks at t, which is sample t of one whole-array function: the specification's mix
  of the seven slabs, its row sums, its row sums of squares. The eight blocks cover the arrays (sample n is covered
  by point n), so the arrays end holding those functions.
-/
import proofs.«100048_j70317204570386_2_alg».proof.Proof.Gen.KernelIdeal.Frame
import proofs.«100048_j70317204570386_2_alg».proof.Proof.Spec
import proofs.«100048_j70317204570386_2_alg».proof.Proof.ConvBlocks
import proofs.«100048_j70317204570386_2_alg».proof.Proof.ConvBridge
import proofs.«100048_j70317204570386_2_alg».proof.Proof.ConvReads
import Idealize.ShloMosaic.Lib.Pipeline.Value

noncomputable section

namespace Cert.KernelIdeal.Conv

open Cert.KernelIdeal Cert.KernelIdeal.Gen Idealize.ShloMosaic Idealize.ShloMosaic.TcCoe Idealize.ShloMosaic.ValueIdx Idealize.SL.Sem
open Idealize.ShloMosaic.Pipeline (Dat)
open Cert.Spec (SFeat SMat SCol SMixed SStat)

variable (V : (c : Dev nD) → (b : Ref sig .tc) → Buf (Elt Ideal) ((c : Thread nD τ).loc b)) (c : Dev nD)

/-- The body's mixed value at point t is sample t of the specification's mix. -/
theorem mixedAt_point (t : Fin cfg3.N) (p : Fin 64) (q : Fin 2048) :
    mixedAt (iblk3 (F := Ideal) V c 0 t) (iblk3 V c 1 t) (iblk3 V c 2 t) (iblk3 V c 3 t) (iblk3 V c 4 t) (iblk3 V c 5 t) (iblk3 V c 6 t) (iblk3 V c 7 t) (iblk3 V c 8 t) p q
      = Cert.Spec.mix (slabs V c) (V c main_arg4) (V c main_v4) (ix3 (sample t) p q) :=
  mixedAt_eq_mix (slabs V c) (V c main_arg4) (V c main_v4) _ _ _ _ _ _ _ _ _ (sample t)
    (read_slab0 V c t) (read_slab1 V c t) (read_slab2 V c t) (read_slab3 V c t) (read_slab4 V c t)
    (read_slab5 V c t) (read_slab6 V c t) (read_matrix V c t) (read_bias V c t) p q

/-- The specification's row sum at an index, spelt out. -/
theorem rowSum_at (s : SMixed.Idx → EReal) (j : SStat.Idx) :
    Cert.Spec.rowSum s j = ∑ v : Fin 2048, s (ix3 (j 0) (j 1) v) := rfl

/-- The specification's row sum of squares at an index, spelt out. -/
theorem rowSumSq_at (s : SMixed.Idx → EReal) (j : SStat.Idx) :
    Cert.Spec.rowSumSq s j = ∑ v : Fin 2048, s (ix3 (j 0) (j 1) v) * s (ix3 (j 0) (j 1) v) := rfl

/-- Some grid point works on any given sample. -/
theorem point_of (n : Fin 8) : ∃ t : Fin cfg3.N, t.val = n.val :=
  ⟨⟨n.val, Nat.lt_of_lt_of_eq n.isLt points.symm⟩, rfl⟩

/-! ## The mixed array -/

/-- What point t writes back to the mixed array is block t of the specification's mix. -/
theorem flushed_mixed (t : Fin cfg3.N) :
    (dat3 (F := Ideal) V c).flushed 9 t
      = ((cfg3.win 9).blk t).view.read (Elt Ideal) (Cert.Spec.mix (slabs V c) (V c main_arg4) (V c main_v4)) := by
  show (cfg3.win 9).cut (grid3.coords t) ((dat3 V c).after 9 t) = _
  rw [after3_9]
  funext y
  refine (out9_at _ _ _ _ _ _ _ _ _ _).trans ?_
  refine (mixedAt_point V c t _ _).trans ?_
  show Cert.Spec.mix (slabs V c) (V c main_arg4) (V c main_v4) _
    = Cert.Spec.mix (slabs V c) (V c main_arg4) (V c main_v4) (((cfg3.win 9).blk t).view.emb y)
  refine congrArg _ (funext fun a => Fin.ext ?_)
  obtain ⟨e0, e1, e2⟩ := index_mixed t
  have h0 : (y 0).val < 1 := (y 0).isLt
  match a with
  | ⟨0, _⟩ => show t.val = win3_9.index t (0 : Fin 3) * 1 + 1 * (y 0).val; omega
  | ⟨1, _⟩ => show (y 1).val = win3_9.index t (1 : Fin 3) * 64 + 1 * (y 1).val; omega
  | ⟨2, _⟩ => show (y 2).val = win3_9.index t (2 : Fin 3) * 2048 + 1 * (y 2).val; omega

/-- Every index of the mixed array is in the block of the point that works on its sample. -/
theorem cover_mixed (i : S8x64x2048.Idx) :
    ∃ t : Fin cfg3.N, (cfg3.win 9).flush t = true ∧ i ∈ ((cfg3.win 9).blk t).view.set := by
  obtain ⟨t, ht⟩ := point_of (i 0)
  refine ⟨t, flush3_9 t, ?_⟩
  show i ∈ ((View.whole main_v5_0).slice (win3_9.rect t)).set
  rw [View.set_slice_whole, Rect.mem_set_unit]
  intro a
  obtain ⟨e0, e1, e2⟩ := index_mixed t
  have h1 : (i 1).val < 64 := (i 1).isLt
  have h2 : (i 2).val < 2048 := (i 2).isLt
  match a with
  | ⟨0, _⟩ => show win3_9.index t (0 : Fin 3) * 1 ≤ (i 0).val ∧ (i 0).val < win3_9.index t (0 : Fin 3) * 1 + 1; omega
  | ⟨1, _⟩ => show win3_9.index t (1 : Fin 3) * 64 ≤ (i 1).val ∧ (i 1).val < win3_9.index t (1 : Fin 3) * 64 + 64; omega
  | ⟨2, _⟩ => show win3_9.index t (2 : Fin 3) * 2048 ≤ (i 2).val ∧ (i 2).val < win3_9.index t (2 : Fin 3) * 2048 + 2048; omega

/-- THE MIXED ARRAY after the region: the specification's mix of the seven slabs with the mixing matrix and the
    bias column, all as the region finds them. -/
theorem arr_mixed :
    (dat3 (F := Ideal) V c).arrAt 9 cfg3.N = Cert.Spec.mix (slabs V c) (V c main_arg4) (V c main_v4) :=
  (dat3 V c).arrAt_eq_of_cover 9 _ (fun t _ => flushed_mixed V c t) cover_mixed

/-! ## The row sums -/

/-- What point t writes back is block t of the specification's function of the mix. -/
theorem flushed_rowSum (t : Fin cfg3.N) :
    (dat3 (F := Ideal) V c).flushed 10 t
      = ((cfg3.win 10).blk t).view.read (Elt Ideal) (Cert.Spec.rowSum (Cert.Spec.mix (slabs V c) (V c main_arg4) (V c main_v4))) := by
  show (cfg3.win 10).cut (grid3.coords t) ((dat3 V c).after 10 t) = _
  rw [after3_10]
  funext y
  refine (out10_at _ _ _ _ _ _ _ _ _ _).trans ?_
  show _ = Cert.Spec.rowSum (Cert.Spec.mix (slabs V c) (V c main_arg4) (V c main_v4)) (((cfg3.win 10).blk t).view.emb y)
  refine Eq.trans ?_ (rowSum_at _ _).symm
  refine Finset.sum_congr rfl fun v _ => ?_
  have hv : mixedAt (iblk3 (F := Ideal) V c 0 t) (iblk3 V c 1 t) (iblk3 V c 2 t) (iblk3 V c 3 t) (iblk3 V c 4 t) (iblk3 V c 5 t) (iblk3 V c 6 t) (iblk3 V c 7 t) (iblk3 V c 8 t) (y 1) v
      = Cert.Spec.mix (slabs V c) (V c main_arg4) (V c main_v4) (ix3 ((((cfg3.win 10).blk t).view.emb y) 0) ((((cfg3.win 10).blk t).view.emb y) 1) v) := by
    refine (mixedAt_point V c t _ v).trans (congrArg _ (funext fun a => Fin.ext ?_))
    obtain ⟨e0, e1, e2⟩ := index_rowSum t
    have h0 : (y 0).val < 1 := (y 0).isLt
    match a with
    | ⟨0, _⟩ => show t.val = win3_10.index t (0 : Fin 3) * 1 + 1 * (y 0).val; omega
    | ⟨1, _⟩ => show (y 1).val = win3_10.index t (1 : Fin 3) * 64 + 1 * (y 1).val; omega
    | ⟨2, _⟩ => rfl
  exact hv

/-- Every index of the array is in the block of the point that works on its sample. -/
theorem cover_rowSum (i : S8x64x1.Idx) :
    ∃ t : Fin cfg3.N, (cfg3.win 10).flush t = true ∧ i ∈ ((cfg3.win 10).blk t).view.set := by
  obtain ⟨t, ht⟩ := point_of (i 0)
  refine ⟨t, flush3_10 t, ?_⟩
  show i ∈ ((View.whole main_v5_1).slice (win3_10.rect t)).set
  rw [View.set_slice_whole, Rect.mem_set_unit]
  intro a
  obtain ⟨e0, e1, e2⟩ := index_rowSum t
  have h1 : (i 1).val < 64 := (i 1).isLt
  have h2 : (i 2).val < 1 := (i 2).isLt
  match a with
  | ⟨0, _⟩ => show win3_10.index t (0 : Fin 3) * 1 ≤ (i 0).val ∧ (i 0).val < win3_10.index t (0 : Fin 3) * 1 + 1; omega
  | ⟨1, _⟩ => show win3_10.index t (1 : Fin 3) * 64 ≤ (i 1).val ∧ (i 1).val < win3_10.index t (1 : Fin 3) * 64 + 64; omega
  | ⟨2, _⟩ => show win3_10.index t (2 : Fin 3) * 1 ≤ (i 2).val ∧ (i 2).val < win3_10.index t (2 : Fin 3) * 1 + 1; omega

/-- THE ROW-SUMS ARRAY after the region: per sample and output channel, the sum of the mix over the nodes. -/
theorem arr_rowSum :
    (dat3 (F := Ideal) V c).arrAt 10 cfg3.N = Cert.Spec.rowSum (Cert.Spec.mix (slabs V c) (V c main_arg4) (V c main_v4)) :=
  (dat3 V c).arrAt_eq_of_cover 10 _ (fun t _ => flushed_rowSum V c t) cover_rowSum

/-! ## The row sums of squares -/

/-- What point t writes back is block t of the specification's function of the mix. -/
theorem flushed_rowSumSq (t : Fin cfg3.N) :
    (dat3 (F := Ideal) V c).flushed 11 t
      = ((cfg3.win 11).blk t).view.read (Elt Ideal) (Cert.Spec.rowSumSq (Cert.Spec.mix (slabs V c) (V c main_arg4) (V c main_v4))) := by
  show (cfg3.win 11).cut (grid3.coords t) ((dat3 V c).after 11 t) = _
  rw [after3_11]
  funext y
  refine (out11_at _ _ _ _ _ _ _ _ _ _).trans ?_
  show _ = Cert.Spec.rowSumSq (Cert.Spec.mix (slabs V c) (V c main_arg4) (V c main_v4)) (((cfg3.win 11).blk t).view.emb y)
  refine Eq.trans ?_ (rowSumSq_at _ _).symm
  refine Finset.sum_congr rfl fun v _ => ?_
  have hv : mixedAt (iblk3 (F := Ideal) V c 0 t) (iblk3 V c 1 t) (iblk3 V c 2 t) (iblk3 V c 3 t) (iblk3 V c 4 t) (iblk3 V c 5 t) (iblk3 V c 6 t) (iblk3 V c 7 t) (iblk3 V c 8 t) (y 1) v
      = Cert.Spec.mix (slabs V c) (V c main_arg4) (V c main_v4) (ix3 ((((cfg3.win 11).blk t).view.emb y) 0) ((((cfg3.win 11).blk t).view.emb y) 1) v) := by
    refine (mixedAt_point V c t _ v).trans (congrArg _ (funext fun a => Fin.ext ?_))
    obtain ⟨e0, e1, e2⟩ := index_rowSumSq t
    have h0 : (y 0).val < 1 := (y 0).isLt
    match a with
    | ⟨0, _⟩ => show t.val = win3_11.index t (0 : Fin 3) * 1 + 1 * (y 0).val; omega
    | ⟨1, _⟩ => show (y 1).val = win3_11.index t (1 : Fin 3) * 64 + 1 * (y 1).val; omega
    | ⟨2, _⟩ => rfl
  rw [hv]

/-- Every index of the array is in the block of the point that works on its sample. -/
theorem cover_rowSumSq (i : S8x64x1.Idx) :
    ∃ t : Fin cfg3.N, (cfg3.win 11).flush t = true ∧ i ∈ ((cfg3.win 11).blk t).view.set := by
  obtain ⟨t, ht⟩ := point_of (i 0)
  refine ⟨t, flush3_11 t, ?_⟩
  show i ∈ ((View.whole main_v5_2).slice (win3_11.rect t)).set
  rw [View.set_slice_whole, Rect.mem_set_unit]
  intro a
  obtain ⟨e0, e1, e2⟩ := index_rowSumSq t
  have h1 : (i 1).val < 64 := (i 1).isLt
  have h2 : (i 2).val < 1 := (i 2).isLt
  match a with
  | ⟨0, _⟩ => show win3_11.index t (0 : Fin 3) * 1 ≤ (i 0).val ∧ (i 0).val < win3_11.index t (0 : Fin 3) * 1 + 1; omega
  | ⟨1, _⟩ => show win3_11.index t (1 : Fin 3) * 64 ≤ (i 1).val ∧ (i 1).val < win3_11.index t (1 : Fin 3) * 64 + 64; omega
  | ⟨2, _⟩ => show win3_11.index t (2 : Fin 3) * 1 ≤ (i 2).val ∧ (i 2).val < win3_11.index t (2 : Fin 3) * 1 + 1; omega

/-- THE ROW-SUMS-OF-SQUARES ARRAY after the region: per sample and output channel, the sum of the squared mix over the nodes. -/
theorem arr_rowSumSq :
    (dat3 (F := Ideal) V c).arrAt 11 cfg3.N = Cert.Spec.rowSumSq (Cert.Spec.mix (slabs V c) (V c main_arg4) (V c main_v4)) :=
  (dat3 V c).arrAt_eq_of_cover 11 _ (fun t _ => flushed_rowSumSq V c t) cover_rowSumSq

end Cert.KernelIdeal.Conv

end
-- ==== Proof.KWhole.lean ====
/-
  The idealized kernel's run with its result as a function of the arguments.

  The three two-step regions leave one and two diffusion steps of the transposed input along their adjacency, the
  mixing region leaves the mixed features with their row sums and row sums of squares, and with these the result
  array at the end of the run is the kernel's function of the eight argument arrays.
-/
import proofs.«100048_j70317204570386_2_alg».proof.Proof.KRun
import proofs.«100048_j70317204570386_2_alg».proof.Proof.KChain
import proofs.«100048_j70317204570386_2_alg».proof.Proof.HopArray0
import proofs.«100048_j70317204570386_2_alg».proof.Proof.HopArray1
import proofs.«100048_j70317204570386_2_alg».proof.Proof.HopArray2
import proofs.«100048_j70317204570386_2_alg».proof.Proof.ConvArray

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec Cert.KernelIdeal.Chain

variable (V : (c : Dev nD) → (b : Ref sig .tc) → Buf (Elt Ideal) ((c : Thread nD τ).loc b)) (c : Dev nD)

/-- The first two-step region's two outputs. -/
theorem steps0 : (dat0 (F := Ideal) V c).arrAt 2 cfg0.N = hop (V c main_arg1) (V c main_v0)
    ∧ (dat0 (F := Ideal) V c).arrAt 3 cfg0.N = hop (V c main_arg1) (hop (V c main_arg1) (V c main_v0)) :=
  ⟨Cert.KernelIdeal.Hop.arr0_first V c, Cert.KernelIdeal.Hop.arr0_second V c⟩

/-- The second two-step region's two outputs. -/
theorem steps1 : (dat1 (F := Ideal) V c).arrAt 2 cfg1.N = hop (V c main_arg2) (V c main_v0)
    ∧ (dat1 (F := Ideal) V c).arrAt 3 cfg1.N = hop (V c main_arg2) (hop (V c main_arg2) (V c main_v0)) :=
  ⟨Cert.KernelIdeal.Hop.arr1_first V c, Cert.KernelIdeal.Hop.arr1_second V c⟩

/-- The third two-step region's two outputs. -/
theorem steps2 : (dat2 (F := Ideal) V c).arrAt 2 cfg2.N = hop (V c main_arg3) (V c main_v0)
    ∧ (dat2 (F := Ideal) V c).arrAt 3 cfg2.N = hop (V c main_arg3) (hop (V c main_arg3) (V c main_v0)) :=
  ⟨Cert.KernelIdeal.Hop.arr2_first V c, Cert.KernelIdeal.Hop.arr2_second V c⟩

/-- The seven slabs the mixing region reads, in window order. -/
theorem slabs_eq : Cert.KernelIdeal.Conv.slabs V c
    = slabs (V c main_v0) (V c main_v1_0) (V c main_v1_1) (V c main_v2_0) (V c main_v2_1) (V c main_v3_0) (V c main_v3_1) := by
  funext i
  fin_cases i <;> rfl

/-- The mixing region's three outputs. -/
theorem mixing :
    (dat3 (F := Ideal) V c).arrAt 9 cfg3.N
        = mix (slabs (V c main_v0) (V c main_v1_0) (V c main_v1_1) (V c main_v2_0) (V c main_v2_1) (V c main_v3_0) (V c main_v3_1)) (V c main_arg4) (V c main_v4)
    ∧ (dat3 (F := Ideal) V c).arrAt 10 cfg3.N
        = rowSum (mix (slabs (V c main_v0) (V c main_v1_0) (V c main_v1_1) (V c main_v2_0) (V c main_v2_1) (V c main_v3_0) (V c main_v3_1)) (V c main_arg4) (V c main_v4))
    ∧ (dat3 (F := Ideal) V c).arrAt 11 cfg3.N
        = rowSumSq (mix (slabs (V c main_v0) (V c main_v1_0) (V c main_v1_1) (V c main_v2_0) (V c main_v2_1) (V c main_v3_0) (V c main_v3_1)) (V c main_arg4) (V c main_v4)) := by
  rw [← slabs_eq V c]
  exact ⟨Cert.KernelIdeal.Conv.arr_mixed V c, Cert.KernelIdeal.Conv.arr_rowSum V c, Cert.KernelIdeal.Conv.arr_rowSumSq V c⟩

/-- Every weakly fair execution of the idealized kernel terminates without a fault, with the result array at the
    kernel's function of the argument arrays and every argument array as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v16)
        = kernelValue (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono
    (fun r h c => ⟨(h c).1.trans (result_eq m ρ c (fun V c => steps0 V c) (fun V c => steps1 V c) (fun V c => steps2 V c) (fun V c => mixing V c)), (h c).2⟩)
    (Cert.KernelIdeal.Named.run_named (F := Ideal) m ρ)

end Cert.KernelIdeal.Whole

end
-- ==== Proof.LawSums.lean ====
/-
  Rearrangements of finite sums in a commutative additive monoid.

  A sum over 224 = 7 · 32 channels is the sum over seven blocks of 32 channels each; a sum accumulated block
  after block from zero is that sum over the blocks; a sum over the 8 · 2048 pairs (n, v) is the double sum,
  and so is a sum over any finite type in bijection with the pairs.
-/
import Mathlib.Algebra.BigOperators.Fin
import Mathlib.Data.Fintype.BigOperators
import Mathlib.Logic.Equiv.Fin.Basic

namespace Cert.Laws

open scoped BigOperators

variable {M : Type*} [AddCommMonoid M]

/-- Channel 32 · i + c of 224, for block i of 7 and c of 32. -/
def chan (i : Fin 7) (c : Fin 32) : Fin 224 := ⟨32 * i.val + c.val, by omega⟩

@[simp] theorem chan_val (i : Fin 7) (c : Fin 32) : (chan i c).val = 32 * i.val + c.val := rfl

/-- A sum over 224 channels, block by block: seven blocks of 32. -/
theorem sum_fin224_blocks (f : Fin 224 → M) :
    ∑ c, f c = ∑ i : Fin 7, ∑ c : Fin 32, f ⟨32 * i.val + c.val, by omega⟩ := by
  rw [← Fintype.sum_prod_type']
  refine (Fintype.sum_equiv (finProdFinEquiv (m := 7) (n := 32)) _ _ fun p => ?_).symm
  refine congrArg f (Fin.ext ?_)
  show 32 * p.1.val + p.2.val = p.2.val + 32 * p.1.val
  omega

/-- Seven terms accumulated one after the other from zero are their sum. -/
theorem acc7_eq_sum (t : Fin 7 → M) :
    ((((((0 + t 0) + t 1) + t 2) + t 3) + t 4) + t 5) + t 6 = ∑ i : Fin 7, t i := by
  rw [Fin.sum_univ_seven, zero_add]

/-- The 224-sum as the kernel accumulates it: block sums added one after the other from zero. -/
theorem acc7_blocks_eq_sum (f : Fin 224 → M) :
    ((((((0 + ∑ c : Fin 32, f ⟨32 * (0 : Fin 7).val + c.val, by omega⟩)
      + ∑ c : Fin 32, f ⟨32 * (1 : Fin 7).val + c.val, by omega⟩)
      + ∑ c : Fin 32, f ⟨32 * (2 : Fin 7).val + c.val, by omega⟩)
      + ∑ c : Fin 32, f ⟨32 * (3 : Fin 7).val + c.val, by omega⟩)
      + ∑ c : Fin 32, f ⟨32 * (4 : Fin 7).val + c.val, by omega⟩)
      + ∑ c : Fin 32, f ⟨32 * (5 : Fin 7).val + c.val, by omega⟩)
      + ∑ c : Fin 32, f ⟨32 * (6 : Fin 7).val + c.val, by omega⟩
      = ∑ c, f c := by
  rw [sum_fin224_blocks f]
  exact acc7_eq_sum fun i : Fin 7 => ∑ c : Fin 32, f ⟨32 * i.val + c.val, by omega⟩

/-- A sum over the pairs (n, v) is the double sum. -/
theorem sum_grid (g : Fin 8 → Fin 2048 → M) :
    ∑ p : Fin 8 × Fin 2048, g p.1 p.2 = ∑ n, ∑ v, g n v :=
  Fintype.sum_prod_type' g

/-- A sum over the pairs of a function of the pair is the double sum. -/
theorem sum_grid' (h : Fin 8 × Fin 2048 → M) :
    ∑ p, h p = ∑ n, ∑ v, h (n, v) :=
  Fintype.sum_prod_type h

/-- A sum over a finite type in bijection with the pairs (n, v) is the double sum along the bijection. -/
theorem sum_equiv_grid {ι : Type*} [Fintype ι] (e : ι ≃ Fin 8 × Fin 2048) (h : ι → M) :
    ∑ i, h i = ∑ n, ∑ v, h (e.symm (n, v)) := by
  rw [← Fintype.sum_prod_type (fun p : Fin 8 × Fin 2048 => h (e.symm p))]
  exact Fintype.sum_equiv e _ _ fun i => by rw [Equiv.symm_apply_apply]

/-- The same with the summand given on the pairs: a sum over ι of g at the pair of i is the double sum of g. -/
theorem sum_equiv_grid' {ι : Type*} [Fintype ι] (e : ι ≃ Fin 8 × Fin 2048) (g : Fin 8 → Fin 2048 → M) :
    ∑ i, g (e i).1 (e i).2 = ∑ n, ∑ v, g n v := by
  rw [← Fintype.sum_prod_type' g]
  exact Fintype.sum_equiv e _ _ fun _ => rfl

end Cert.Laws
-- ==== Proof.LawLayout.lean ====
/-
  The channel-major arrangement against the node-major one.

  One program keeps features channel-major, [sample, channel, node], and takes a diffusion step as
  (n, c, w) ↦ Σ_v h (n, c, v) · a (n, v, w); the other keeps them node-major, [sample, node, channel], and takes it
  as (n, w, l) ↦ Σ_v a (n, v, w) · x (n, v, l). Reading the node-major step channel-major gives the channel-major
  step: the two differ by the order of the factors in each product. The mix of seven channel-major slabs by the
  64 × 224 matrix is, entry by entry, the contraction of the concatenation of the seven node-major slabs along
  the channel axis with the matrix: the sum over 224 columns is the sum over seven blocks of 32, and again the
  factors change places. Only commutativity of the product and regrouping of the sum are used.
-/
import proofs.«100048_j70317204570386_2_alg».proof.Proof.Spec
import proofs.«100048_j70317204570386_2_alg».proof.Proof.LawSums

noncomputable section

namespace Cert.Laws

open Idealize.ShloMosaic Idealize.ShloMosaic.ValueIdx
open Cert.Spec
open scoped BigOperators

/-- The node-major diffusion step: entry (n, w, l) is the sum over nodes v of a (n, v, w) · x (n, v, l). -/
def nodeHop (a : SAdj.Idx → EReal) (x : SNodeFeat.Idx → EReal) : SNodeFeat.Idx → EReal :=
  fun j => ∑ v : Fin 2048, a (ix3 (j 0) v (j 1)) * x (ix3 (j 0) v (j 2))

/-! ### The functions of the specification read at an index given by its coordinates -/

theorem chanMajor_apply (x : SNodeFeat.Idx → EReal) (n : Fin 8) (c : Fin 32) (v : Fin 2048) :
    chanMajor x (ix3 n c v) = x (ix3 n v c) := rfl

theorem hop_apply (a : SAdj.Idx → EReal) (h : SFeat.Idx → EReal) (n : Fin 8) (c : Fin 32) (w : Fin 2048) :
    hop a h (ix3 n c w) = ∑ v : Fin 2048, h (ix3 n c v) * a (ix3 n v w) := rfl

theorem nodeHop_apply (a : SAdj.Idx → EReal) (x : SNodeFeat.Idx → EReal) (n : Fin 8) (w : Fin 2048) (l : Fin 32) :
    nodeHop a x (ix3 n w l) = ∑ v : Fin 2048, a (ix3 n v w) * x (ix3 n v l) := rfl

theorem mix_apply (h : Fin 7 → SFeat.Idx → EReal) (W : SMat.Idx → EReal) (b : SCol.Idx → EReal) (n : Fin 8)
    (o : Fin 64) (v : Fin 2048) :
    mix h W b (ix3 n o v)
      = (∑ i : Fin 7, ∑ c : Fin 32, W (ix2 o (slabCol i c)) * h i (ix3 n c v)) + b (ix2 o 0) := rfl

theorem rowSum_apply (s : SMixed.Idx → EReal) (n : Fin 8) (o : Fin 64) (z : Fin 1) :
    rowSum s (ix3 n o z) = ∑ v : Fin 2048, s (ix3 n o v) := rfl

theorem rowSumSq_apply (s : SMixed.Idx → EReal) (n : Fin 8) (o : Fin 64) (z : Fin 1) :
    rowSumSq s (ix3 n o z) = ∑ v : Fin 2048, s (ix3 n o v) * s (ix3 n o v) := rfl

/-! ### One and two diffusion steps -/

/-- A channel-major step on features read channel-major is the node-major step read channel-major. -/
theorem hop_chanMajor (a : SAdj.Idx → EReal) (x : SNodeFeat.Idx → EReal) :
    hop a (chanMajor x) = chanMajor (nodeHop a x) := by
  funext j
  obtain ⟨n, c, w, rfl⟩ : ∃ (n : Fin 8) (c : Fin 32) (w : Fin 2048), j = ix3 n c w := ⟨j 0, j 1, j 2, eq_ix3 j⟩
  rw [hop_apply, chanMajor_apply, nodeHop_apply]
  refine Finset.sum_congr rfl fun v _ => ?_
  rw [chanMajor_apply, mul_comm]

/-- Two steps likewise. -/
theorem hop_hop_chanMajor (a : SAdj.Idx → EReal) (x : SNodeFeat.Idx → EReal) :
    hop a (hop a (chanMajor x)) = chanMajor (nodeHop a (nodeHop a x)) := by
  rw [hop_chanMajor, hop_chanMajor]

/-! ### The concatenation of seven node-major slabs along the channel axis -/

/-- Column c of 224 lies in slab c / 32, at channel c % 32 of it. -/
def cat7c (p : Fin 7 → SNodeFeat.Idx → EReal) (n : Fin 8) (v : Fin 2048) (c : Fin 224) : EReal :=
  p ⟨c.val / 32, by omega⟩ (ix3 n v ⟨c.val % 32, by omega⟩)

/-- The concatenation [8, 2048, 224] of seven slabs [8, 2048, 32] along the last axis. -/
def cat7 (p : Fin 7 → SNodeFeat.Idx → EReal) : (⟨3, ![8, 2048, 224]⟩ : Shape).Idx → EReal :=
  fun j => cat7c p (j 0) (j 1) (j 2)

theorem cat7_eq_cat7c (p : Fin 7 → SNodeFeat.Idx → EReal) (n : Fin 8) (v : Fin 2048) (c : Fin 224) :
    cat7 p (ix3 n v c) = cat7c p n v c := rfl

/-- The concatenation at column 32 · k + c is slab k at channel c. -/
theorem cat7_apply (p : Fin 7 → SNodeFeat.Idx → EReal) (n : Fin 8) (v : Fin 2048) (k : Fin 7) (c : Fin 32) :
    cat7 p (ix3 n v (slabCol k c)) = p k (ix3 n v c) := by
  have h1 : (slabCol k c).val / 32 = k.val := by
    show (32 * k.val + c.val) / 32 = k.val
    omega
  have h2 : (slabCol k c).val % 32 = c.val := by
    show (32 * k.val + c.val) % 32 = c.val
    omega
  have e1 : (⟨(slabCol k c).val / 32, by omega⟩ : Fin 7) = k := Fin.ext h1
  have e2 : (⟨(slabCol k c).val % 32, by omega⟩ : Fin 32) = c := Fin.ext h2
  rw [cat7_eq_cat7c]
  unfold cat7c
  rw [e1, e2]

/-! ### The mix -/

/-- The mix of seven slabs read channel-major is, at (n, o, v), the contraction over the 224 columns of the
    concatenation at (n, v, ·) with row o of the matrix, plus the bias of channel o. -/
theorem mix_chanMajor (p : Fin 7 → SNodeFeat.Idx → EReal) (W : SMat.Idx → EReal) (bcol : SCol.Idx → EReal)
    (bvec : (⟨1, ![64]⟩ : Shape).Idx → EReal) (hb : ∀ o : Fin 64, bcol (ix2 o 0) = bvec (ix1 o))
    (n : Fin 8) (o : Fin 64) (v : Fin 2048) :
    mix (fun i => chanMajor (p i)) W bcol (ix3 n o v)
      = (∑ c : Fin 224, cat7 p (ix3 n v c) * W (ix2 o c)) + bvec (ix1 o) := by
  rw [mix_apply, hb, sum_fin224_blocks]
  refine congrArg (· + bvec (ix1 o)) ?_
  refine Finset.sum_congr rfl fun i _ => Finset.sum_congr rfl fun c _ => ?_
  show W (ix2 o (slabCol i c)) * chanMajor (p i) (ix3 n c v)
    = cat7 p (ix3 n v (slabCol i c)) * W (ix2 o (slabCol i c))
  rw [cat7_apply, chanMajor_apply, mul_comm]

end Cert.Laws

end
-- ==== Proof.RefSpec.lean ====
/-
  The reference's result written as plain functions on index tuples over the extended reals, node-major.

  The seven node-major pieces are the input and one and two diffusion steps of it along each adjacency; `refMixed` is
  their concatenation along the channels contracted with the mixing matrix, plus the bias; `refMean` and `refVar` are a
  channel's mean and its mean squared deviation from that mean over the 16384 (sample, node) pairs; `refValue` is the
  normalised, scaled and shifted result.
-/
import proofs.«100048_j70317204570386_2_alg».proof.Proof.Spec
import proofs.«100048_j70317204570386_2_alg».proof.Proof.LawLayout

noncomputable section

namespace Cert.RefSpec

open Idealize.ShloMosaic Idealize.ShloMosaic.ValueIdx Cert.Spec Cert.Laws

/-- a per-channel vector [64] -/
abbrev SVec : Shape := ⟨1, ![64]⟩

/-- The count of (sample, node) pairs as an extended real. -/
def total : EReal := ((16384 : ℝ) : EReal)

/-- The seven node-major pieces in order. -/
def pieces (x : SNodeFeat.Idx → EReal) (a0 a1 a2 : SAdj.Idx → EReal) : Fin 7 → SNodeFeat.Idx → EReal :=
  ![x, nodeHop a0 x, nodeHop a0 (nodeHop a0 x), nodeHop a1 x, nodeHop a1 (nodeHop a1 x), nodeHop a2 x, nodeHop a2 (nodeHop a2 x)]

/-- Entry (n, v, o): the sum over the 224 concatenated channels c of piece (n, v, c) · W (o, c), plus the bias b o. -/
def refMixed (x : SNodeFeat.Idx → EReal) (a0 a1 a2 : SAdj.Idx → EReal) (w : SMat.Idx → EReal) (b : SVec.Idx → EReal) : SOut.Idx → EReal :=
  fun j => (∑ c : Fin 224, cat7 (pieces x a0 a1 a2) (ix3 (j 0) (j 1) c) * w (ix2 (j 2) c)) + b (ix1 (j 2))

/-- A channel's mean over all samples and nodes. -/
def refMean (h : SOut.Idx → EReal) : SVec.Idx → EReal :=
  fun k => Ideal.div (∑ n : Fin 8, ∑ v : Fin 2048, h (ix3 n v (k 0))) total

/-- A channel's mean squared deviation from its mean. -/
def refVar (h : SOut.Idx → EReal) : SVec.Idx → EReal :=
  fun k => Ideal.div (∑ n : Fin 8, ∑ v : Fin 2048, (h (ix3 n v (k 0)) - refMean h k) * (h (ix3 n v (k 0)) - refMean h k)) total

/-- The normalised result: entry (n, v, o) is ((h (n, v, o) − mean o) · rsqrt (var o + ε)) · scale o + shift o. -/
def refValue (x : SNodeFeat.Idx → EReal) (a0 a1 a2 : SAdj.Idx → EReal) (w : SMat.Idx → EReal) (b g be : SVec.Idx → EReal) : SOut.Idx → EReal :=
  fun j => ((refMixed x a0 a1 a2 w b j - refMean (refMixed x a0 a1 a2 w b) (ix1 (j 2)))
      * Ideal.rsqrt (refVar (refMixed x a0 a1 a2 w b) (ix1 (j 2)) + Cert.Spec.eps)) * g (ix1 (j 2))
    + be (ix1 (j 2))

end Cert.RefSpec

end
-- ==== Proof.LibVarLaw.lean ====
/-
  The variance law over the extended reals.

  For finitely many REAL numbers x_i and n their count, the mean of the squared deviations from the mean,
  (∑ (x_i − (∑ x)/n)²)/n, is the mean of the squares minus the square of the mean, (∑ x_i²)/n − ((∑ x)/n)². Over the extended
  reals, with the ideal quotient, the same holds when every entry is a real number and the divisor is a real that is not
  zero (at an infinite entry the two sides differ: one is +∞, the other −∞). This is the step between a batch
  normalization that takes its variance textbook-wise and one that accumulates sums and sums of squares.
-/
import Idealize.ShloMosaic.PureOps.Ideal

noncomputable section

namespace Cert.Lib.VarLaw

open Idealize.ShloMosaic
open scoped BigOperators

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- In the reals: with `n` the number of terms, the mean of the squared deviations from the mean is the mean of the
    squares minus the square of the mean. -/
theorem var_real {ι : Type*} [Fintype ι] (f : ι → ℝ) (n : ℝ) (hn : n ≠ 0) (hcard : (Fintype.card ι : ℝ) = n) :
    (∑ i, (f i - (∑ k, f k) * (1 / n)) * (f i - (∑ k, f k) * (1 / n))) * (1 / n)
      = (∑ i, f i * f i) * (1 / n) - (∑ i, f i) * (1 / n) * ((∑ i, f i) * (1 / n)) := by
  have key : ∀ m : ℝ, ∑ i, (f i - m) * (f i - m)
      = (∑ i, f i * f i) - 2 * m * (∑ i, f i) + (Fintype.card ι : ℝ) * (m * m) := by
    intro m
    have e : ∀ i, (f i - m) * (f i - m) = f i * f i - 2 * m * f i + m * m := fun i => by ring
    simp only [e, Finset.sum_add_distrib, Finset.sum_sub_distrib, ← Finset.mul_sum, Finset.sum_const, Finset.card_univ,
      nsmul_eq_mul]
    ring
  rw [key, hcard]
  field_simp
  ring

/-- The same over the extended reals, for real entries and a real divisor that is not zero, with the ideal quotient. -/
theorem var_law {ι : Type*} [Fintype ι] (x : ι → EReal) (hx : ∀ i, ∃ r : ℝ, x i = (r : EReal)) (n : ℝ) (hn : n ≠ 0)
    (hcard : (Fintype.card ι : ℝ) = n) :
    Ideal.div (∑ i, (x i - Ideal.div (∑ k, x k) (n : EReal)) * (x i - Ideal.div (∑ k, x k) (n : EReal))) (n : EReal)
      = Ideal.div (∑ i, x i * x i) (n : EReal) - Ideal.div (∑ i, x i) (n : EReal) * Ideal.div (∑ i, x i) (n : EReal) := by
  choose f hf using hx
  obtain rfl : x = fun i => (f i : EReal) := funext hf
  simp only [Ideal.div_coe hn, ← coe_sum, ← EReal.coe_mul, ← EReal.coe_sub]
  exact congrArg _ (var_real f n hn hcard)

end Cert.Lib.VarLaw

end
-- ==== Proof.LawReal.lean ====
/-
  Real numbers among the extended reals.

  An extended real is either a real number or one of the two infinities. The arithmetic of the extended reals
  restricted to real numbers is the arithmetic of the reals: sums, differences, products, finite sums and
  quotients by a real that is not zero stay real. This is what lets an identity of real algebra (here: the two
  ways of writing a variance) be transported to values read as extended reals, once every input is known to be
  finite.
-/
import Idealize.ShloMosaic.PureOps.Ideal

noncomputable section

namespace Cert.Laws

open Idealize.ShloMosaic
open scoped BigOperators

/-- An extended real that is (the image of) a real number. -/
def IsReal (x : EReal) : Prop := ∃ r : ℝ, x = (r : EReal)

theorem isReal_coe (r : ℝ) : IsReal (r : EReal) := ⟨r, rfl⟩

theorem isReal_zero : IsReal (0 : EReal) := ⟨0, EReal.coe_zero.symm⟩

theorem isReal_one : IsReal (1 : EReal) := ⟨1, EReal.coe_one.symm⟩

/-- Real means: neither infinity. -/
theorem isReal_iff {x : EReal} : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

theorem IsReal.ne_top {x : EReal} (h : IsReal x) : x ≠ ⊤ := (isReal_iff.mp h).1

theorem IsReal.ne_bot {x : EReal} (h : IsReal x) : x ≠ ⊥ := (isReal_iff.mp h).2

/-- A real extended real is the coercion of its real part. -/
theorem IsReal.coe_toReal {x : EReal} (h : IsReal x) : ((x.toReal : ℝ) : EReal) = x :=
  EReal.coe_toReal h.ne_top h.ne_bot

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_sum {ι : Type*} [Fintype ι] (f : ι → ℝ) : ((∑ i, f i : ℝ) : EReal) = ∑ i, (f i : EReal) :=
  coe_finset_sum Finset.univ f

/-- A finite sum of real extended reals is real. -/
theorem IsReal.finset_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The same over a whole finite type. -/
theorem IsReal.sum {ι : Type*} [Fintype ι] (f : ι → EReal) (h : ∀ i, IsReal (f i)) : IsReal (∑ i, f i) :=
  IsReal.finset_sum Finset.univ f fun i _ => h i

/-- The ideal quotient of a real by a real that is not zero is real. -/
theorem IsReal.div_coe {x : EReal} (hx : IsReal x) {n : ℝ} (hn : n ≠ 0) : IsReal (Ideal.div x (n : EReal)) := by
  rw [Ideal.div_coe hn]
  exact hx.mul (isReal_coe _)

/-- The same with the divisor given as an extended real known to be real and not zero. -/
theorem IsReal.div {x y : EReal} (hx : IsReal x) (hy : IsReal y) (hy0 : y ≠ 0) : IsReal (Ideal.div x y) := by
  obtain ⟨n, rfl⟩ := hy
  exact hx.div_coe fun h => hy0 (by rw [h, EReal.coe_zero])

/-- A family of real extended reals is the coercion of a family of reals. -/
theorem exists_real_family {ι : Type*} (x : ι → EReal) (hx : ∀ i, IsReal (x i)) :
    ∃ f : ι → ℝ, x = fun i => (f i : EReal) := by
  choose f hf using hx
  exact ⟨f, funext hf⟩

end Cert.Laws

end
-- ==== Proof.LawVariance.lean ====
/-
  The variance of 8 · 2048 = 16384 real entries, written two ways.

  A batch normalisation needs, per channel, the mean μ = (∑ s)/N and the variance of the N = 16384 entries
  s[n, v]. One program forms the variance as the mean of the squared deviations, (∑ (s − μ)²)/N; the other
  accumulates the sum and the sum of squares and forms (∑ s²)/N − μ². Over the reals these agree. Over the
  extended reals, with the ideal quotient, they agree as soon as every entry is a real number (at an infinite
  entry they differ). The entries are indexed by the pairs (n, v), so the general law over a finite index
  type is applied to Fin 8 × Fin 2048 and the sum over pairs unfolded into the double sum.
-/
import proofs.«100048_j70317204570386_2_alg».proof.Proof.LibVarLaw
import proofs.«100048_j70317204570386_2_alg».proof.Proof.LawReal

noncomputable section

namespace Cert.Laws

open Idealize.ShloMosaic
open scoped BigOperators

/-- There are 8 · 2048 = 16384 pairs (n, v). -/
theorem card_grid : (Fintype.card (Fin 8 × Fin 2048) : ℝ) = 16384 := by
  rw [Fintype.card_prod, Fintype.card_fin, Fintype.card_fin]
  norm_num

/-- The variance law for extended-real entries known to be real, the count given as any extended real equal to
    16384. -/
theorem variance_grid (x : Fin 8 → Fin 2048 → EReal) (hx : ∀ n v, IsReal (x n v)) (N : EReal)
    (hN : N = ((16384 : ℝ) : EReal)) :
    Ideal.div (∑ n, ∑ v, (x n v - Ideal.div (∑ n, ∑ v, x n v) N) * (x n v - Ideal.div (∑ n, ∑ v, x n v) N)) N
      = Ideal.div (∑ n, ∑ v, x n v * x n v) N
          - Ideal.div (∑ n, ∑ v, x n v) N * Ideal.div (∑ n, ∑ v, x n v) N := by
  subst hN
  have h := Cert.Lib.VarLaw.var_law (fun p : Fin 8 × Fin 2048 => x p.1 p.2) (fun p => hx p.1 p.2) 16384
    (by norm_num) card_grid
  simpa only [Fintype.sum_prod_type] using h

/-- The same with every sum started from 0, as a reduction with initial value 0 writes it. -/
theorem variance_grid_zero_add (x : Fin 8 → Fin 2048 → EReal) (hx : ∀ n v, IsReal (x n v)) (N : EReal)
    (hN : N = ((16384 : ℝ) : EReal)) :
    Ideal.div (0 + ∑ n, ∑ v, (x n v - Ideal.div (0 + ∑ n, ∑ v, x n v) N)
        * (x n v - Ideal.div (0 + ∑ n, ∑ v, x n v) N)) N
      = Ideal.div (0 + ∑ n, ∑ v, x n v * x n v) N
          - Ideal.div (0 + ∑ n, ∑ v, x n v) N * Ideal.div (0 + ∑ n, ∑ v, x n v) N := by
  simp only [zero_add]
  exact variance_grid x hx N hN

/-- The variance law for real entries s[n, v], in coerced form. -/
theorem variance_grid_real (s : Fin 8 → Fin 2048 → ℝ) :
    Ideal.div (∑ n, ∑ v, ((s n v : EReal) - Ideal.div (∑ n, ∑ v, (s n v : EReal)) ((16384 : ℝ) : EReal))
        * ((s n v : EReal) - Ideal.div (∑ n, ∑ v, (s n v : EReal)) ((16384 : ℝ) : EReal))) ((16384 : ℝ) : EReal)
      = Ideal.div (∑ n, ∑ v, (s n v : EReal) * (s n v : EReal)) ((16384 : ℝ) : EReal)
          - Ideal.div (∑ n, ∑ v, (s n v : EReal)) ((16384 : ℝ) : EReal)
            * Ideal.div (∑ n, ∑ v, (s n v : EReal)) ((16384 : ℝ) : EReal) :=
  variance_grid (fun n v => (s n v : EReal)) (fun n v => isReal_coe (s n v)) _ rfl

/-- The same with every sum started from 0. -/
theorem variance_grid_real_zero_add (s : Fin 8 → Fin 2048 → ℝ) :
    Ideal.div (0 + ∑ n, ∑ v, ((s n v : EReal) - Ideal.div (0 + ∑ n, ∑ v, (s n v : EReal)) ((16384 : ℝ) : EReal))
        * ((s n v : EReal) - Ideal.div (0 + ∑ n, ∑ v, (s n v : EReal)) ((16384 : ℝ) : EReal)))
        ((16384 : ℝ) : EReal)
      = Ideal.div (0 + ∑ n, ∑ v, (s n v : EReal) * (s n v : EReal)) ((16384 : ℝ) : EReal)
          - Ideal.div (0 + ∑ n, ∑ v, (s n v : EReal)) ((16384 : ℝ) : EReal)
            * Ideal.div (0 + ∑ n, ∑ v, (s n v : EReal)) ((16384 : ℝ) : EReal) :=
  variance_grid_zero_add (fun n v => (s n v : EReal)) (fun n v => isReal_coe (s n v)) _ rfl

/-- The mean and both forms of the variance of real entries are real. -/
theorem mean_isReal (x : Fin 8 → Fin 2048 → EReal) (hx : ∀ n v, IsReal (x n v)) (N : EReal)
    (hN : N = ((16384 : ℝ) : EReal)) : IsReal (Ideal.div (∑ n, ∑ v, x n v) N) := by
  subst hN
  exact (IsReal.sum _ fun n => IsReal.sum _ fun v => hx n v).div_coe (by norm_num)

theorem meanSq_isReal (x : Fin 8 → Fin 2048 → EReal) (hx : ∀ n v, IsReal (x n v)) (N : EReal)
    (hN : N = ((16384 : ℝ) : EReal)) : IsReal (Ideal.div (∑ n, ∑ v, x n v * x n v) N) := by
  subst hN
  exact (IsReal.sum _ fun n => IsReal.sum _ fun v => (hx n v).mul (hx n v)).div_coe (by norm_num)

end Cert.Laws

end
-- ==== Proof.LawSpecReal.lean ====
/-
  Real inputs give real values all through the specification.

  Every function of the specification up to the row sums is built from finitely many sums and products, so on
  arrays whose entries are all real numbers its entries are real numbers too.
-/
import proofs.«100048_j70317204570386_2_alg».proof.Proof.Spec
import proofs.«100048_j70317204570386_2_alg».proof.Proof.LawReal
import proofs.«100048_j70317204570386_2_alg».proof.Proof.LawLayout

noncomputable section

namespace Cert.Laws

open Idealize.ShloMosaic Idealize.ShloMosaic.ValueIdx
open Cert.Spec
open scoped BigOperators

theorem chanMajor_isReal (x : SNodeFeat.Idx → EReal) (hx : ∀ i, IsReal (x i)) : ∀ j, IsReal (chanMajor x j) :=
  fun _ => hx _

theorem hop_isReal (a : SAdj.Idx → EReal) (h : SFeat.Idx → EReal) (ha : ∀ i, IsReal (a i))
    (hh : ∀ i, IsReal (h i)) : ∀ j, IsReal (hop a h j) :=
  fun _ => IsReal.sum _ fun _ => (hh _).mul (ha _)

theorem nodeHop_isReal (a : SAdj.Idx → EReal) (x : SNodeFeat.Idx → EReal) (ha : ∀ i, IsReal (a i))
    (hx : ∀ i, IsReal (x i)) : ∀ j, IsReal (nodeHop a x j) :=
  fun _ => IsReal.sum _ fun _ => (ha _).mul (hx _)

theorem mix_isReal (h : Fin 7 → SFeat.Idx → EReal) (W : SMat.Idx → EReal) (b : SCol.Idx → EReal)
    (hh : ∀ i j, IsReal (h i j)) (hW : ∀ i, IsReal (W i)) (hb : ∀ i, IsReal (b i)) : ∀ j, IsReal (mix h W b j) :=
  fun _ => (IsReal.sum _ fun _ => IsReal.sum _ fun _ => (hW _).mul (hh _ _)).add (hb _)

theorem rowSum_isReal (s : SMixed.Idx → EReal) (hs : ∀ i, IsReal (s i)) : ∀ j, IsReal (rowSum s j) :=
  fun _ => IsReal.sum _ fun _ => hs _

theorem rowSumSq_isReal (s : SMixed.Idx → EReal) (hs : ∀ i, IsReal (s i)) : ∀ j, IsReal (rowSumSq s j) :=
  fun _ => IsReal.sum _ fun _ => (hs _).mul (hs _)

/-- The concatenation of real slabs is real. -/
theorem cat7_isReal (p : Fin 7 → SNodeFeat.Idx → EReal) (hp : ∀ i j, IsReal (p i j)) : ∀ j, IsReal (cat7 p j) :=
  fun _ => hp _ _

/-- The seven channel-major slabs of the specification, from the node-major input and the three adjacencies:
    the input, and one and two steps along each adjacency. All real when the inputs are. -/
theorem slabs_isReal (x : SNodeFeat.Idx → EReal) (a0 a1 a2 : SAdj.Idx → EReal) (hx : ∀ i, IsReal (x i))
    (h0 : ∀ i, IsReal (a0 i)) (h1 : ∀ i, IsReal (a1 i)) (h2 : ∀ i, IsReal (a2 i)) :
    (∀ j, IsReal (chanMajor x j))
      ∧ (∀ j, IsReal (hop a0 (chanMajor x) j)) ∧ (∀ j, IsReal (hop a0 (hop a0 (chanMajor x)) j))
      ∧ (∀ j, IsReal (hop a1 (chanMajor x) j)) ∧ (∀ j, IsReal (hop a1 (hop a1 (chanMajor x)) j))
      ∧ (∀ j, IsReal (hop a2 (chanMajor x) j)) ∧ (∀ j, IsReal (hop a2 (hop a2 (chanMajor x)) j)) := by
  have c := chanMajor_isReal x hx
  exact ⟨c, hop_isReal a0 _ h0 c, hop_isReal a0 _ h0 (hop_isReal a0 _ h0 c),
    hop_isReal a1 _ h1 c, hop_isReal a1 _ h1 (hop_isReal a1 _ h1 c),
    hop_isReal a2 _ h2 c, hop_isReal a2 _ h2 (hop_isReal a2 _ h2 c)⟩

end Cert.Laws

end
-- ==== Proof.LawConsts.lean ====
/-
  The literal f32 words the two programs use around the variance, read as extended reals.

  0x46800000 is 2¹⁴ = 16384, the number of (n, v) pairs; 0x00000000 is 0; 0x3727C5AC is a positive real (the
  small constant added to the variance); 0x7F800000 is +∞. One program divides by 16384 − k with k the integer
  0 converted to a float, and selects the quotient only if that divisor is positive: it is 16384, and it is.
-/
import Idealize.ShloMosaic.PureOps.Ideal
import proofs.«100048_j70317204570386_2_alg».proof.Proof.LawReal
import proofs.«100048_j70317204570386_2_alg».proof.Proof.Spec

noncomputable section

namespace Cert.Laws

open Idealize.ShloMosaic

/-- The word 0x46800000 is 16384. -/
theorem ofBits_16384 : Ideal.ofBits .f32 0x46800000#32 = ((16384 : ℝ) : EReal) := by
  simp [Ideal.ofBits, Ideal.ieee]
  rw [← EReal.coe_mul]
  norm_num

/-- The word 0x00000000 is 0. -/
theorem ofBits_zero : Ideal.ofBits .f32 0x00000000#32 = (0 : EReal) := by
  simp [Ideal.ofBits, Ideal.ieee]

/-- The word 0x3727C5AC is a positive real number. -/
theorem ofBits_eps : ∃ r : ℝ, 0 < r ∧ Ideal.ofBits .f32 0x3727C5AC#32 = (r : EReal) := by
  refine ⟨_, ?_, by simp [Ideal.ofBits, Ideal.ieee]; rfl⟩
  positivity

/-- The word 0x3727C5AC is a real number. -/
theorem ofBits_eps_isReal : IsReal (Ideal.ofBits .f32 0x3727C5AC#32) := by
  obtain ⟨r, -, h⟩ := ofBits_eps
  exact ⟨r, h⟩

/-- The small constant added to the variance is a real number. -/
theorem eps_isReal : IsReal Cert.Spec.eps := ofBits_eps_isReal

/-- The small constant added to the variance is positive. -/
theorem eps_pos : 0 < Cert.Spec.eps := by
  obtain ⟨r, hr, h⟩ := ofBits_eps
  rw [Cert.Spec.eps, h]
  exact_mod_cast hr

/-- 16384 is a real number that is not zero. -/
theorem isReal_16384 : IsReal (Ideal.ofBits .f32 0x46800000#32) := ⟨16384, ofBits_16384⟩

end Cert.Laws

end
-- ==== Proof.Bridge.lean ====
/-
  The kernel's function of the arguments is the reference's, on real arguments.

  Entry (n, v, o) of both results is ((s − mean o) · rsqrt (var o + ε)) · scale o + shift o with the same scale, shift
  and ε. The mixed feature s is the same number in both: the kernel holds it channel-major and sums seven slabs of 32
  channels, the reference node-major with one sum over 224 channels, and a product's order and a finite sum's grouping
  are free on the extended reals. The means are the same sum of the same numbers divided by 16384. The kernel's
  variance is the mean of squares minus the squared mean, the reference's the mean squared deviation from the mean:
  equal when every s is a real number, which holds because s is a finite sum of products of real arguments.
-/
import proofs.«100048_j70317204570386_2_alg».proof.Proof.KChain
import proofs.«100048_j70317204570386_2_alg».proof.Proof.RefSpec
import proofs.«100048_j70317204570386_2_alg».proof.Proof.LawVariance
import proofs.«100048_j70317204570386_2_alg».proof.Proof.LawSpecReal
import proofs.«100048_j70317204570386_2_alg».proof.Proof.LawConsts

noncomputable section

namespace Cert.Bridge

open Idealize.ShloMosaic Idealize.ShloMosaic.ValueIdx
open Cert.Spec Cert.Laws Cert.RefSpec Cert.KernelIdeal.Chain Cert.KernelIdeal.Glue

variable (x : SNodeFeat.Idx → EReal) (a0 a1 a2 : SAdj.Idx → EReal) (w : SMat.Idx → EReal) (b g be : SVec.Idx → EReal)

/-- The seven channel-major slabs are the seven node-major pieces read channel-major. -/
theorem slabs_eq :
    slabs (chanMajor x) (hop a0 (chanMajor x)) (hop a0 (hop a0 (chanMajor x))) (hop a1 (chanMajor x)) (hop a1 (hop a1 (chanMajor x)))
        (hop a2 (chanMajor x)) (hop a2 (hop a2 (chanMajor x)))
      = fun i => chanMajor (pieces x a0 a1 a2 i) := by
  simp only [hop_chanMajor]
  funext i
  fin_cases i <;> rfl

/-- The mixed feature of sample n, channel o, node v is the same number in both arrangements. -/
theorem mixed_eq (n : Fin 8) (o : Fin 64) (v : Fin 2048) :
    mixedOf x a0 a1 a2 w b (ix3 n o v) = refMixed x a0 a1 a2 w b (ix3 n v o) := by
  unfold mixedOf
  rw [slabs_eq]
  exact mix_chanMajor (pieces x a0 a1 a2) w (column b) b (fun _ => rfl) n o v

/-- The means agree. -/
theorem mean_eq (o : Fin 64) (z : Fin 1) :
    colMean (rowSum (mixedOf x a0 a1 a2 w b)) (ix2 o z) = refMean (refMixed x a0 a1 a2 w b) (ix1 o) := by
  unfold colMean refMean Cert.KernelIdeal.Glue.count total
  rw [zero_add, ofBits_16384]
  refine congrArg (fun s => Ideal.div s _) ?_
  refine Finset.sum_congr rfl fun n _ => ?_
  show rowSum (mixedOf x a0 a1 a2 w b) (ix3 n o z) = ∑ v : Fin 2048, refMixed x a0 a1 a2 w b (ix3 n v o)
  unfold rowSum
  exact Finset.sum_congr rfl fun v _ => mixed_eq x a0 a1 a2 w b n o v

/-- The means of squares agree. -/
theorem meanSq_eq (o : Fin 64) (z : Fin 1) :
    colMean (rowSumSq (mixedOf x a0 a1 a2 w b)) (ix2 o z)
      = Ideal.div (∑ n : Fin 8, ∑ v : Fin 2048, refMixed x a0 a1 a2 w b (ix3 n v o) * refMixed x a0 a1 a2 w b (ix3 n v o)) total := by
  unfold colMean Cert.KernelIdeal.Glue.count total
  rw [zero_add, ofBits_16384]
  refine congrArg (fun s => Ideal.div s _) ?_
  refine Finset.sum_congr rfl fun n _ => ?_
  show rowSumSq (mixedOf x a0 a1 a2 w b) (ix3 n o z) = _
  unfold rowSumSq
  refine Finset.sum_congr rfl fun v _ => ?_
  show mixedOf x a0 a1 a2 w b (ix3 n o v) * mixedOf x a0 a1 a2 w b (ix3 n o v) = _
  rw [mixed_eq]

section real

variable (hx : ∀ i, IsReal (x i)) (h0 : ∀ i, IsReal (a0 i)) (h1 : ∀ i, IsReal (a1 i)) (h2 : ∀ i, IsReal (a2 i))
  (hw : ∀ i, IsReal (w i)) (hb : ∀ i, IsReal (b i))

include hx h0 h1 h2 in
/-- Every entry of every piece is real. -/
theorem pieces_isReal : ∀ i j, IsReal (pieces x a0 a1 a2 i j) := by
  intro i
  fin_cases i
  · exact hx
  · exact nodeHop_isReal a0 x h0 hx
  · exact nodeHop_isReal a0 _ h0 (nodeHop_isReal a0 x h0 hx)
  · exact nodeHop_isReal a1 x h1 hx
  · exact nodeHop_isReal a1 _ h1 (nodeHop_isReal a1 x h1 hx)
  · exact nodeHop_isReal a2 x h2 hx
  · exact nodeHop_isReal a2 _ h2 (nodeHop_isReal a2 x h2 hx)

include hx h0 h1 h2 hw hb in
/-- Every mixed feature is real. -/
theorem refMixed_isReal : ∀ j, IsReal (refMixed x a0 a1 a2 w b j) :=
  fun j => (IsReal.sum _ fun c => (cat7_isReal _ (pieces_isReal x a0 a1 a2 hx h0 h1 h2) _).mul (hw _)).add (hb _)

include hx h0 h1 h2 hw hb in
/-- The variances agree: the mean of squares minus the squared mean is the mean squared deviation, on real entries. -/
theorem var_eq (o : Fin 64) (z : Fin 1) :
    colVar (rowSum (mixedOf x a0 a1 a2 w b)) (rowSumSq (mixedOf x a0 a1 a2 w b)) (ix2 o z)
      = refVar (refMixed x a0 a1 a2 w b) (ix1 o) := by
  unfold colVar
  rw [mean_eq, meanSq_eq]
  exact (variance_grid (fun n v => refMixed x a0 a1 a2 w b (ix3 n v o))
    (fun n v => refMixed_isReal x a0 a1 a2 w b hx h0 h1 h2 hw hb _) total rfl).symm

include hx h0 h1 h2 hw hb in
/-- The two results are one function of the arguments. -/
theorem kernelValue_eq_refValue : kernelValue x a0 a1 a2 w b g be = refValue x a0 a1 a2 w b g be := by
  funext j
  obtain ⟨n, v, o, rfl⟩ : ∃ (n : Fin 8) (v : Fin 2048) (o : Fin 64), j = ix3 n v o := ⟨j 0, j 1, j 2, eq_ix3 j⟩
  show ((mixedOf x a0 a1 a2 w b (ix3 n o v) - colMean (rowSum (mixedOf x a0 a1 a2 w b)) (ix2 o (0 : Fin 1)))
        * Ideal.rsqrt (colVar (rowSum (mixedOf x a0 a1 a2 w b)) (rowSumSq (mixedOf x a0 a1 a2 w b)) (ix2 o (0 : Fin 1)) + eps)) * g (ix1 o)
      + be (ix1 o)
    = ((refMixed x a0 a1 a2 w b (ix3 n v o) - refMean (refMixed x a0 a1 a2 w b) (ix1 o))
        * Ideal.rsqrt (refVar (refMixed x a0 a1 a2 w b) (ix1 o) + eps)) * g (ix1 o)
      + be (ix1 o)
  rw [mixed_eq, mean_eq, var_eq x a0 a1 a2 w b hx h0 h1 h2 hw hb]

end real

end Cert.Bridge

end
-- ==== Proof.LawFinite.lean ====
/-
  From the precondition to "every input entry is a real number".

  The precondition is a printed predicate: for each of the eight argument arrays it compares |x| with the
  f32 word 0x7F800000 (which denotes +∞) entry by entry, takes the conjunction of all the comparisons of an
  array, and then the conjunction of the eight results; the claim assumes the result is 1. Read backwards:
  each array's conjunction is 1, so each comparison is 1, so |x| < +∞ at each entry; an extended real whose
  absolute value max x (−x) is below +∞ is neither +∞ nor −∞, hence a real number.
-/
import proofs.«100048_j70317204570386_2_alg».proof.Defs
import proofs.«100048_j70317204570386_2_alg».proof.Proof.LawReal
import Idealize.ShloMosaic.Lib.ReduceAll
import Idealize.ShloMosaic.Lib.ValueIdx

noncomputable section

namespace Cert.Laws

open Idealize.ShloMosaic Idealize.SL.Sem
open Cert.Pre_finite_inputs (S8x2048x32 S8x2048x2048 S64x224 S64 S_)

/-- The shape with no axes has one index. -/
instance subsingleton_S_Idx : Subsingleton S_.Idx := ⟨fun a b => funext fun d => d.elim0⟩

/-- The f32 word 0x7F800000 denotes +∞. -/
theorem ofBits_inf : Ideal.ofBits .f32 0x7F800000#32 = (⊤ : EReal) := by
  simp [Ideal.ofBits, Ideal.ieee]

/-- A truth value printed as a one-bit word is 1 exactly when it is true. -/
theorem ofBool_eq_one (b : Bool) : BitVec.ofBool b = 1#1 ↔ b = true := by cases b <;> decide

/-- An extended real whose absolute value is below +∞ is a real number. -/
theorem isReal_of_abs_lt_top (x : EReal) (h : max x (-x) < ⊤) : IsReal x := by
  induction x using EReal.rec with
  | bot => simp at h
  | coe r => exact isReal_coe r
  | top => simp at h

/-- The comparison the predicate prints, at one entry: |x| < the word 0x7F800000 is 1 only at a real x. -/
theorem isReal_of_cmp (x : EReal)
    (h : FloatOps.cmpf (F := Ideal) (φ := .f32) .olt (FloatOps.hostAbsf (F := Ideal) (φ := .f32) x)
      (FloatOps.ofBits (F := Ideal) .f32 0x7F800000#32) = 1#1) : IsReal x := by
  refine isReal_of_abs_lt_top x ?_
  have h' : BitVec.ofBool (decide (max x (-x) < Ideal.ofBits .f32 0x7F800000#32)) = 1#1 := h
  rw [ofBool_eq_one, decide_eq_true_eq, ofBits_inf] at h'
  exact h'

/-- One array: if the conjunction over all entries of |x| < +∞ is 1, every entry is a real number. -/
theorem all_real {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
      (cmpf .olt (Host.absf x) (broadcastInDim s ![] hb (constant (F := Ideal) S_ .f32 0x7F800000#32)))
      (constantI S_ 1 1#1) hr h0 ValueIdx.ix0 = 1#1) :
    ∀ i, IsReal (x i) := fun i =>
  isReal_of_cmp (x i) (Host.reduce_andi_all _ _ hr h0 ValueIdx.ix0 e i)

/-- The precondition read back over eight arbitrary arrays: if the printed predicate is 1, every entry of every
    array is a real number. -/
theorem inputs_real [hPre_finite_inputs : Cert.Pre_finite_inputs.Facts]
    (x : FVec Ideal S8x2048x32 .f32) (A0 A1 A2 : FVec Ideal S8x2048x2048 .f32) (W : FVec Ideal S64x224 .f32)
    (b g be : FVec Ideal S64 .f32)
    (h : Cert.Pre_finite_inputs.fn (F := Ideal) x A0 A1 A2 W b g be = fun _ => 1#1) :
    (∀ i, IsReal (x i)) ∧ (∀ i, IsReal (A0 i)) ∧ (∀ i, IsReal (A1 i)) ∧ (∀ i, IsReal (A2 i))
      ∧ (∀ i, IsReal (W i)) ∧ (∀ i, IsReal (b i)) ∧ (∀ i, IsReal (g i)) ∧ (∀ i, IsReal (be i)) := by
  have e := congrFun h ValueIdx.ix0
  dsimp only [Cert.Pre_finite_inputs.fn, Cert.Pre_finite_inputs.fn_part1, Cert.Pre_finite_inputs.fn_part2, andi] at e
  simp only [IntOp.andi_eq_one] at e
  obtain ⟨⟨⟨⟨⟨⟨⟨e0, e1⟩, e2⟩, e3⟩, e4⟩, e5⟩, e6⟩, e7⟩ := e
  exact ⟨all_real x _ _ _ e0, all_real A0 _ _ _ e1, all_real A1 _ _ _ e2, all_real A2 _ _ _ e3,
    all_real W _ _ _ e4, all_real b _ _ _ e5, all_real g _ _ _ e6, all_real be _ _ _ e7⟩

/-- The precondition of `KernelIdeal` read back: on every device, every entry of each of the eight argument arrays
    in the initial memory is a real number. -/
theorem kernel_inputs_real [hPre_finite_inputs : Cert.Pre_finite_inputs.Facts]
    (m : (ℓ : Loc Cert.KernelIdeal.nD Cert.KernelIdeal.τ Cert.KernelIdeal.sig) → Buf (Elt Ideal) ℓ)
    (hm : Cert.Pre_KernelIdeal m) (c : Dev Cert.KernelIdeal.nD) :
    (∀ i : S8x2048x32.Idx, IsReal (m ((c.tc : Thread Cert.KernelIdeal.nD Cert.KernelIdeal.τ).loc Cert.KernelIdeal.main_arg0) i))
      ∧ (∀ i : S8x2048x2048.Idx, IsReal (m ((c.tc : Thread Cert.KernelIdeal.nD Cert.KernelIdeal.τ).loc Cert.KernelIdeal.main_arg1) i))
      ∧ (∀ i : S8x2048x2048.Idx, IsReal (m ((c.tc : Thread Cert.KernelIdeal.nD Cert.KernelIdeal.τ).loc Cert.KernelIdeal.main_arg2) i))
      ∧ (∀ i : S8x2048x2048.Idx, IsReal (m ((c.tc : Thread Cert.KernelIdeal.nD Cert.KernelIdeal.τ).loc Cert.KernelIdeal.main_arg3) i))
      ∧ (∀ i : S64x224.Idx, IsReal (m ((c.tc : Thread Cert.KernelIdeal.nD Cert.KernelIdeal.τ).loc Cert.KernelIdeal.main_arg4) i))
      ∧ (∀ i : S64.Idx, IsReal (m ((c.tc : Thread Cert.KernelIdeal.nD Cert.KernelIdeal.τ).loc Cert.KernelIdeal.main_arg5) i))
      ∧ (∀ i : S64.Idx, IsReal (m ((c.tc : Thread Cert.KernelIdeal.nD Cert.KernelIdeal.τ).loc Cert.KernelIdeal.main_arg6) i))
      ∧ (∀ i : S64.Idx, IsReal (m ((c.tc : Thread Cert.KernelIdeal.nD Cert.KernelIdeal.τ).loc Cert.KernelIdeal.main_arg7) i)) :=
  inputs_real _ _ _ _ _ _ _ _ (hm c)

/-- The precondition of `ReferenceIdeal` read back: on every device, every entry of each of the eight argument arrays
    in the initial memory is a real number. -/
theorem reference_inputs_real [hPre_finite_inputs : Cert.Pre_finite_inputs.Facts]
    (m : (ℓ : Loc Cert.ReferenceIdeal.nD Cert.ReferenceIdeal.τ Cert.ReferenceIdeal.sig) → Buf (Elt Ideal) ℓ)
    (hm : Cert.Pre_ReferenceIdeal m) (c : Dev Cert.ReferenceIdeal.nD) :
    (∀ i : S8x2048x32.Idx, IsReal (m ((c.tc : Thread Cert.ReferenceIdeal.nD Cert.ReferenceIdeal.τ).loc Cert.ReferenceIdeal.main_arg0) i))
      ∧ (∀ i : S8x2048x2048.Idx, IsReal (m ((c.tc : Thread Cert.ReferenceIdeal.nD Cert.ReferenceIdeal.τ).loc Cert.ReferenceIdeal.main_arg1) i))
      ∧ (∀ i : S8x2048x2048.Idx, IsReal (m ((c.tc : Thread Cert.ReferenceIdeal.nD Cert.ReferenceIdeal.τ).loc Cert.ReferenceIdeal.main_arg2) i))
      ∧ (∀ i : S8x2048x2048.Idx, IsReal (m ((c.tc : Thread Cert.ReferenceIdeal.nD Cert.ReferenceIdeal.τ).loc Cert.ReferenceIdeal.main_arg3) i))
      ∧ (∀ i : S64x224.Idx, IsReal (m ((c.tc : Thread Cert.ReferenceIdeal.nD Cert.ReferenceIdeal.τ).loc Cert.ReferenceIdeal.main_arg4) i))
      ∧ (∀ i : S64.Idx, IsReal (m ((c.tc : Thread Cert.ReferenceIdeal.nD Cert.ReferenceIdeal.τ).loc Cert.ReferenceIdeal.main_arg5) i))
      ∧ (∀ i : S64.Idx, IsReal (m ((c.tc : Thread Cert.ReferenceIdeal.nD Cert.ReferenceIdeal.τ).loc Cert.ReferenceIdeal.main_arg6) i))
      ∧ (∀ i : S64.Idx, IsReal (m ((c.tc : Thread Cert.ReferenceIdeal.nD Cert.ReferenceIdeal.τ).loc Cert.ReferenceIdeal.main_arg7) i)) :=
  inputs_real _ _ _ _ _ _ _ _ (hm c)

end Cert.Laws

end
-- ==== Proof.RefRunOps.lean ====
/-
  The reference program as a straight line of its fifty-five operations.

  The main function calls the outlined variance function, which calls the outlined selection function. A call executes
  the callee's body on the operands, each value of the body in a buffer of its own: the main function is therefore the
  line of its own seventeen operations before the call, the nineteen of the variance function over the call's buffers,
  the three of the selection function over the nested call's buffers, and its own sixteen after the call. Every weakly
  fair execution of it terminates with each buffer at the fold of the operations' results over the launch contents.
-/
import proofs.«100048_j70317204570386_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The operations in program order, the two calls unfolded at their call sites over the calls' buffer records. -/
abbrev ops : List (HloOp τ sig (Elt F)) :=
  [ binary main_arg1 main_arg0 main_v0 ((fun l r => Host.dotGeneral dot_S8x2048x2048_S8x2048x32_S8x2048x32_1_1_2_2_0_0 none l r) : (⟨S8x2048x2048, .f32⟩ : BufTy).Contents (Elt F) → (⟨S8x2048x32, .f32⟩ : BufTy).Contents (Elt F) → (⟨S8x2048x32, .f32⟩ : BufTy).Contents (Elt F)),
    binary main_arg1 main_v0 main_v1 ((fun l r => Host.dotGeneral dot_S8x2048x2048_S8x2048x32_S8x2048x32_1_1_2_2_0_0 none l r) : (⟨S8x2048x2048, .f32⟩ : BufTy).Contents (Elt F) → (⟨S8x2048x32, .f32⟩ : BufTy).Contents (Elt F) → (⟨S8x2048x32, .f32⟩ : BufTy).Contents (Elt F)),
    binary main_arg2 main_arg0 main_v2 ((fun l r => Host.dotGeneral dot_S8x2048x2048_S8x2048x32_S8x2048x32_1_1_2_2_0_0 none l r) : (⟨S8x2048x2048, .f32⟩ : BufTy).Contents (Elt F) → (⟨S8x2048x32, .f32⟩ : BufTy).Contents (Elt F) → (⟨S8x2048x32, .f32⟩ : BufTy).Contents (Elt F)),
    binary main_arg2 main_v2 main_v3 ((fun l r => Host.dotGeneral dot_S8x2048x2048_S8x2048x32_S8x2048x32_1_1_2_2_0_0 none l r) : (⟨S8x2048x2048, .f32⟩ : BufTy).Contents (Elt F) → (⟨S8x2048x32, .f32⟩ : BufTy).Contents (Elt F) → (⟨S8x2048x32, .f32⟩ : BufTy).Contents (Elt F)),
    binary main_arg3 main_arg0 main_v4 ((fun l r => Host.dotGeneral dot_S8x2048x2048_S8x2048x32_S8x2048x32_1_1_2_2_0_0 none l r) : (⟨S8x2048x2048, .f32⟩ : BufTy).Contents (Elt F) → (⟨S8x2048x32, .f32⟩ : BufTy).Contents (Elt F) → (⟨S8x2048x32, .f32⟩ : BufTy).Contents (Elt F)),
    binary main_arg3 main_v4 main_v5 ((fun l r => Host.dotGeneral dot_S8x2048x2048_S8x2048x32_S8x2048x32_1_1_2_2_0_0 none l r) : (⟨S8x2048x2048, .f32⟩ : BufTy).Contents (Elt F) → (⟨S8x2048x32, .f32⟩ : BufTy).Contents (Elt F) → (⟨S8x2048x32, .f32⟩ : BufTy).Contents (Elt F)),
    nary ![main_arg0, main_v0, main_v1, main_v2, main_v3, main_v4, main_v5] main_v6 (fun u => concatenate S8x2048x224 2 [⟨S8x2048x32, u 0⟩, ⟨S8x2048x32, u 1⟩, ⟨S8x2048x32, u 2⟩, ⟨S8x2048x32, u 3⟩, ⟨S8x2048x32, u 4⟩, ⟨S8x2048x32, u 5⟩, ⟨S8x2048x32, u 6⟩] concatenates_S8x2048x32_S8x2048x32_S8x2048x32_S8x2048x32_S8x2048x32_S8x2048x32_S8x2048x32_S8x2048x224_d2),
    binary main_v6 main_arg4 main_v7 ((fun l r => Host.dotGeneral dot_S8x2048x224_S64x224_S8x2048x64_2_1_01_0_n_n none l r) : (⟨S8x2048x224, .f32⟩ : BufTy).Contents (Elt F) → (⟨S64x224, .f32⟩ : BufTy).Contents (Elt F) → (⟨S8x2048x64, .f32⟩ : BufTy).Contents (Elt F)),
    unary main_arg5 main_v8 (broadcastInDim S1x1x64 ![2] bcast_S64_S1x1x64_2 : (⟨S64, .f32⟩ : BufTy).Contents (Elt F) → (⟨S1x1x64, .f32⟩ : BufTy).Contents (Elt F)),
    unary main_v8 main_v9 (broadcastInDim S8x2048x64 ![0, 1, 2] bcast_S1x1x64_S8x2048x64_0_1_2 : (⟨S1x1x64, .f32⟩ : BufTy).Contents (Elt F) → (⟨S8x2048x64, .f32⟩ : BufTy).Contents (Elt F)),
    binary main_v7 main_v9 main_v10 (addf : (⟨S8x2048x64, .f32⟩ : BufTy).Contents (Elt F) → (⟨S8x2048x64, .f32⟩ : BufTy).Contents (Elt F) → (⟨S8x2048x64, .f32⟩ : BufTy).Contents (Elt F)),
    nullary main_cst (constant S_ .f32 0x00000000#32),
    binary main_v10 main_cst main_v11 ((fun x v => Host.reduceAdd x v reducesTo_S8x2048x64_S64_d0_1 h_S_) : (⟨S8x2048x64, .f32⟩ : BufTy).Contents (Elt F) → (⟨S_, .f32⟩ : BufTy).Contents (Elt F) → (⟨S64, .f32⟩ : BufTy).Contents (Elt F)),
    nullary main_cst_0 (constant S_ .f32 0x46800000#32),
    unary main_cst_0 main_v12 (broadcastInDim S64 ![] bcast_S_S64 : (⟨S_, .f32⟩ : BufTy).Contents (Elt F) → (⟨S64, .f32⟩ : BufTy).Contents (Elt F)),
    binary main_v11 main_v12 main_v13 (Host.divf : (⟨S64, .f32⟩ : BufTy).Contents (Elt F) → (⟨S64, .f32⟩ : BufTy).Contents (Elt F) → (⟨S64, .f32⟩ : BufTy).Contents (Elt F)),
    nullary main_c (constantI S_ 32 0#32),
    TRef.nullary main_call0.cst (constant S_ .f32 0x00000000#32),
    TRef.binary (.of main_v10 : TRef sig ⟨S8x2048x64, .f32⟩) main_call0.cst main_call0.v0 (fun x v => Host.reduceAdd x v reducesTo_S8x2048x64_S64_d0_1 h_S_),
    TRef.unary main_call0.v0 main_call0.v1 (broadcastInDim S1x1x64 ![2] bcast_S64_S1x1x64_2),
    TRef.nullary main_call0.cst_0 (constant S_ .f32 0x46800000#32),
    TRef.unary main_call0.cst_0 main_call0.v2 (broadcastInDim S1x1x64 ![] bcast_S_S1x1x64),
    TRef.binary main_call0.v1 main_call0.v2 main_call0.v3 Host.divf,
    TRef.unary main_call0.v3 main_call0.v4 (broadcastInDim S8x2048x64 ![0, 1, 2] bcast_S1x1x64_S8x2048x64_0_1_2),
    TRef.binary (.of main_v10 : TRef sig ⟨S8x2048x64, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x46800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8x2048x64_S64_d0_1 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v13 main_v15 (broadcastInDim S1x1x64 ![2] bcast_S64_S1x1x64_2 : (⟨S64, .f32⟩ : BufTy).Contents (Elt F) → (⟨S1x1x64, .f32⟩ : BufTy).Contents (Elt F)),
    unary main_v15 main_v16 (broadcastInDim S8x2048x64 ![0, 1, 2] bcast_S1x1x64_S8x2048x64_0_1_2 : (⟨S1x1x64, .f32⟩ : BufTy).Contents (Elt F) → (⟨S8x2048x64, .f32⟩ : BufTy).Contents (Elt F)),
    binary main_v10 main_v16 main_v17 (subf : (⟨S8x2048x64, .f32⟩ : BufTy).Contents (Elt F) → (⟨S8x2048x64, .f32⟩ : BufTy).Contents (Elt F) → (⟨S8x2048x64, .f32⟩ : BufTy).Contents (Elt F)),
    nullary main_cst_1 (constant S_ .f32 0x3727C5AC#32),
    unary main_cst_1 main_v18 (broadcastInDim S64 ![] bcast_S_S64 : (⟨S_, .f32⟩ : BufTy).Contents (Elt F) → (⟨S64, .f32⟩ : BufTy).Contents (Elt F)),
    binary main_v14 main_v18 main_v19 (addf : (⟨S64, .f32⟩ : BufTy).Contents (Elt F) → (⟨S64, .f32⟩ : BufTy).Contents (Elt F) → (⟨S64, .f32⟩ : BufTy).Contents (Elt F)),
    unary main_v19 main_v20 (Host.rsqrt : (⟨S64, .f32⟩ : BufTy).Contents (Elt F) → (⟨S64, .f32⟩ : BufTy).Contents (Elt F)),
    unary main_v20 main_v21 (broadcastInDim S1x1x64 ![2] bcast_S64_S1x1x64_2 : (⟨S64, .f32⟩ : BufTy).Contents (Elt F) → (⟨S1x1x64, .f32⟩ : BufTy).Contents (Elt F)),
    unary main_v21 main_v22 (broadcastInDim S8x2048x64 ![0, 1, 2] bcast_S1x1x64_S8x2048x64_0_1_2 : (⟨S1x1x64, .f32⟩ : BufTy).Contents (Elt F) → (⟨S8x2048x64, .f32⟩ : BufTy).Contents (Elt F)),
    binary main_v17 main_v22 main_v23 (mulf : (⟨S8x2048x64, .f32⟩ : BufTy).Contents (Elt F) → (⟨S8x2048x64, .f32⟩ : BufTy).Contents (Elt F) → (⟨S8x2048x64, .f32⟩ : BufTy).Contents (Elt F)),
    unary main_arg6 main_v24 (broadcastInDim S1x1x64 ![2] bcast_S64_S1x1x64_2 : (⟨S64, .f32⟩ : BufTy).Contents (Elt F) → (⟨S1x1x64, .f32⟩ : BufTy).Contents (Elt F)),
    unary main_v24 main_v25 (broadcastInDim S8x2048x64 ![0, 1, 2] bcast_S1x1x64_S8x2048x64_0_1_2 : (⟨S1x1x64, .f32⟩ : BufTy).Contents (Elt F) → (⟨S8x2048x64, .f32⟩ : BufTy).Contents (Elt F)),
    binary main_v23 main_v25 main_v26 (mulf : (⟨S8x2048x64, .f32⟩ : BufTy).Contents (Elt F) → (⟨S8x2048x64, .f32⟩ : BufTy).Contents (Elt F) → (⟨S8x2048x64, .f32⟩ : BufTy).Contents (Elt F)),
    unary main_arg7 main_v27 (broadcastInDim S1x1x64 ![2] bcast_S64_S1x1x64_2 : (⟨S64, .f32⟩ : BufTy).Contents (Elt F) → (⟨S1x1x64, .f32⟩ : BufTy).Contents (Elt F)),
    unary main_v27 main_v28 (broadcastInDim S8x2048x64 ![0, 1, 2] bcast_S1x1x64_S8x2048x64_0_1_2 : (⟨S1x1x64, .f32⟩ : BufTy).Contents (Elt F) → (⟨S8x2048x64, .f32⟩ : BufTy).Contents (Elt F)),
    binary main_v26 main_v28 main_v29 (addf : (⟨S8x2048x64, .f32⟩ : BufTy).Contents (Elt F) → (⟨S8x2048x64, .f32⟩ : BufTy).Contents (Elt F) → (⟨S8x2048x64, .f32⟩ : BufTy).Contents (Elt F)) ]

-- fifty-five binds re-associated: the rewrite under the chain recurses once per statement
set_option maxRecDepth 4096 in
/-- The main function is that straight line: the callees' definitions unfolded at their calls, both sides are one chain
    of operation steps once sequencing is re-associated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., binary_bufs_sub .., binary_bufs_sub .., binary_bufs_sub .., binary_bufs_sub .., nary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

/-- From any memory with zero counters every weakly fair execution of the main function terminates, and every final
    state has each buffer at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefRunStages.lean ====
/-
  The reference program's operations as pure functions, one per operation, and their composition.

  Each stage is the operation printed for one tensor value of the reference, applied to variables standing for its
  operands' contents, at the ideal instance (a float an extended real). The composites name the shared values: the
  concatenated slabs, the mixed features s, their mean over the 16384 positions, their variance E[(s - E s)^2] as the
  outlined variance function computes it, and the normalised output.
-/
import proofs.«100048_j70317204570386_2_alg».proof.Proof.Gen.ReferenceIdeal
import Idealize.ShloMosaic.PureOps.Ideal

noncomputable section

namespace Cert.ReferenceIdeal.HandRun

open Cert.ReferenceIdeal Cert.ReferenceIdeal.Gen Idealize.ShloMosaic

/-! ## The main function's operations, before the call -/

/-- One hop: the batched product of an adjacency matrix with a feature slab. -/
def stage_v0 (a : FVec Ideal S8x2048x2048 .f32) (x : FVec Ideal S8x2048x32 .f32) : FVec Ideal S8x2048x32 .f32 :=
  Host.dotGeneral (F := Ideal) dot_S8x2048x2048_S8x2048x32_S8x2048x32_1_1_2_2_0_0 none a x
def stage_v1 (a : FVec Ideal S8x2048x2048 .f32) (x : FVec Ideal S8x2048x32 .f32) : FVec Ideal S8x2048x32 .f32 :=
  Host.dotGeneral (F := Ideal) dot_S8x2048x2048_S8x2048x32_S8x2048x32_1_1_2_2_0_0 none a x
def stage_v2 (a : FVec Ideal S8x2048x2048 .f32) (x : FVec Ideal S8x2048x32 .f32) : FVec Ideal S8x2048x32 .f32 :=
  Host.dotGeneral (F := Ideal) dot_S8x2048x2048_S8x2048x32_S8x2048x32_1_1_2_2_0_0 none a x
def stage_v3 (a : FVec Ideal S8x2048x2048 .f32) (x : FVec Ideal S8x2048x32 .f32) : FVec Ideal S8x2048x32 .f32 :=
  Host.dotGeneral (F := Ideal) dot_S8x2048x2048_S8x2048x32_S8x2048x32_1_1_2_2_0_0 none a x
def stage_v4 (a : FVec Ideal S8x2048x2048 .f32) (x : FVec Ideal S8x2048x32 .f32) : FVec Ideal S8x2048x32 .f32 :=
  Host.dotGeneral (F := Ideal) dot_S8x2048x2048_S8x2048x32_S8x2048x32_1_1_2_2_0_0 none a x
def stage_v5 (a : FVec Ideal S8x2048x2048 .f32) (x : FVec Ideal S8x2048x32 .f32) : FVec Ideal S8x2048x32 .f32 :=
  Host.dotGeneral (F := Ideal) dot_S8x2048x2048_S8x2048x32_S8x2048x32_1_1_2_2_0_0 none a x

/-- The seven slabs side by side along the feature axis. -/
def stage_v6 (u0 u1 u2 u3 u4 u5 u6 : FVec Ideal S8x2048x32 .f32) : FVec Ideal S8x2048x224 .f32 :=
  concatenate S8x2048x224 2 [⟨S8x2048x32, u0⟩, ⟨S8x2048x32, u1⟩, ⟨S8x2048x32, u2⟩, ⟨S8x2048x32, u3⟩, ⟨S8x2048x32, u4⟩, ⟨S8x2048x32, u5⟩, ⟨S8x2048x32, u6⟩] concatenates_S8x2048x32_S8x2048x32_S8x2048x32_S8x2048x32_S8x2048x32_S8x2048x32_S8x2048x32_S8x2048x224_d2

/-- The mix: the 224 concatenated features against the weight matrix. -/
def stage_v7 (l : FVec Ideal S8x2048x224 .f32) (w : FVec Ideal S64x224 .f32) : FVec Ideal S8x2048x64 .f32 :=
  Host.dotGeneral (F := Ideal) dot_S8x2048x224_S64x224_S8x2048x64_2_1_01_0_n_n none l w
def stage_v8 (b : FVec Ideal S64 .f32) : FVec Ideal S1x1x64 .f32 :=
  broadcastInDim S1x1x64 ![2] bcast_S64_S1x1x64_2 b
def stage_v9 (b : FVec Ideal S1x1x64 .f32) : FVec Ideal S8x2048x64 .f32 :=
  broadcastInDim S8x2048x64 ![0, 1, 2] bcast_S1x1x64_S8x2048x64_0_1_2 b
def stage_v10 (p q : FVec Ideal S8x2048x64 .f32) : FVec Ideal S8x2048x64 .f32 :=
  addf p q
def stage_cst : FVec Ideal S_ .f32 :=
  constant (F := Ideal) S_ .f32 0x00000000#32
def stage_v11 (s : FVec Ideal S8x2048x64 .f32) (z : FVec Ideal S_ .f32) : FVec Ideal S64 .f32 :=
  Host.reduceAdd (F := Ideal) s z reducesTo_S8x2048x64_S64_d0_1 h_S_
def stage_cst_0 : FVec Ideal S_ .f32 :=
  constant (F := Ideal) S_ .f32 0x46800000#32
def stage_v12 (k : FVec Ideal S_ .f32) : FVec Ideal S64 .f32 :=
  broadcastInDim S64 ![] bcast_S_S64 k
def stage_v13 (p q : FVec Ideal S64 .f32) : FVec Ideal S64 .f32 :=
  Host.divf (F := Ideal) p q
def stage_c : IVec S_ 32 :=
  constantI S_ 32 0#32

/-! ## The outlined variance function's operations -/

def stage_call0_cst : FVec Ideal S_ .f32 :=
  constant (F := Ideal) S_ .f32 0x00000000#32
def stage_call0_v0 (s : FVec Ideal S8x2048x64 .f32) (z : FVec Ideal S_ .f32) : FVec Ideal S64 .f32 :=
  Host.reduceAdd (F := Ideal) s z reducesTo_S8x2048x64_S64_d0_1 h_S_
def stage_call0_v1 (t : FVec Ideal S64 .f32) : FVec Ideal S1x1x64 .f32 :=
  broadcastInDim S1x1x64 ![2] bcast_S64_S1x1x64_2 t
def stage_call0_cst_0 : FVec Ideal S_ .f32 :=
  constant (F := Ideal) S_ .f32 0x46800000#32
def stage_call0_v2 (k : FVec Ideal S_ .f32) : FVec Ideal S1x1x64 .f32 :=
  broadcastInDim S1x1x64 ![] bcast_S_S1x1x64 k
def stage_call0_v3 (p q : FVec Ideal S1x1x64 .f32) : FVec Ideal S1x1x64 .f32 :=
  Host.divf (F := Ideal) p q
def stage_call0_v4 (t : FVec Ideal S1x1x64 .f32) : FVec Ideal S8x2048x64 .f32 :=
  broadcastInDim S8x2048x64 ![0, 1, 2] bcast_S1x1x64_S8x2048x64_0_1_2 t
def stage_call0_v5 (s t : FVec Ideal S8x2048x64 .f32) : FVec Ideal S8x2048x64 .f32 :=
  subf s t
/-- The square of the centred value: the product of the value with itself. -/
def stage_call0_v6 (d : FVec Ideal S8x2048x64 .f32) : FVec Ideal S8x2048x64 .f32 :=
  mulf d d
def stage_call0_v7 (c : IVec S_ 32) : FVec Ideal S_ .f32 :=
  sitofp (F := Ideal) .f32 c
def stage_call0_cst_1 : FVec Ideal S_ .f32 :=
  constant (F := Ideal) S_ .f32 0x46800000#32
def stage_call0_v8 (k d : FVec Ideal S_ .f32) : FVec Ideal S_ .f32 :=
  subf k d
def stage_call0_cst_2 : FVec Ideal S_ .f32 :=
  constant (F := Ideal) S_ .f32 0x00000000#32
def stage_call0_v9 (q : FVec Ideal S8x2048x64 .f32) (z : FVec Ideal S_ .f32) : FVec Ideal S64 .f32 :=
  Host.reduceAdd (F := Ideal) q z reducesTo_S8x2048x64_S64_d0_1 h_S_
def stage_call0_v10 (k : FVec Ideal S_ .f32) : FVec Ideal S64 .f32 :=
  broadcastInDim S64 ![] bcast_S_S64 k
def stage_call0_v11 (p q : FVec Ideal S64 .f32) : FVec Ideal S64 .f32 :=
  Host.divf (F := Ideal) p q
def stage_call0_cst_3 : FVec Ideal S_ .f32 :=
  constant (F := Ideal) S_ .f32 0x00000000#32
def stage_call0_v12 (k z : FVec Ideal S_ .f32) : IVec S_ 1 :=
  cmpf (F := Ideal) .ogt k z
def stage_call0_cst_4 : FVec Ideal S_ .f32 :=
  constant (F := Ideal) S_ .f32 0x7FC00000#32

/-! ## The outlined selection function's operations -/

def stage_call0_call0_v0 (k : FVec Ideal S_ .f32) : FVec Ideal S_ .f32 :=
  id k
def stage_call0_call0_v1 (k : FVec Ideal S_ .f32) : FVec Ideal S64 .f32 :=
  broadcastInDim S64 ![] bcast_S_S64 k
/-- The selection's result, which is the variance function's and the call's. -/
def stage_v14 (p : IVec S_ 1) (a b : FVec Ideal S64 .f32) : FVec Ideal S64 .f32 :=
  select (broadcastInDim S64 ![] bcast_S_S64 p) a b

/-! ## The main function's operations, after the call -/

def stage_v15 (t : FVec Ideal S64 .f32) : FVec Ideal S1x1x64 .f32 :=
  broadcastInDim S1x1x64 ![2] bcast_S64_S1x1x64_2 t
def stage_v16 (t : FVec Ideal S1x1x64 .f32) : FVec Ideal S8x2048x64 .f32 :=
  broadcastInDim S8x2048x64 ![0, 1, 2] bcast_S1x1x64_S8x2048x64_0_1_2 t
def stage_v17 (s t : FVec Ideal S8x2048x64 .f32) : FVec Ideal S8x2048x64 .f32 :=
  subf s t
def stage_cst_1 : FVec Ideal S_ .f32 :=
  constant (F := Ideal) S_ .f32 0x3727C5AC#32
def stage_v18 (k : FVec Ideal S_ .f32) : FVec Ideal S64 .f32 :=
  broadcastInDim S64 ![] bcast_S_S64 k
def stage_v19 (p q : FVec Ideal S64 .f32) : FVec Ideal S64 .f32 :=
  addf p q
def stage_v20 (t : FVec Ideal S64 .f32) : FVec Ideal S64 .f32 :=
  Host.rsqrt (F := Ideal) t
def stage_v21 (t : FVec Ideal S64 .f32) : FVec Ideal S1x1x64 .f32 :=
  broadcastInDim S1x1x64 ![2] bcast_S64_S1x1x64_2 t
def stage_v22 (t : FVec Ideal S1x1x64 .f32) : FVec Ideal S8x2048x64 .f32 :=
  broadcastInDim S8x2048x64 ![0, 1, 2] bcast_S1x1x64_S8x2048x64_0_1_2 t
def stage_v23 (p q : FVec Ideal S8x2048x64 .f32) : FVec Ideal S8x2048x64 .f32 :=
  mulf p q
def stage_v24 (t : FVec Ideal S64 .f32) : FVec Ideal S1x1x64 .f32 :=
  broadcastInDim S1x1x64 ![2] bcast_S64_S1x1x64_2 t
def stage_v25 (t : FVec Ideal S1x1x64 .f32) : FVec Ideal S8x2048x64 .f32 :=
  broadcastInDim S8x2048x64 ![0, 1, 2] bcast_S1x1x64_S8x2048x64_0_1_2 t
def stage_v26 (p q : FVec Ideal S8x2048x64 .f32) : FVec Ideal S8x2048x64 .f32 :=
  mulf p q
def stage_v27 (t : FVec Ideal S64 .f32) : FVec Ideal S1x1x64 .f32 :=
  broadcastInDim S1x1x64 ![2] bcast_S64_S1x1x64_2 t
def stage_v28 (t : FVec Ideal S1x1x64 .f32) : FVec Ideal S8x2048x64 .f32 :=
  broadcastInDim S8x2048x64 ![0, 1, 2] bcast_S1x1x64_S8x2048x64_0_1_2 t
def stage_v29 (p q : FVec Ideal S8x2048x64 .f32) : FVec Ideal S8x2048x64 .f32 :=
  addf p q

/-! ## The composition, in program order -/

/-- The seven slabs x, A0 x, A0 A0 x, A1 x, A1 A1 x, A2 x, A2 A2 x, concatenated. -/
def res_v6 (x : FVec Ideal S8x2048x32 .f32) (A0 A1 A2 : FVec Ideal S8x2048x2048 .f32) : FVec Ideal S8x2048x224 .f32 :=
  stage_v6 x (stage_v0 A0 x) (stage_v1 A0 (stage_v0 A0 x)) (stage_v2 A1 x) (stage_v3 A1 (stage_v2 A1 x))
    (stage_v4 A2 x) (stage_v5 A2 (stage_v4 A2 x))

/-- The mixed features s = W · cat + b. -/
def res_v10 (x : FVec Ideal S8x2048x32 .f32) (A0 A1 A2 : FVec Ideal S8x2048x2048 .f32) (W : FVec Ideal S64x224 .f32)
    (b : FVec Ideal S64 .f32) : FVec Ideal S8x2048x64 .f32 :=
  stage_v10 (stage_v7 (res_v6 x A0 A1 A2) W) (stage_v9 (stage_v8 b))

/-- The mean of s over the 16384 positions: the sum divided by 16384. -/
def res_v13 (s : FVec Ideal S8x2048x64 .f32) : FVec Ideal S64 .f32 :=
  stage_v13 (stage_v11 s stage_cst) (stage_v12 stage_cst_0)

/-- The divisor 16384 - 0 of the variance, as the outlined function forms it. -/
def res_call0_v8 : FVec Ideal S_ .f32 :=
  stage_call0_v8 stage_call0_cst_1 (stage_call0_v7 stage_c)

/-- The centred features s - E s, the mean recomputed inside the outlined function. -/
def res_call0_v5 (s : FVec Ideal S8x2048x64 .f32) : FVec Ideal S8x2048x64 .f32 :=
  stage_call0_v5 s (stage_call0_v4 (stage_call0_v3 (stage_call0_v1 (stage_call0_v0 s stage_call0_cst))
    (stage_call0_v2 stage_call0_cst_0)))

/-- The variance of s: the sum of the squared centred features over the divisor, selected against a not-a-number
    constant on the divisor being positive. -/
def res_v14 (s : FVec Ideal S8x2048x64 .f32) : FVec Ideal S64 .f32 :=
  stage_v14 (stage_call0_v12 res_call0_v8 stage_call0_cst_3)
    (stage_call0_v11 (stage_call0_v9 (stage_call0_v6 (res_call0_v5 s)) stage_call0_cst_2) (stage_call0_v10 res_call0_v8))
    (stage_call0_call0_v1 (stage_call0_call0_v0 stage_call0_cst_4))

/-- The output from the mixed features: ((s - mean) · rsqrt(var + eps)) · gamma + beta. -/
def res_v29 (s : FVec Ideal S8x2048x64 .f32) (g be : FVec Ideal S64 .f32) : FVec Ideal S8x2048x64 .f32 :=
  stage_v29
    (stage_v26
      (stage_v23 (stage_v17 s (stage_v16 (stage_v15 (res_v13 s))))
        (stage_v22 (stage_v21 (stage_v20 (stage_v19 (res_v14 s) (stage_v18 stage_cst_1))))))
      (stage_v25 (stage_v24 g)))
    (stage_v28 (stage_v27 be))

/-- What the reference computes from its eight arguments. -/
def result (x : FVec Ideal S8x2048x32 .f32) (A0 A1 A2 : FVec Ideal S8x2048x2048 .f32) (W : FVec Ideal S64x224 .f32)
    (b g be : FVec Ideal S64 .f32) : FVec Ideal S8x2048x64 .f32 :=
  res_v29 (res_v10 x A0 A1 A2 W b) g be

/-! ## The composition unfolded into the stages -/

theorem res_v6_eq (x : FVec Ideal S8x2048x32 .f32) (A0 A1 A2 : FVec Ideal S8x2048x2048 .f32) :
    res_v6 x A0 A1 A2
      = stage_v6 x (stage_v0 A0 x) (stage_v1 A0 (stage_v0 A0 x)) (stage_v2 A1 x) (stage_v3 A1 (stage_v2 A1 x))
          (stage_v4 A2 x) (stage_v5 A2 (stage_v4 A2 x)) := rfl

theorem res_v10_eq (x : FVec Ideal S8x2048x32 .f32) (A0 A1 A2 : FVec Ideal S8x2048x2048 .f32) (W : FVec Ideal S64x224 .f32)
    (b : FVec Ideal S64 .f32) :
    res_v10 x A0 A1 A2 W b = stage_v10 (stage_v7 (res_v6 x A0 A1 A2) W) (stage_v9 (stage_v8 b)) := rfl

theorem res_v13_eq (s : FVec Ideal S8x2048x64 .f32) :
    res_v13 s = stage_v13 (stage_v11 s stage_cst) (stage_v12 stage_cst_0) := rfl

theorem res_call0_v8_eq : res_call0_v8 = stage_call0_v8 stage_call0_cst_1 (stage_call0_v7 stage_c) := rfl

theorem res_call0_v5_eq (s : FVec Ideal S8x2048x64 .f32) :
    res_call0_v5 s
      = stage_call0_v5 s (stage_call0_v4 (stage_call0_v3 (stage_call0_v1 (stage_call0_v0 s stage_call0_cst))
          (stage_call0_v2 stage_call0_cst_0))) := rfl

theorem res_v14_eq (s : FVec Ideal S8x2048x64 .f32) :
    res_v14 s
      = stage_v14 (stage_call0_v12 res_call0_v8 stage_call0_cst_3)
          (stage_call0_v11 (stage_call0_v9 (stage_call0_v6 (res_call0_v5 s)) stage_call0_cst_2) (stage_call0_v10 res_call0_v8))
          (stage_call0_call0_v1 (stage_call0_call0_v0 stage_call0_cst_4)) := rfl

theorem res_v29_eq (s : FVec Ideal S8x2048x64 .f32) (g be : FVec Ideal S64 .f32) :
    res_v29 s g be
      = stage_v29
          (stage_v26
            (stage_v23 (stage_v17 s (stage_v16 (stage_v15 (res_v13 s))))
              (stage_v22 (stage_v21 (stage_v20 (stage_v19 (res_v14 s) (stage_v18 stage_cst_1))))))
            (stage_v25 (stage_v24 g)))
          (stage_v28 (stage_v27 be)) := rfl

/-- The result is the output stage chain at the mixed features. -/
theorem result_eq (x : FVec Ideal S8x2048x32 .f32) (A0 A1 A2 : FVec Ideal S8x2048x2048 .f32) (W : FVec Ideal S64x224 .f32)
    (b g be : FVec Ideal S64 .f32) :
    result x A0 A1 A2 W b g be = res_v29 (res_v10 x A0 A1 A2 W b) g be := rfl

end Cert.ReferenceIdeal.HandRun

end
-- ==== Proof.LibTypedRefs.lean ====
/-
  Transport along a typed reference's type equation, removed.

  A typed reference carries an equation "the buffer's type is T", and a value at type T is moved to the buffer's own
  type, and back, along that equation. Whatever the equation's proof, the two transports undo each other; and a
  transported value equals any value it is heterogeneously equal to, so once the reference is a literal whose type
  computes to T the transport can be dropped on both the reading and the writing side. Proved for an arbitrary typed
  reference by replacing T with the buffer's type.
-/
import Idealize.ShloMosaic.Lib.StableHlo

namespace Cert.Lib.TypedRefs

open Idealize.ShloMosaic Idealize.ShloMosaic.StableHlo

variable {sig : RefSig} {Val : EltTy → Type} {T : BufTy}

/-- Moving a value to the buffer's type and back gives the value. -/
theorem ofBuf_toBuf (x : TRef sig T) (v : T.Contents Val) : x.ofBuf (x.toBuf v) = v := by
  obtain ⟨r, e, hd, hu⟩ := x
  subst e
  rfl

/-- Buffer contents read at the value's type are any value they are heterogeneously equal to. -/
theorem ofBuf_eq (x : TRef sig T) (w : x.ref.ty.Contents Val) (v : T.Contents Val) (h : HEq w v) : x.ofBuf w = v := by
  obtain ⟨r, e, hd, hu⟩ := x
  subst e
  exact eq_of_heq h

/-- A value moved to the buffer's type is any buffer contents it is heterogeneously equal to. -/
theorem toBuf_eq (x : TRef sig T) (v : T.Contents Val) (w : x.ref.ty.Contents Val) (h : HEq v w) : x.toBuf v = w := by
  obtain ⟨r, e, hd, hu⟩ := x
  subst e
  exact eq_of_heq h

end Cert.Lib.TypedRefs
-- ==== Proof.RefRunAfter.lean ====
/-
  What each buffer of interest holds after the reference's fifty-five operations.

  The fold of the operations' results over any starting contents, read at the output buffer, is the composition of the
  stages at the eight arguments' starting contents; read at an argument's buffer it is the starting contents, no
  operation writing an argument. Each operation's result is rewritten at its own buffer to its function's value and at
  any other buffer to what was there. An operation of an outlined function reads and writes its buffers through the
  transport along the buffer's type equation: a transport out and back cancels, and at the call's boundary (the mixed
  features and the integer zero going in, the variance coming out) the buffer is a literal whose type computes, so the
  transport is the identity there.
-/
import proofs.«100048_j70317204570386_2_alg».proof.Proof.RefRunOps
import proofs.«100048_j70317204570386_2_alg».proof.Proof.RefRunStages
import proofs.«100048_j70317204570386_2_alg».proof.Proof.LibTypedRefs

noncomputable section

namespace Cert.ReferenceIdeal.HandRun

open Cert.ReferenceIdeal Cert.ReferenceIdeal.Gen Idealize.ShloMosaic Idealize.ShloMosaic.TcCoe Idealize.SL.Sem Idealize.ShloMosaic.StableHlo

/-- The concatenation's result, each operand's contents read at its own buffer. -/
theorem concat_result (V : Valuation τ sig (Elt Ideal)) :
    (nary (τ := τ) (Val := Elt Ideal) ![main_arg0, main_v0, main_v1, main_v2, main_v3, main_v4, main_v5] main_v6 (fun u => concatenate S8x2048x224 2 [⟨S8x2048x32, u 0⟩, ⟨S8x2048x32, u 1⟩, ⟨S8x2048x32, u 2⟩, ⟨S8x2048x32, u 3⟩, ⟨S8x2048x32, u 4⟩, ⟨S8x2048x32, u 5⟩, ⟨S8x2048x32, u 6⟩] concatenates_S8x2048x32_S8x2048x32_S8x2048x32_S8x2048x32_S8x2048x32_S8x2048x32_S8x2048x32_S8x2048x224_d2)).result V (no_index (main_v6 : DevRef τ sig))
      = stage_v6 (V (main_arg0 : DevRef τ sig)) (V (main_v0 : DevRef τ sig)) (V (main_v1 : DevRef τ sig)) (V (main_v2 : DevRef τ sig)) (V (main_v3 : DevRef τ sig)) (V (main_v4 : DevRef τ sig)) (V (main_v5 : DevRef τ sig)) := by
  rw [nary_result]
  rfl

/-- Reading the mixed features' buffer at the variance function's argument type is the identity. -/
theorem ofBuf_v10 (h1 h2 h3) (w : FVec Ideal S8x2048x64 .f32) :
    (TRef.of (sig := sig) (T := ⟨S8x2048x64, .f32⟩) main_v10 h1 h2 h3).ofBuf (Val := Elt Ideal) w = w :=
  Cert.Lib.TypedRefs.ofBuf_eq _ _ _ HEq.rfl

/-- Reading the integer zero's buffer at the variance function's argument type is the identity. -/
theorem ofBuf_c (h1 h2 h3) (w : IVec S_ 32) :
    (TRef.of (sig := sig) (T := ⟨S_, .i32⟩) main_c h1 h2 h3).ofBuf (Val := Elt Ideal) w = w :=
  Cert.Lib.TypedRefs.ofBuf_eq _ _ _ HEq.rfl

/-- Writing the variance at the call's result buffer is the identity. -/
theorem toBuf_v14 (h1 h2 h3) (w : FVec Ideal S64 .f32) :
    (TRef.of (sig := sig) (T := ⟨S64, .f32⟩) main_v14 h1 h2 h3).toBuf (Val := Elt Ideal) w = w :=
  Cert.Lib.TypedRefs.toBuf_eq _ _ _ HEq.rfl

/-- After the operations the output buffer holds the composition of the stages at the arguments' starting contents. -/
theorem after_v29 (V : Valuation τ sig (Elt Ideal)) :
    after (ops (F := Ideal)) V (main_v29 : DevRef τ sig) = result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  simp (disch := decide) only [after_cons, after_nil, concat_result,
      nullary_result', unary_result', binary_result', ternary_result',
      nullary_result_ne', unary_result_ne', binary_result_ne', ternary_result_ne', nary_result_ne',
      Cert.Lib.TypedRefs.ofBuf_toBuf, ofBuf_v10, ofBuf_c, toBuf_v14]
  simp only [result, res_v29, res_v14, res_call0_v5, res_call0_v8, res_v13, res_v10, res_v6,
      stage_v0, stage_v1, stage_v2, stage_v3, stage_v4, stage_v5, stage_v7, stage_v8, stage_v9, stage_v10, stage_cst, stage_v11, stage_cst_0, stage_v12, stage_v13, stage_c, stage_call0_cst, stage_call0_v0, stage_call0_v1, stage_call0_cst_0, stage_call0_v2, stage_call0_v3, stage_call0_v4, stage_call0_v5, stage_call0_v6, stage_call0_v7, stage_call0_cst_1, stage_call0_v8, stage_call0_cst_2, stage_call0_v9, stage_call0_v10, stage_call0_v11, stage_call0_cst_3, stage_call0_v12, stage_call0_cst_4, stage_call0_call0_v0, stage_call0_call0_v1, stage_v14, stage_v15, stage_v16, stage_v17, stage_cst_1, stage_v18, stage_v19, stage_v20, stage_v21, stage_v22, stage_v23, stage_v24, stage_v25, stage_v26, stage_v27, stage_v28, stage_v29]

end Cert.ReferenceIdeal.HandRun

end
-- ==== Proof.RefRunFrame.lean ====
/-
  The reference's operations leave its arguments alone.

  No operation of the line writes an argument's buffer: read at an argument, the fold of the operations' results over
  any starting contents is the starting contents, each operation's result at a buffer not its own being what was there.
-/
import proofs.«100048_j70317204570386_2_alg».proof.Proof.RefRunOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

theorem after_arg0 (V : Valuation τ sig (Elt F)) :
    after (ops (F := F)) V (main_arg0 : DevRef τ sig) = V (main_arg0 : DevRef τ sig) := by
  simp (disch := decide) only [after_cons, after_nil,
      nullary_result_ne', unary_result_ne', binary_result_ne', ternary_result_ne', nary_result_ne']

theorem after_arg1 (V : Valuation τ sig (Elt F)) :
    after (ops (F := F)) V (main_arg1 : DevRef τ sig) = V (main_arg1 : DevRef τ sig) := by
  simp (disch := decide) only [after_cons, after_nil,
      nullary_result_ne', unary_result_ne', binary_result_ne', ternary_result_ne', nary_result_ne']

theorem after_arg2 (V : Valuation τ sig (Elt F)) :
    after (ops (F := F)) V (main_arg2 : DevRef τ sig) = V (main_arg2 : DevRef τ sig) := by
  simp (disch := decide) only [after_cons, after_nil,
      nullary_result_ne', unary_result_ne', binary_result_ne', ternary_result_ne', nary_result_ne']

theorem after_arg3 (V : Valuation τ sig (Elt F)) :
    after (ops (F := F)) V (main_arg3 : DevRef τ sig) = V (main_arg3 : DevRef τ sig) := by
  simp (disch := decide) only [after_cons, after_nil,
      nullary_result_ne', unary_result_ne', binary_result_ne', ternary_result_ne', nary_result_ne']

theorem after_arg4 (V : Valuation τ sig (Elt F)) :
    after (ops (F := F)) V (main_arg4 : DevRef τ sig) = V (main_arg4 : DevRef τ sig) := by
  simp (disch := decide) only [after_cons, after_nil,
      nullary_result_ne', unary_result_ne', binary_result_ne', ternary_result_ne', nary_result_ne']

theorem after_arg5 (V : Valuation τ sig (Elt F)) :
    after (ops (F := F)) V (main_arg5 : DevRef τ sig) = V (main_arg5 : DevRef τ sig) := by
  simp (disch := decide) only [after_cons, after_nil,
      nullary_result_ne', unary_result_ne', binary_result_ne', ternary_result_ne', nary_result_ne']

theorem after_arg6 (V : Valuation τ sig (Elt F)) :
    after (ops (F := F)) V (main_arg6 : DevRef τ sig) = V (main_arg6 : DevRef τ sig) := by
  simp (disch := decide) only [after_cons, after_nil,
      nullary_result_ne', unary_result_ne', binary_result_ne', ternary_result_ne', nary_result_ne']

theorem after_arg7 (V : Valuation τ sig (Elt F)) :
    after (ops (F := F)) V (main_arg7 : DevRef τ sig) = V (main_arg7 : DevRef τ sig) := by
  simp (disch := decide) only [after_cons, after_nil,
      nullary_result_ne', unary_result_ne', binary_result_ne', ternary_result_ne', nary_result_ne']

end Cert.ReferenceIdeal.HandRun

end
-- ==== Proof.RefRun.lean ====
/-
  The reference program's run.

  From any memory with zero counters every weakly fair execution of the reference's main function terminates; the output
  buffer ends at the composition of the stages at the eight arguments' launch contents, and the eight arguments end as
  they were launched.
-/
import proofs.«100048_j70317204570386_2_alg».proof.Proof.RefRunAfter
import proofs.«100048_j70317204570386_2_alg».proof.Proof.RefRunFrame

noncomputable section

namespace Cert.ReferenceIdeal.HandRun

open Cert.ReferenceIdeal Cert.ReferenceIdeal.Gen Idealize.ShloMosaic Idealize.ShloMosaic.TcCoe Idealize.SL.Sem Idealize.ShloMosaic.StableHlo

/-- The run of the reference at the ideal instance: the result first, then the eight arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v29) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v29).trans (after_v29 _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _)⟩)
    (run_main m ρ)

/-- The run's frame: the eight arguments end as they were launched. -/
theorem run_frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run m ρ)

end Cert.ReferenceIdeal.HandRun

end
-- ==== Proof.RefReadDot.lean ====
import proofs.«100048_j70317204570386_2_alg».proof.ReferenceIdeal
import Idealize.ShloMosaic.Lib.ValueIdx
import Idealize.ShloMosaic.PureOps.Ideal.Laws

/-!
# The reference's two contractions read at an index

At the ideal values the host's `dot_general` at an output index is the sum, over the contracted
axis, of the products of the two operands' entries.  Both contractions of the reference contract
ONE axis, so the sum over the contraction index is a sum over `Fin K` for the axis's extent `K`.

* the batched product `[8,2048,2048] × [8,2048,32] → [8,2048,32]` (batch axis 0 of both,
  contracting axis 1 of both): entry `(n, w, l)` is `∑ v, a (n, v, w) * h (n, v, l)`;
* the mixing product `[8,2048,224] × [64,224] → [8,2048,64]` (contracting the last axis of
  both): entry `(n, v, o)` is `∑ c, h (n, v, c) * W (o, c)`.
-/

noncomputable section

namespace Cert.RefRead

open Idealize.ShloMosaic Idealize.ShloMosaic.ValueIdx
open Cert.ReferenceIdeal

/-- The batched product at `(n, w, l)`: the sum over the shared axis `v` of
    `a (n, v, w) * h (n, v, l)`. -/
theorem dot_hop_apply [Facts₀] (a : FVec Ideal S8x2048x2048 .f32) (h : FVec Ideal S8x2048x32 .f32)
    (n : Fin 8) (w : Fin 2048) (l : Fin 32) :
    Host.dotGeneral (F := Ideal) dot_S8x2048x2048_S8x2048x32_S8x2048x32_1_1_2_2_0_0 none a h (ix3 n w l)
      = ∑ v : Fin 2048, a (ix3 n v w) * h (ix3 n v l) := by
  simp only [Host.dotGeneral]
  rw [Ideal.dotGeneral_apply]
  refine Fintype.sum_equiv
    (contrEquiv1 dot_S8x2048x2048_S8x2048x32_S8x2048x32_1_1_2_2_0_0 2048 rfl rfl) _ _ fun k => ?_
  have hl : dot_S8x2048x2048_S8x2048x32_S8x2048x32_1_1_2_2_0_0.lhsIdx (ix3 n w l) k
      = ix3 n (contrEquiv1 dot_S8x2048x2048_S8x2048x32_S8x2048x32_1_1_2_2_0_0 2048 rfl rfl k) w := by
    funext d
    match d with
    | ⟨0, _⟩ => exact Fin.ext rfl
    | ⟨1, _⟩ => exact Fin.ext rfl
    | ⟨2, _⟩ => exact Fin.ext rfl
  have hr : dot_S8x2048x2048_S8x2048x32_S8x2048x32_1_1_2_2_0_0.rhsIdx (ix3 n w l) k
      = ix3 n (contrEquiv1 dot_S8x2048x2048_S8x2048x32_S8x2048x32_1_1_2_2_0_0 2048 rfl rfl k) l := by
    funext d
    match d with
    | ⟨0, _⟩ => exact Fin.ext rfl
    | ⟨1, _⟩ => exact Fin.ext rfl
    | ⟨2, _⟩ => exact Fin.ext rfl
  rw [hl, hr]

/-- The mixing product at `(n, v, o)`: the sum over the 224 stacked features `c` of
    `h (n, v, c) * W (o, c)`. -/
theorem dot_mix_apply [Facts₀] (h : FVec Ideal S8x2048x224 .f32) (W : FVec Ideal S64x224 .f32)
    (n : Fin 8) (v : Fin 2048) (o : Fin 64) :
    Host.dotGeneral (F := Ideal) dot_S8x2048x224_S64x224_S8x2048x64_2_1_01_0_n_n none h W (ix3 n v o)
      = ∑ c : Fin 224, h (ix3 n v c) * W (ix2 o c) := by
  simp only [Host.dotGeneral]
  rw [Ideal.dotGeneral_apply]
  refine Fintype.sum_equiv
    (contrEquiv1 dot_S8x2048x224_S64x224_S8x2048x64_2_1_01_0_n_n 224 rfl rfl) _ _ fun k => ?_
  have hl : dot_S8x2048x224_S64x224_S8x2048x64_2_1_01_0_n_n.lhsIdx (ix3 n v o) k
      = ix3 n v (contrEquiv1 dot_S8x2048x224_S64x224_S8x2048x64_2_1_01_0_n_n 224 rfl rfl k) := by
    funext d
    match d with
    | ⟨0, _⟩ => exact Fin.ext rfl
    | ⟨1, _⟩ => exact Fin.ext rfl
    | ⟨2, _⟩ => exact Fin.ext rfl
  have hr : dot_S8x2048x224_S64x224_S8x2048x64_2_1_01_0_n_n.rhsIdx (ix3 n v o) k
      = ix2 o (contrEquiv1 dot_S8x2048x224_S64x224_S8x2048x64_2_1_01_0_n_n 224 rfl rfl k) := by
    funext d
    match d with
    | ⟨0, _⟩ => exact Fin.ext rfl
    | ⟨1, _⟩ => exact Fin.ext rfl
  rw [hl, hr]

end Cert.RefRead

end
-- ==== Proof.RefReadConcat.lean ====
import proofs.«100048_j70317204570386_2_alg».proof.ReferenceIdeal
import Idealize.ShloMosaic.Lib.ValueIdx
import Idealize.ShloMosaic.Lib.Pipeline.Value

/-!
# The reference's seven-piece concatenation read at an index

Seven `[8,2048,32]` arrays are laid end to end along the last axis into an `[8,2048,224]` array:
piece `k` occupies the columns `32 k … 32 k + 31`.  So at `(n, v, 32 k + c)` with `c < 32` the
concatenation reads piece `k` at `(n, v, c)`.  One statement per piece (the column written as
the literal offset plus `c`), and one for a variable `k`.
-/

noncomputable section

namespace Cert.RefRead

open Idealize.ShloMosaic Idealize.ShloMosaic.ValueIdx
open Cert.ReferenceIdeal Cert.ReferenceIdeal.Facts₀

variable {α : Type}

/-- Columns `0 … 31` read piece 0. -/
theorem concat7_apply_0 [Facts₀] (x0 x1 x2 x3 x4 x5 x6 : S8x2048x32.Idx → α)
    (n : Fin 8) (v : Fin 2048) (c : Fin 32) :
    concatenate S8x2048x224 2 [⟨S8x2048x32, x0⟩, ⟨S8x2048x32, x1⟩, ⟨S8x2048x32, x2⟩, ⟨S8x2048x32, x3⟩, ⟨S8x2048x32, x4⟩, ⟨S8x2048x32, x5⟩, ⟨S8x2048x32, x6⟩]
        concatenates_S8x2048x32_S8x2048x32_S8x2048x32_S8x2048x32_S8x2048x32_S8x2048x32_S8x2048x32_S8x2048x224_d2
        (ix3 n v (⟨0 + c.val, by have := c.isLt; omega⟩ : Fin 224))
      = x0 (ix3 n v c) := by
  refine concatenate_apply_piece (t := S8x2048x224) 2 _ _ _ 0 ?_ S8x2048x32 x0 ?_ rfl 0 ?_ (ix3 n v c) ?_ ?_
  · exact (by decide : (0 : Nat) < 7)
  · rfl
  · rfl
  · intro b hb
    match b with
    | ⟨0, _⟩ => rfl
    | ⟨1, _⟩ => rfl
    | ⟨2, _⟩ => exact absurd rfl hb
  · rfl

/-- Columns `32 … 63` read piece 1. -/
theorem concat7_apply_1 [Facts₀] (x0 x1 x2 x3 x4 x5 x6 : S8x2048x32.Idx → α)
    (n : Fin 8) (v : Fin 2048) (c : Fin 32) :
    concatenate S8x2048x224 2 [⟨S8x2048x32, x0⟩, ⟨S8x2048x32, x1⟩, ⟨S8x2048x32, x2⟩, ⟨S8x2048x32, x3⟩, ⟨S8x2048x32, x4⟩, ⟨S8x2048x32, x5⟩, ⟨S8x2048x32, x6⟩]
        concatenates_S8x2048x32_S8x2048x32_S8x2048x32_S8x2048x32_S8x2048x32_S8x2048x32_S8x2048x32_S8x2048x224_d2
        (ix3 n v (⟨32 + c.val, by have := c.isLt; omega⟩ : Fin 224))
      = x1 (ix3 n v c) := by
  refine concatenate_apply_piece (t := S8x2048x224) 2 _ _ _ 1 ?_ S8x2048x32 x1 ?_ rfl 32 ?_ (ix3 n v c) ?_ ?_
  · exact (by decide : (1 : Nat) < 7)
  · rfl
  · rfl
  · intro b hb
    match b with
    | ⟨0, _⟩ => rfl
    | ⟨1, _⟩ => rfl
    | ⟨2, _⟩ => exact absurd rfl hb
  · rfl

/-- Columns `64 … 95` read piece 2. -/
theorem concat7_apply_2 [Facts₀] (x0 x1 x2 x3 x4 x5 x6 : S8x2048x32.Idx → α)
    (n : Fin 8) (v : Fin 2048) (c : Fin 32) :
    concatenate S8x2048x224 2 [⟨S8x2048x32, x0⟩, ⟨S8x2048x32, x1⟩, ⟨S8x2048x32, x2⟩, ⟨S8x2048x32, x3⟩, ⟨S8x2048x32, x4⟩, ⟨S8x2048x32, x5⟩, ⟨S8x2048x32, x6⟩]
        concatenates_S8x2048x32_S8x2048x32_S8x2048x32_S8x2048x32_S8x2048x32_S8x2048x32_S8x2048x32_S8x2048x224_d2
        (ix3 n v (⟨64 + c.val, by have := c.isLt; omega⟩ : Fin 224))
      = x2 (ix3 n v c) := by
  refine concatenate_apply_piece (t := S8x2048x224) 2 _ _ _ 2 ?_ S8x2048x32 x2 ?_ rfl 64 ?_ (ix3 n v c) ?_ ?_
  · exact (by decide : (2 : Nat) < 7)
  · rfl
  · rfl
  · intro b hb
    match b with
    | ⟨0, _⟩ => rfl
    | ⟨1, _⟩ => rfl
    | ⟨2, _⟩ => exact absurd rfl hb
  · rfl

/-- Columns `96 … 127` read piece 3. -/
theorem concat7_apply_3 [Facts₀] (x0 x1 x2 x3 x4 x5 x6 : S8x2048x32.Idx → α)
    (n : Fin 8) (v : Fin 2048) (c : Fin 32) :
    concatenate S8x2048x224 2 [⟨S8x2048x32, x0⟩, ⟨S8x2048x32, x1⟩, ⟨S8x2048x32, x2⟩, ⟨S8x2048x32, x3⟩, ⟨S8x2048x32, x4⟩, ⟨S8x2048x32, x5⟩, ⟨S8x2048x32, x6⟩]
        concatenates_S8x2048x32_S8x2048x32_S8x2048x32_S8x2048x32_S8x2048x32_S8x2048x32_S8x2048x32_S8x2048x224_d2
        (ix3 n v (⟨96 + c.val, by have := c.isLt; omega⟩ : Fin 224))
      = x3 (ix3 n v c) := by
  refine concatenate_apply_piece (t := S8x2048x224) 2 _ _ _ 3 ?_ S8x2048x32 x3 ?_ rfl 96 ?_ (ix3 n v c) ?_ ?_
  · exact (by decide : (3 : Nat) < 7)
  · rfl
  · rfl
  · intro b hb
    match b with
    | ⟨0, _⟩ => rfl
    | ⟨1, _⟩ => rfl
    | ⟨2, _⟩ => exact absurd rfl hb
  · rfl

/-- Columns `128 … 159` read piece 4. -/
theorem concat7_apply_4 [Facts₀] (x0 x1 x2 x3 x4 x5 x6 : S8x2048x32.Idx → α)
    (n : Fin 8) (v : Fin 2048) (c : Fin 32) :
    concatenate S8x2048x224 2 [⟨S8x2048x32, x0⟩, ⟨S8x2048x32, x1⟩, ⟨S8x2048x32, x2⟩, ⟨S8x2048x32, x3⟩, ⟨S8x2048x32, x4⟩, ⟨S8x2048x32, x5⟩, ⟨S8x2048x32, x6⟩]
        concatenates_S8x2048x32_S8x2048x32_S8x2048x32_S8x2048x32_S8x2048x32_S8x2048x32_S8x2048x32_S8x2048x224_d2
        (ix3 n v (⟨128 + c.val, by have := c.isLt; omega⟩ : Fin 224))
      = x4 (ix3 n v c) := by
  refine concatenate_apply_piece (t := S8x2048x224) 2 _ _ _ 4 ?_ S8x2048x32 x4 ?_ rfl 128 ?_ (ix3 n v c) ?_ ?_
  · exact (by decide : (4 : Nat) < 7)
  · rfl
  · rfl
  · intro b hb
    match b with
    | ⟨0, _⟩ => rfl
    | ⟨1, _⟩ => rfl
    | ⟨2, _⟩ => exact absurd rfl hb
  · rfl

/-- Columns `160 … 191` read piece 5. -/
theorem concat7_apply_5 [Facts₀] (x0 x1 x2 x3 x4 x5 x6 : S8x2048x32.Idx → α)
    (n : Fin 8) (v : Fin 2048) (c : Fin 32) :
    concatenate S8x2048x224 2 [⟨S8x2048x32, x0⟩, ⟨S8x2048x32, x1⟩, ⟨S8x2048x32, x2⟩, ⟨S8x2048x32, x3⟩, ⟨S8x2048x32, x4⟩, ⟨S8x2048x32, x5⟩, ⟨S8x2048x32, x6⟩]
        concatenates_S8x2048x32_S8x2048x32_S8x2048x32_S8x2048x32_S8x2048x32_S8x2048x32_S8x2048x32_S8x2048x224_d2
        (ix3 n v (⟨160 + c.val, by have := c.isLt; omega⟩ : Fin 224))
      = x5 (ix3 n v c) := by
  refine concatenate_apply_piece (t := S8x2048x224) 2 _ _ _ 5 ?_ S8x2048x32 x5 ?_ rfl 160 ?_ (ix3 n v c) ?_ ?_
  · exact (by decide : (5 : Nat) < 7)
  · rfl
  · rfl
  · intro b hb
    match b with
    | ⟨0, _⟩ => rfl
    | ⟨1, _⟩ => rfl
    | ⟨2, _⟩ => exact absurd rfl hb
  · rfl

/-- Columns `192 … 223` read piece 6. -/
theorem concat7_apply_6 [Facts₀] (x0 x1 x2 x3 x4 x5 x6 : S8x2048x32.Idx → α)
    (n : Fin 8) (v : Fin 2048) (c : Fin 32) :
    concatenate S8x2048x224 2 [⟨S8x2048x32, x0⟩, ⟨S8x2048x32, x1⟩, ⟨S8x2048x32, x2⟩, ⟨S8x2048x32, x3⟩, ⟨S8x2048x32, x4⟩, ⟨S8x2048x32, x5⟩, ⟨S8x2048x32, x6⟩]
        concatenates_S8x2048x32_S8x2048x32_S8x2048x32_S8x2048x32_S8x2048x32_S8x2048x32_S8x2048x32_S8x2048x224_d2
        (ix3 n v (⟨192 + c.val, by have := c.isLt; omega⟩ : Fin 224))
      = x6 (ix3 n v c) := by
  refine concatenate_apply_piece (t := S8x2048x224) 2 _ _ _ 6 ?_ S8x2048x32 x6 ?_ rfl 192 ?_ (ix3 n v c) ?_ ?_
  · exact (by decide : (6 : Nat) < 7)
  · rfl
  · rfl
  · intro b hb
    match b with
    | ⟨0, _⟩ => rfl
    | ⟨1, _⟩ => rfl
    | ⟨2, _⟩ => exact absurd rfl hb
  · rfl

/-- The same for a variable piece `k`: column `32 k + c` reads piece `k` at column `c`. -/
theorem concat7_apply [Facts₀] (x : Fin 7 → (S8x2048x32.Idx → α))
    (n : Fin 8) (v : Fin 2048) (k : Fin 7) (c : Fin 32) :
    concatenate S8x2048x224 2 [⟨S8x2048x32, x 0⟩, ⟨S8x2048x32, x 1⟩, ⟨S8x2048x32, x 2⟩, ⟨S8x2048x32, x 3⟩, ⟨S8x2048x32, x 4⟩, ⟨S8x2048x32, x 5⟩, ⟨S8x2048x32, x 6⟩]
        concatenates_S8x2048x32_S8x2048x32_S8x2048x32_S8x2048x32_S8x2048x32_S8x2048x32_S8x2048x32_S8x2048x224_d2
        (ix3 n v (⟨32 * k.val + c.val, by have := k.isLt; have := c.isLt; omega⟩ : Fin 224))
      = x k (ix3 n v c) := by
  match k with
  | ⟨0, _⟩ => exact concat7_apply_0 (x 0) (x 1) (x 2) (x 3) (x 4) (x 5) (x 6) n v c
  | ⟨1, _⟩ => exact concat7_apply_1 (x 0) (x 1) (x 2) (x 3) (x 4) (x 5) (x 6) n v c
  | ⟨2, _⟩ => exact concat7_apply_2 (x 0) (x 1) (x 2) (x 3) (x 4) (x 5) (x 6) n v c
  | ⟨3, _⟩ => exact concat7_apply_3 (x 0) (x 1) (x 2) (x 3) (x 4) (x 5) (x 6) n v c
  | ⟨4, _⟩ => exact concat7_apply_4 (x 0) (x 1) (x 2) (x 3) (x 4) (x 5) (x 6) n v c
  | ⟨5, _⟩ => exact concat7_apply_5 (x 0) (x 1) (x 2) (x 3) (x 4) (x 5) (x 6) n v c
  | ⟨6, _⟩ => exact concat7_apply_6 (x 0) (x 1) (x 2) (x 3) (x 4) (x 5) (x 6) n v c

end Cert.RefRead

end
-- ==== Proof.RefReadReduce.lean ====
import proofs.«100048_j70317204570386_2_alg».proof.ReferenceIdeal
import Idealize.ShloMosaic.Lib.ValueIdx
import Idealize.ShloMosaic.PureOps.Ideal.Laws

/-!
# The reference's sum over the first two axes read at an index

`stablehlo.reduce` with an `add` body across dimensions `[0, 1]` of an `[8,2048,64]` array,
at the ideal values, is at channel `o` the initial value plus the sum of the array over all the
pairs `(n, v)`:  `z + ∑ n, ∑ v, x (n, v, o)`.

The operation is defined as the initial value plus the sum of the entries whose index, with the
reduced coordinates dropped, is the result index.  Dropping axes 0 and 1 of `(n, v, o')` leaves
`o'`, so the entries that reduce to `o` are exactly those with last coordinate `o`; writing the
sum over all indices as a triple sum over the coordinates and collapsing the innermost sum onto
`o' = o` gives the double sum.
-/

noncomputable section

namespace Cert.RefRead

open scoped BigOperators
open Idealize.ShloMosaic Idealize.ShloMosaic.ValueIdx
open Cert.ReferenceIdeal Cert.ReferenceIdeal.Facts₀

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping axes 0 and 1 of `(n, v, c)` leaves `c`. -/
theorem drop01_ix3 [Facts₀] (n : Fin 8) (v : Fin 2048) (c : Fin 64) :
    reducesTo_S8x2048x64_S64_d0_1.drop (ix3 n v c) = ix1 c := by
  funext b
  match b with
  | ⟨0, _⟩ => exact Fin.ext rfl

/-- The sum over axes 0 and 1 at channel `o`: the initial value plus the double sum over
    `(n, v)` of the entries `(n, v, o)`. -/
theorem reduce01_apply [Facts₀] (x : FVec Ideal S8x2048x64 .f32) (z : FVec Ideal S_ .f32) (o : Fin 64) :
    Host.reduceAdd (F := Ideal) x z reducesTo_S8x2048x64_S64_d0_1 h_S_ (ix1 o)
      = z ix0 + ∑ n : Fin 8, ∑ v : Fin 2048, x (ix3 n v o) := by
  unfold Host.reduceAdd
  rw [Ideal.hostReduceAdd_def]
  unfold Ideal.hostReduceAdd
  rw [eq_ix0 (Shape.Idx.first h_S_)]
  refine congrArg (z ix0 + ·) ?_
  rw [Finset.sum_filter, sum_idx3]
  refine Finset.sum_congr rfl fun n _ => Finset.sum_congr rfl fun v _ => ?_
  have hc : ∀ c : Fin 64, (reducesTo_S8x2048x64_S64_d0_1.drop (ix3 n v c) = ix1 o) ↔ c = o := by
    intro c
    rw [drop01_ix3]
    constructor
    · intro h; exact congrFun h 0
    · intro h; rw [h]
  simp only [hc]
  rw [Finset.sum_ite_eq' Finset.univ o fun c => x (ix3 n v c)]
  simp

/-- From the zero word as the initial value: just the double sum. -/
theorem reduce01_zero_apply [Facts₀] (x : FVec Ideal S8x2048x64 .f32) (o : Fin 64) :
    Host.reduceAdd (F := Ideal) x (constant (F := Ideal) S_ .f32 0x00000000#32)
        reducesTo_S8x2048x64_S64_d0_1 h_S_ (ix1 o)
      = ∑ n : Fin 8, ∑ v : Fin 2048, x (ix3 n v o) := by
  rw [reduce01_apply]
  show Ideal.ofBits .f32 0x00000000#32 + _ = _
  rw [Ideal.ofBits_zero_f32, zero_add]

end Cert.RefRead

end
-- ==== Proof.RefReadSmall.lean ====
import proofs.«100048_j70317204570386_2_alg».proof.ReferenceIdeal
import Idealize.ShloMosaic.Lib.ValueIdx
import Idealize.ShloMosaic.Lib.IdealHost
import Idealize.ShloMosaic.Lib.Pipeline.Value

/-!
# The reference's broadcasts, pointwise operations and constants read at an index

* A `[64]` vector laid along the last axis of a `[1,1,64]` row reads the vector; a `[1,1,64]`
  row stretched to `[8,2048,64]` reads the row at the same channel; a scalar broadcast to any
  shape reads the scalar.
* At the ideal values the host's quotient, reciprocal square root and square are the extended
  reals' operations entry by entry.
* The f32 word `0x46800000` is `2¹⁴ = 16384` (exponent field `141 = 127 + 14`, fraction zero).
* The variance's normaliser: the integer `0` converted is the real `0`, `16384 - 0 = 16384` is
  positive, so the comparison "`> 0`" answers the bit `1` and the selection on that bit returns its
  first array whatever the second one is.
-/

noncomputable section

namespace Cert.RefRead

open Idealize.ShloMosaic Idealize.ShloMosaic.ValueIdx
open Cert.ReferenceIdeal Cert.ReferenceIdeal.Facts₀

section Broadcasts
variable {α : Type}

/-- A `[64]` vector broadcast along the last axis of a `[1,1,64]` row reads the vector. -/
theorem bcast_vec_row_apply [Facts₀] (x : S64.Idx → α) (a b : Fin 1) (o : Fin 64) :
    broadcastInDim S1x1x64 ![2] bcast_S64_S1x1x64_2 x (ix3 a b o) = x (ix1 o) :=
  broadcastInDim_apply _ _ x _ (ix1 o) fun d => match d with
    | ⟨0, _⟩ => rfl

/-- A `[1,1,64]` row stretched over `[8,2048,64]` reads the row at the same channel. -/
theorem bcast_row_all_apply [Facts₀] (r : S1x1x64.Idx → α) (n : Fin 8) (v : Fin 2048) (o : Fin 64) :
    broadcastInDim S8x2048x64 ![0, 1, 2] bcast_S1x1x64_S8x2048x64_0_1_2 r (ix3 n v o)
      = r (ix3 (0 : Fin 1) (0 : Fin 1) o) :=
  broadcastInDim_apply _ _ r _ (ix3 (0 : Fin 1) (0 : Fin 1) o) fun d => match d with
    | ⟨0, _⟩ => rfl
    | ⟨1, _⟩ => rfl
    | ⟨2, _⟩ => rfl

/-- The two together: a `[64]` vector laid along the channels of `[8,2048,64]`. -/
theorem bcast_vec_all_apply [Facts₀] (x : S64.Idx → α) (n : Fin 8) (v : Fin 2048) (o : Fin 64) :
    broadcastInDim S8x2048x64 ![0, 1, 2] bcast_S1x1x64_S8x2048x64_0_1_2
        (broadcastInDim S1x1x64 ![2] bcast_S64_S1x1x64_2 x) (ix3 n v o) = x (ix1 o) := by
  rw [bcast_row_all_apply, bcast_vec_row_apply]

/-- A scalar broadcast to `[64]` reads the scalar. -/
theorem bcast_scalar_vec_apply [Facts₀] (z : S_.Idx → α) (j : S64.Idx) :
    broadcastInDim S64 ![] bcast_S_S64 z j = z ix0 :=
  broadcastInDim_scalar_apply _ z j

/-- A scalar broadcast to `[1,1,64]` reads the scalar. -/
theorem bcast_scalar_row_apply [Facts₀] (z : S_.Idx → α) (j : S1x1x64.Idx) :
    broadcastInDim S1x1x64 ![] bcast_S_S1x1x64 z j = z ix0 :=
  broadcastInDim_scalar_apply _ z j

end Broadcasts

section Pointwise
variable {s : Shape}

/-- The host's quotient at an index is the extended reals' division of the entries. -/
theorem divf_apply (a b : FVec Ideal s .f32) (i : s.Idx) :
    Host.divf (F := Ideal) a b i = Ideal.div (a i) (b i) := rfl

/-- The host's reciprocal square root at an index is that of the entry. -/
theorem rsqrt_apply (x : FVec Ideal s .f32) (i : s.Idx) :
    Host.rsqrt (F := Ideal) x i = Ideal.rsqrt (x i) := rfl

/-- A square, printed as the product of an array with itself, at an index. -/
theorem square_apply (x : FVec Ideal s .f32) (i : s.Idx) : mulf x x i = x i * x i := rfl

end Pointwise

/-! ## The f32 words -/

/-- The f32 word `0x46800000` is `16384`. -/
theorem ofBits_16384_f32 : Ideal.ofBits .f32 0x46800000#32 = ((16384 : ℝ) : EReal) := by
  simp [Ideal.ofBits, Ideal.ieee, -EReal.coe_mul]; norm_num

/-- The splat of that word reads `16384` everywhere. -/
theorem constant_16384_apply {s : Shape} (i : s.Idx) :
    constant (F := Ideal) s .f32 0x46800000#32 i = ((16384 : ℝ) : EReal) := ofBits_16384_f32

/-- The splat of the zero word reads `0` everywhere. -/
theorem constant_zero_apply {s : Shape} (i : s.Idx) :
    constant (F := Ideal) s .f32 0x00000000#32 i = 0 := Ideal.ofBits_zero_f32

/-! ## The variance's normaliser -/

/-- The integer constant `0` converted to a float is `0`. -/
theorem sitofp_zero_apply (i : S_.Idx) :
    (sitofp (F := Ideal) .f32 (constantI S_ 32 0#32) : FVec Ideal S_ .f32) i = 0 := by
  show ((((0#32 : BitVec 32).toInt : ℤ) : ℝ) : EReal) = 0
  simp

/-- The count `16384 - 0` is `16384`. -/
theorem count_apply (i : S_.Idx) :
    subf (constant (F := Ideal) S_ .f32 0x46800000#32) (sitofp (F := Ideal) .f32 (constantI S_ 32 0#32)) i
      = ((16384 : ℝ) : EReal) := by
  rw [subf_apply, constant_16384_apply, sitofp_zero_apply, sub_zero]

/-- "Greater than" on the extended reals answers the bit `1` when it holds. -/
theorem cmp_ogt_of_lt {x y : EReal} (h : y < x) : Ideal.cmp .ogt x y = 1#1 := by
  unfold Ideal.cmp
  simp [h]

/-- The count is positive: the comparison against `0.0` is the bit `1`. -/
theorem count_pos_apply (i : S_.Idx) :
    cmpf (F := Ideal) .ogt
        (subf (constant (F := Ideal) S_ .f32 0x46800000#32) (sitofp (F := Ideal) .f32 (constantI S_ 32 0#32)))
        (constant (F := Ideal) S_ .f32 0x00000000#32) i = 1#1 := by
  rw [cmpf_apply, count_apply, constant_zero_apply, Ideal.cmpf_def]
  exact cmp_ogt_of_lt (by exact_mod_cast (by norm_num : (0 : ℝ) < 16384))

/-- A selection on a scalar bit that is `1`, broadcast to `[64]`, returns its first array. -/
theorem select_scalar_one [Facts₀] {α : Type} (p : IVec S_ 1) (hp : p ix0 = 1#1) (y w : S64.Idx → α) :
    select (broadcastInDim S64 ![] bcast_S_S64 p) y w = y := by
  funext j
  rw [select_apply, bcast_scalar_vec_apply, hp, select_one]

/-- The normaliser's guard, as printed: convert the integer `0`, subtract it from `16384`, compare the
    difference with `0.0`, and select on that bit.  The selection returns its first array `y`; the
    second array is never read. -/
theorem where_count_pos [Facts₀] (y w : FVec Ideal S64 .f32) :
    select (broadcastInDim S64 ![] bcast_S_S64
        (cmpf (F := Ideal) .ogt
          (subf (constant (F := Ideal) S_ .f32 0x46800000#32) (sitofp (F := Ideal) .f32 (constantI S_ 32 0#32)))
          (constant (F := Ideal) S_ .f32 0x00000000#32))) y w = y :=
  select_scalar_one _ (count_pos_apply ix0) y w

end Cert.RefRead

end
-- ==== Proof.RefValue.lean ====
import proofs.«100048_j70317204570386_2_alg».proof.Proof.RefRunStages
import proofs.«100048_j70317204570386_2_alg».proof.Proof.RefSpec
import proofs.«100048_j70317204570386_2_alg».proof.Proof.RefReadDot
import proofs.«100048_j70317204570386_2_alg».proof.Proof.RefReadConcat
import proofs.«100048_j70317204570386_2_alg».proof.Proof.RefReadReduce
import proofs.«100048_j70317204570386_2_alg».proof.Proof.RefReadSmall

/-!
# The reference's whole result read at an index

The reference's operations, composed in program order, give at `(n, v, o)`

  `((s (n, v, o) − mean o) · rsqrt (var o + ε)) · γ o + β o`

where `s (n, v, o) = ∑ c < 224, cat (n, v, c) · W (o, c) + b o` over the concatenation `cat` of the seven
node-major slabs (the input and one and two diffusion steps along each adjacency),
`mean o = (∑ n, ∑ v, s (n, v, o)) / 16384` and `var o = (∑ n, ∑ v, (s (n, v, o) − mean o)²) / 16384`.

Each composite is opened into its operations, each operation is read at an index, and the constants are
evaluated: the initial values of the three sums are the zero word, both divisors are `16384` (the second as
`16384 − 0`), and the guard "divisor `> 0`" holds, so the selection returns the quotient and never reads the
other constant.
-/

noncomputable section

namespace Cert.RefRead

open scoped BigOperators
open Idealize.ShloMosaic Idealize.ShloMosaic.ValueIdx
open Cert.ReferenceIdeal Cert.ReferenceIdeal.Facts₀ Cert.ReferenceIdeal.HandRun
open Cert.Spec Cert.Laws Cert.RefSpec

/-! ## The diffusion steps and the concatenation -/

/-- The reference's batched product is the node-major diffusion step. -/
theorem hostHop_eq_nodeHop (a : FVec Ideal S8x2048x2048 .f32) (x : FVec Ideal S8x2048x32 .f32) :
    (Host.dotGeneral (F := Ideal) dot_S8x2048x2048_S8x2048x32_S8x2048x32_1_1_2_2_0_0 none a x
      : FVec Ideal S8x2048x32 .f32) = nodeHop a x := by
  funext j
  obtain ⟨n, w, l, rfl⟩ : ∃ (n : Fin 8) (w : Fin 2048) (l : Fin 32), j = ix3 n w l := ⟨j 0, j 1, j 2, eq_ix3 j⟩
  rw [nodeHop_apply]
  exact dot_hop_apply a x n w l

theorem stage_v0_eq_nodeHop (a : FVec Ideal S8x2048x2048 .f32) (x : FVec Ideal S8x2048x32 .f32) :
    stage_v0 a x = nodeHop a x := hostHop_eq_nodeHop a x
theorem stage_v1_eq_nodeHop (a : FVec Ideal S8x2048x2048 .f32) (x : FVec Ideal S8x2048x32 .f32) :
    stage_v1 a x = nodeHop a x := hostHop_eq_nodeHop a x
theorem stage_v2_eq_nodeHop (a : FVec Ideal S8x2048x2048 .f32) (x : FVec Ideal S8x2048x32 .f32) :
    stage_v2 a x = nodeHop a x := hostHop_eq_nodeHop a x
theorem stage_v3_eq_nodeHop (a : FVec Ideal S8x2048x2048 .f32) (x : FVec Ideal S8x2048x32 .f32) :
    stage_v3 a x = nodeHop a x := hostHop_eq_nodeHop a x
theorem stage_v4_eq_nodeHop (a : FVec Ideal S8x2048x2048 .f32) (x : FVec Ideal S8x2048x32 .f32) :
    stage_v4 a x = nodeHop a x := hostHop_eq_nodeHop a x
theorem stage_v5_eq_nodeHop (a : FVec Ideal S8x2048x2048 .f32) (x : FVec Ideal S8x2048x32 .f32) :
    stage_v5 a x = nodeHop a x := hostHop_eq_nodeHop a x

/-- The concatenated slabs at any of the 224 columns: the concatenation of the seven node-major pieces. -/
theorem res_v6_apply (x : FVec Ideal S8x2048x32 .f32) (A0 A1 A2 : FVec Ideal S8x2048x2048 .f32)
    (n : Fin 8) (v : Fin 2048) (c : Fin 224) :
    res_v6 x A0 A1 A2 (ix3 n v c) = cat7 (pieces x A0 A1 A2) (ix3 n v c) := by
  obtain ⟨k, c', rfl⟩ : ∃ (k : Fin 7) (c' : Fin 32), c = slabCol k c' :=
    ⟨⟨c.val / 32, by have := c.isLt; omega⟩, ⟨c.val % 32, Nat.mod_lt _ (by decide)⟩,
      Fin.ext (by show c.val = 32 * (c.val / 32) + c.val % 32; omega)⟩
  rw [cat7_apply, res_v6_eq, stage_v0_eq_nodeHop, stage_v1_eq_nodeHop, stage_v2_eq_nodeHop, stage_v3_eq_nodeHop,
    stage_v4_eq_nodeHop, stage_v5_eq_nodeHop]
  unfold stage_v6
  match k with
  | ⟨0, _⟩ => exact concat7_apply_0 _ _ _ _ _ _ _ n v c'
  | ⟨1, _⟩ => exact concat7_apply_1 _ _ _ _ _ _ _ n v c'
  | ⟨2, _⟩ => exact concat7_apply_2 _ _ _ _ _ _ _ n v c'
  | ⟨3, _⟩ => exact concat7_apply_3 _ _ _ _ _ _ _ n v c'
  | ⟨4, _⟩ => exact concat7_apply_4 _ _ _ _ _ _ _ n v c'
  | ⟨5, _⟩ => exact concat7_apply_5 _ _ _ _ _ _ _ n v c'
  | ⟨6, _⟩ => exact concat7_apply_6 _ _ _ _ _ _ _ n v c'

/-! ## The mixed features -/

/-- The mixed features at `(n, v, o)`. -/
theorem res_v10_apply (x : FVec Ideal S8x2048x32 .f32) (A0 A1 A2 : FVec Ideal S8x2048x2048 .f32)
    (W : FVec Ideal S64x224 .f32) (b : FVec Ideal S64 .f32) (n : Fin 8) (v : Fin 2048) (o : Fin 64) :
    res_v10 x A0 A1 A2 W b (ix3 n v o) = refMixed x A0 A1 A2 W b (ix3 n v o) := by
  rw [res_v10_eq]
  unfold stage_v10 stage_v7 stage_v9 stage_v8
  rw [addf_apply, dot_mix_apply, bcast_vec_all_apply]
  show _ = (∑ c : Fin 224, cat7 (pieces x A0 A1 A2) (ix3 n v c) * W (ix2 o c)) + b (ix1 o)
  refine congrArg (· + b (ix1 o)) (Finset.sum_congr rfl fun c _ => ?_)
  rw [res_v6_apply]

/-- The mixed features, as one array. -/
theorem res_v10_eq_refMixed (x : FVec Ideal S8x2048x32 .f32) (A0 A1 A2 : FVec Ideal S8x2048x2048 .f32)
    (W : FVec Ideal S64x224 .f32) (b : FVec Ideal S64 .f32) :
    res_v10 x A0 A1 A2 W b = refMixed x A0 A1 A2 W b := by
  funext j
  obtain ⟨n, v, o, rfl⟩ : ∃ (n : Fin 8) (v : Fin 2048) (o : Fin 64), j = ix3 n v o := ⟨j 0, j 1, j 2, eq_ix3 j⟩
  exact res_v10_apply x A0 A1 A2 W b n v o

/-! ## The mean -/

/-- The mean of channel `o`: the sum over the 16384 positions divided by 16384. -/
theorem res_v13_apply (s : FVec Ideal S8x2048x64 .f32) (o : Fin 64) :
    res_v13 s (ix1 o) = refMean s (ix1 o) := by
  rw [res_v13_eq]
  unfold stage_v13 stage_v11 stage_v12 stage_cst stage_cst_0
  rw [Cert.RefRead.divf_apply, reduce01_zero_apply, bcast_scalar_vec_apply, constant_16384_apply]
  rfl

/-! ## The variance -/

/-- The variance's divisor `16384 − 0`. -/
theorem res_call0_v8_apply (i : S_.Idx) : res_call0_v8 i = ((16384 : ℝ) : EReal) := by
  rw [res_call0_v8_eq]
  unfold stage_call0_v8 stage_call0_cst_1 stage_call0_v7 stage_c
  exact count_apply i

/-- The centred features: the mean recomputed inside the variance is the same mean. -/
theorem res_call0_v5_apply (s : FVec Ideal S8x2048x64 .f32) (n : Fin 8) (v : Fin 2048) (o : Fin 64) :
    res_call0_v5 s (ix3 n v o) = s (ix3 n v o) - refMean s (ix1 o) := by
  rw [res_call0_v5_eq]
  unfold stage_call0_v5 stage_call0_v4 stage_call0_v3 stage_call0_v1 stage_call0_v0 stage_call0_v2 stage_call0_cst
    stage_call0_cst_0
  rw [subf_apply, bcast_row_all_apply, Cert.RefRead.divf_apply, bcast_vec_row_apply, reduce01_zero_apply,
    bcast_scalar_row_apply, constant_16384_apply]
  rfl

/-- The variance of channel `o`: the mean squared deviation from the mean. -/
theorem res_v14_apply (s : FVec Ideal S8x2048x64 .f32) (o : Fin 64) :
    res_v14 s (ix1 o) = refVar s (ix1 o) := by
  have hp : stage_call0_v12 res_call0_v8 stage_call0_cst_3 ix0 = 1#1 := by
    rw [res_call0_v8_eq]
    unfold stage_call0_v12 stage_call0_cst_3 stage_call0_v8 stage_call0_cst_1 stage_call0_v7 stage_c
    exact count_pos_apply ix0
  rw [res_v14_eq]
  unfold stage_v14
  rw [select_scalar_one _ hp]
  unfold stage_call0_v11 stage_call0_v9 stage_call0_v6 stage_call0_v10 stage_call0_cst_2
  rw [Cert.RefRead.divf_apply, reduce01_zero_apply, bcast_scalar_vec_apply, res_call0_v8_apply]
  show Ideal.div _ _ = Ideal.div (∑ n : Fin 8, ∑ v : Fin 2048,
      (s (ix3 n v o) - refMean s (ix1 o)) * (s (ix3 n v o) - refMean s (ix1 o))) total
  refine congrArg (fun t => Ideal.div t total)
    (Finset.sum_congr rfl fun n _ => Finset.sum_congr rfl fun v _ => ?_)
  rw [square_apply, res_call0_v5_apply]

/-! ## The output -/

/-- The output from the mixed features `s` at `(n, v, o)`. -/
theorem res_v29_apply (s : FVec Ideal S8x2048x64 .f32) (g be : FVec Ideal S64 .f32)
    (n : Fin 8) (v : Fin 2048) (o : Fin 64) :
    res_v29 s g be (ix3 n v o)
      = ((s (ix3 n v o) - refMean s (ix1 o)) * Ideal.rsqrt (refVar s (ix1 o) + Cert.Spec.eps)) * g (ix1 o)
        + be (ix1 o) := by
  rw [res_v29_eq]
  unfold stage_v29 stage_v26 stage_v23 stage_v17 stage_v16 stage_v15 stage_v22 stage_v21 stage_v20 stage_v19 stage_v18
    stage_cst_1 stage_v25 stage_v24 stage_v28 stage_v27
  rw [addf_apply, mulf_apply, mulf_apply, subf_apply, bcast_vec_all_apply, bcast_vec_all_apply, bcast_vec_all_apply,
    bcast_vec_all_apply, Cert.RefRead.rsqrt_apply, addf_apply, bcast_scalar_vec_apply, res_v13_apply, res_v14_apply]
  rfl

/-- **The reference's result is the specification's value.** -/
theorem result_eq_refValue (x : FVec Ideal S8x2048x32 .f32) (A0 A1 A2 : FVec Ideal S8x2048x2048 .f32)
    (W : FVec Ideal S64x224 .f32) (b g be : FVec Ideal S64 .f32) :
    result x A0 A1 A2 W b g be = refValue x A0 A1 A2 W b g be := by
  funext j
  obtain ⟨n, v, o, rfl⟩ : ∃ (n : Fin 8) (v : Fin 2048) (o : Fin 64), j = ix3 n v o := ⟨j 0, j 1, j 2, eq_ix3 j⟩
  rw [result_eq, res_v29_apply, res_v10_eq_refMixed]
  rfl

end Cert.RefRead

end
-- ==== Proof.lean ====
/-
  A graph-diffusion layer with batch normalisation: the kernel against its reference.

  Both programs take node features x [8, 2048, 32], three adjacencies [8, 2048, 2048], a mixing matrix [64, 224] and
  bias, scale and shift vectors [64]. With one diffusion step sending h to the array whose entry (n, w, l) is the sum
  over nodes v of a (n, v, w) · h (n, v, l), they form the seven slabs x, A₀x, A₀A₀x, A₁x, A₁A₁x, A₂x, A₂A₂x, mix their
  224 channels by the matrix and add the bias, take each output channel's mean and variance over the 16384
  (sample, node) pairs, and return ((s − mean) · rsqrt (variance + ε)) · scale + shift.

  The kernel works channel-major in five regions (three that take two diffusion steps each, one that mixes seven
  slabs of 32 channels and sums each channel's entries and their squares over a sample's nodes, one that normalises and
  transposes back), with the totals over the samples, the mean, and the variance as mean of squares minus squared
  mean formed between the last two. The reference contracts all 224 channels at once and takes the variance as the
  mean squared deviation from the mean. At the ideal values the two results are the same function of the arguments
  when every argument entry is a real number: a product's order and a finite sum's grouping are free on the extended
  reals, and the two variances agree on real entries.

  The three programs' runs: the kernel's two frames are the ones stated over its regions; the idealized kernel's run
  with its result named, and the reference's run, end with their result arrays at these functions of the arguments.
  Nothing was rewritten between the kernel and its idealization, so that claim asks nothing.
-/
import proofs.«100048_j70317204570386_2_alg».proof.Defs
import proofs.«100048_j70317204570386_2_alg».proof.Proof.Gen.Kernel
import proofs.«100048_j70317204570386_2_alg».proof.Proof.Gen.Kernel.Frame
import proofs.«100048_j70317204570386_2_alg».proof.Proof.Gen.KernelIdeal
import proofs.«100048_j70317204570386_2_alg».proof.Proof.Gen.KernelIdeal.Frame
import proofs.«100048_j70317204570386_2_alg».proof.Proof.Gen.ReferenceIdeal
import proofs.«100048_j70317204570386_2_alg».proof.Proof.Gen.Pre_finite_inputs
import proofs.«100048_j70317204570386_2_alg».proof.Proof.KWhole
import proofs.«100048_j70317204570386_2_alg».proof.Proof.Bridge
import proofs.«100048_j70317204570386_2_alg».proof.Proof.LawFinite
import proofs.«100048_j70317204570386_2_alg».proof.Proof.RefRun
import proofs.«100048_j70317204570386_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_ideal : Cert.frame_KernelIdeal := fun m ρ _ => Cert.KernelIdeal.Gen.frame m ρ

/-- The reference runs and leaves its arguments unchanged. -/
theorem frame_reference : Cert.frame_ReferenceIdeal := fun m ρ _ => Cert.ReferenceIdeal.HandRun.run_frame m ρ

/-- The idealization rewrote no operation. -/
theorem preserves : Cert.preserves_Kernel_KernelIdeal := trivial

/-- From memories agreeing on the arguments, all of whose entries are real numbers, both idealized programs run and
    end with the same result array: the kernel's function of the arguments, which is the reference's. -/
theorem algebraic : Cert.algebraic_KernelIdeal_ReferenceIdeal := by
  intro m ρ m' ρ' hpre hagree
  refine ⟨fun c => Cert.KernelIdeal.Chain.kernelValue
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.Whole.run m ρ, ?_⟩
  refine (θ_run (Cert.ReferenceIdeal.defs (F := Ideal)) _ _).mono (fun r h c => ⟨(h c).1.trans ?_, (h c).2⟩)
    (Cert.ReferenceIdeal.HandRun.run m' ρ')
  obtain ⟨e0, e1, e2, e3, e4, e5, e6, e7⟩ := hagree c
  obtain ⟨hx, h0, h1, h2, hw, hb, -, -⟩ := Cert.Laws.kernel_inputs_real m hpre c
  rw [e0, e1, e2, e3, e4, e5, e6, e7, Cert.RefRead.result_eq_refValue]
  exact (Cert.Bridge.kernelValue_eq_refValue _ _ _ _ _ _ _ _ hx h0 h1 h2 hw hb).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
